-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x32x32 : Shape := ⟨4, ![1, 1, 32, 32]⟩
abbrev S40 : Shape := ⟨1, ![40]⟩
abbrev S_ : Shape := ⟨0, ![]⟩

class Facts : Prop where
  bcast_S_S1x1x32x32 : S_.BroadcastsInDim S1x1x32x32 (![] : Fin 0 → Fin S1x1x32x32.rank)
  reducesTo_S1x1x32x32_S_d0_1_2_3 : S1x1x32x32.ReducesTo [0, 1, 2, 3] S_
  h_S_ : 0 < S_.numel
  bcast_S_S40 : S_.BroadcastsInDim S40 (![] : Fin 0 → Fin S40.rank)
  reducesTo_S40_S_d0 : S40.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1x1x32x32 .f32) (main_arg1 : FVec F S40 .f32) : IVec S_ 1 :=
  let main_v0 : FVec F S1x1x32x32 .f32 := Host.absf main_arg0
  let main_cst : FVec F S_ .f32 := constant S_ .f32 0x7F800000#32
  let main_v1 : FVec F S1x1x32x32 .f32 := broadcastInDim S1x1x32x32 ![] bcast_S_S1x1x32x32 main_cst
  let main_v2 : IVec S1x1x32x32 1 := cmpf .olt main_v0 main_v1
  let main_c : IVec S_ 1 := constantI S_ 1 1#1
  let main_v3 : IVec S_ 1 := (fun x v => Host.reduce IntOp.andi x v reducesTo_S1x1x32x32_S_d0_1_2_3 h_S_) main_v2 main_c
  let main_v4 : FVec F S40 .f32 := Host.absf main_arg1
  let main_cst_0 : FVec F S_ .f32 := constant S_ .f32 0x7F800000#32
  let main_v5 : FVec F S40 .f32 := broadcastInDim S40 ![] bcast_S_S40 main_cst_0
  let main_v6 : IVec S40 1 := cmpf .olt main_v4 main_v5
  let main_c_1 : IVec S_ 1 := constantI S_ 1 1#1
  let main_v7 : IVec S_ 1 := (fun x v => Host.reduce IntOp.andi x v reducesTo_S40_S_d0 h_S_) main_v6 main_c_1
  let main_v8 : IVec S_ 1 := andi main_v3 main_v7
  let main_cst_2 : FVec F S_ .f32 := constant S_ .f32 0x00000000#32
  let main_v9 : FVec F S1x1x32x32 .f32 := broadcastInDim S1x1x32x32 ![] bcast_S_S1x1x32x32 main_cst_2
  let main_v10 : IVec S1x1x32x32 1 := cmpf .ogt main_arg0 main_v9
  let main_c_3 : IVec S_ 1 := constantI S_ 1 1#1
  let main_v11 : IVec S_ 1 := (fun x v => Host.reduce IntOp.andi x v reducesTo_S1x1x32x32_S_d0_1_2_3 h_S_) main_v10 main_c_3
  let main_v12 : IVec S_ 1 := andi main_v8 main_v11
  let main_cst_4 : FVec F S_ .f32 := constant S_ .f32 0x00000000#32
  let main_v13 : FVec F S40 .f32 := broadcastInDim S40 ![] bcast_S_S40 main_cst_4
  let main_v14 : IVec S40 1 := cmpf .ogt main_arg1 main_v13
  let main_c_5 : IVec S_ 1 := constantI S_ 1 1#1
  let main_v15 : IVec S_ 1 := (fun x v => Host.reduce IntOp.andi x v reducesTo_S40_S_d0 h_S_) main_v14 main_c_5
  fn_part1 (F := F) main_v12 main_v15
-- ==== Kernel.lean ====
abbrev S1x1x32x32 : Shape := ⟨4, ![1, 1, 32, 32]⟩
abbrev S40 : Shape := ⟨1, ![40]⟩
abbrev S1024 : Shape := ⟨1, ![1024]⟩
abbrev S1024x40 : Shape := ⟨2, ![1024, 40]⟩
abbrev S40960 : Shape := ⟨1, ![40960]⟩
abbrev S1x40 : Shape := ⟨2, ![1, 40]⟩
abbrev S1024x16 : Shape := ⟨2, ![1024, 16]⟩
abbrev S16384 : Shape := ⟨1, ![16384]⟩
abbrev S1024x40960 : Shape := ⟨2, ![1024, 40960]⟩
abbrev S512 : Shape := ⟨1, ![512]⟩
abbrev S_ : Shape := ⟨0, ![]⟩
abbrev S16 : Shape := ⟨1, ![16]⟩
abbrev S1x40960 : Shape := ⟨2, ![1, 40960]⟩
abbrev S32x32x40960 : Shape := ⟨3, ![32, 32, 40960]⟩

abbrev nBuf : Table → Nat
  | .hbm => 12
  | .local .scVector .vmem => 4
  | _ => 0

abbrev bufTy : (tb : Table) → Fin (nBuf tb) → BufTy
  | .hbm, ⟨0, _⟩ => ⟨S1x1x32x32, .f32⟩
  | .hbm, ⟨1, _⟩ => ⟨S40, .f32⟩
  | .hbm, ⟨2, _⟩ => ⟨S1024, .f32⟩
  | .hbm, ⟨3, _⟩ => ⟨S1024x40, .f32⟩
  | .hbm, ⟨4, _⟩ => ⟨S40960, .f32⟩
  | .hbm, ⟨5, _⟩ => ⟨S1x40, .f32⟩
  | .hbm, ⟨6, _⟩ => ⟨S1024x40, .f32⟩
  | .hbm, ⟨7, _⟩ => ⟨S40960, .f32⟩
  | .hbm, ⟨8, _⟩ => ⟨S1024x16, .f32⟩
  | .hbm, ⟨9, _⟩ => ⟨S16384, .f32⟩
  | .hbm, ⟨10, _⟩ => ⟨S1024x40960, .f32⟩
  | .hbm, ⟨11, _⟩ => ⟨S32x32x40960, .f32⟩
  | .local .scVector .vmem, ⟨0, _⟩ => ⟨S40960, .f32⟩
  | .local .scVector .vmem, ⟨1, _⟩ => ⟨S40960, .f32⟩
  | .local .scVector .vmem, ⟨2, _⟩ => ⟨S40960, .f32⟩
  | .local .scVector .vmem, ⟨3, _⟩ => ⟨S512, .f32⟩
  | _, _ => ⟨S1x1x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v2_scv : Ref sig .scVector := ⟨.hbm, 4, rfl⟩
abbrev main_v5_scv : Ref sig .scVector := ⟨.hbm, 7, rfl⟩
abbrev main_v7_scv : Ref sig .scVector := ⟨.hbm, 9, rfl⟩
abbrev main_v8_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c16_i32_0 : BitVec 32 := 16#32
  let v3 : BitVec 32 := Scalar.muli v2 c16_i32_0
  ![v3.toNat]
@[reducible] def k0_t1_loop : Scf.Loop 32 :=
  let c0_i32_1 : BitVec 32 := 0#32
  let c320_i32 : BitVec 32 := 320#32
  let v4 : BitVec 32 := Scalar.addi c0_i32_1 c320_i32
  let c1_i32 : BitVec 32 := 1#32
  ⟨c0_i32_1, v4, c1_i32⟩
def k0_off2 (k0_t1 : Fin k0_t1_loop.trips) (c0_i32_12 : BitVec 32) : Fin 1 → Nat :=
  let c0_i32_1 : BitVec 32 := 0#32
  let c1_i32 : BitVec 32 := 1#32
  let arg12 : BitVec 32 := Scf.iv c0_i32_1 c1_i32 k0_t1
  let c8_i32 : BitVec 32 := 8#32
  let v14 : BitVec 32 := Scalar.muli arg12 c8_i32
  let v15 : BitVec 32 := Scalar.addi v14 c0_i32_12
  let c16_i32_13 : BitVec 32 := 16#32
  let v16 : BitVec 32 := Scalar.muli v15 c16_i32_13
  let v17 : Index := Scalar.indexCast v16
  ![v17.toNat]
@[reducible] def k0_t2_loop : Scf.Loop 32 :=
  let c0_i32_4 : BitVec 32 := 0#32
  let c16_i32_5 : BitVec 32 := 16#32
  let v5 : BitVec 32 := Scalar.addi c0_i32_4 c16_i32_5
  let c1_i32_6 : BitVec 32 := 1#32
  ⟨c0_i32_4, v5, c1_i32_6⟩
def k0_off3 (k0_t2 : Fin k0_t2_loop.trips) (c0_i32_12 : BitVec 32) : Fin 1 → Nat :=
  let c0_i32_4 : BitVec 32 := 0#32
  let c1_i32_6 : BitVec 32 := 1#32
  let arg12 : BitVec 32 := Scf.iv c0_i32_4 c1_i32_6 k0_t2
  let c2_i32 : BitVec 32 := 2#32
  let v14 : BitVec 32 := Scalar.muli arg12 c2_i32
  let v15 : BitVec 32 := Scalar.addi v14 c0_i32_12
  let c16_i32_13 : BitVec 32 := 16#32
  let v17 : BitVec 32 := Scalar.muli v15 c16_i32_13
  let v18 : Index := Scalar.indexCast v17
  ![v18.toNat]
def k0_cond1 (k0_t2 : Fin k0_t2_loop.trips) : BitVec 1 :=
  let c0_i32_4 : BitVec 32 := 0#32
  let c1_i32_6 : BitVec 32 := 1#32
  let arg12 : BitVec 32 := Scf.iv c0_i32_4 c1_i32_6 k0_t2
  let c0_i32_14 : BitVec 32 := 0#32
  let v21 : BitVec 1 := Scalar.cmpi .sgt arg12 c0_i32_14
  let v22 : BitVec 32 := Scalar.extui v21
  let c0_i32_15 : BitVec 32 := 0#32
  let v23 : BitVec 1 := Scalar.cmpi .ne v22 c0_i32_15
  v23

def k0_off4 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_35 : BitVec 32 := 0#32
  ![v2.toNat, 0]
@[reducible] def k0_t3_loop : Scf.Loop 32 :=
  let c0_i32_17 : BitVec 32 := 0#32
  let c320_i32_18 : BitVec 32 := 320#32
  let v24 : BitVec 32 := Scalar.addi c0_i32_17 c320_i32_18
  let c1_i32_19 : BitVec 32 := 1#32
  ⟨c0_i32_17, v24, c1_i32_19⟩
def k0_off5 (k0_t3 : Fin k0_t3_loop.trips) (c0_i32_35 : BitVec 32) : Fin 1 → Nat :=
  let c0_i32_17 : BitVec 32 := 0#32
  let c1_i32_19 : BitVec 32 := 1#32
  let arg13 : BitVec 32 := Scf.iv c0_i32_17 c1_i32_19 k0_t3
  let c8_i32 : BitVec 32 := 8#32
  let v44 : BitVec 32 := Scalar.muli arg13 c8_i32
  let v45 : BitVec 32 := Scalar.addi v44 c0_i32_35
  let c16_i32_36 : BitVec 32 := 16#32
  let v46 : BitVec 32 := Scalar.muli v45 c16_i32_36
  let v47 : Index := Scalar.indexCast v46
  ![v47.toNat]
def k0_off6 (i : grid0.Coords) (k0_t2 : Fin k0_t2_loop.trips) (c0_i32_12 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_4 : BitVec 32 := 0#32
  let c1_i32_6 : BitVec 32 := 1#32
  let arg12 : BitVec 32 := Scf.iv c0_i32_4 c1_i32_6 k0_t2
  let c2_i32 : BitVec 32 := 2#32
  let v14 : BitVec 32 := Scalar.muli arg12 c2_i32
  let v15 : BitVec 32 := Scalar.addi v14 c0_i32_12
  let v16 : BitVec 32 := Scalar.addi v2 v15
  let c0_i32_21 : BitVec 32 := 0#32
  ![v16.toNat, 0]
def k0_cond2 (k0_t2 : Fin k0_t2_loop.trips) : BitVec 1 :=
  let c0_i32_4 : BitVec 32 := 0#32
  let c1_i32_6 : BitVec 32 := 1#32
  let arg12 : BitVec 32 := Scf.iv c0_i32_4 c1_i32_6 k0_t2
  let c0_i32_26 : BitVec 32 := 0#32
  let v36 : BitVec 1 := Scalar.cmpi .sgt arg12 c0_i32_26
  let v37 : BitVec 32 := Scalar.extui v36
  let c0_i32_27 : BitVec 32 := 0#32
  let v38 : BitVec 1 := Scalar.cmpi .ne v37 c0_i32_27
  v38

def k0_off7 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_35 : BitVec 32 := 0#32
  ![v2.toNat, 0]
@[reducible] def k0_t4_loop : Scf.Loop 32 :=
  let c0_i32_29 : BitVec 32 := 0#32
  let c320_i32_30 : BitVec 32 := 320#32
  let v39 : BitVec 32 := Scalar.addi c0_i32_29 c320_i32_30
  let c1_i32_31 : BitVec 32 := 1#32
  ⟨c0_i32_29, v39, c1_i32_31⟩
def k0_off8 (k0_t4 : Fin k0_t4_loop.trips) (c0_i32_35 : BitVec 32) : Fin 1 → Nat :=
  let c0_i32_29 : BitVec 32 := 0#32
  let c1_i32_31 : BitVec 32 := 1#32
  let arg13 : BitVec 32 := Scf.iv c0_i32_29 c1_i32_31 k0_t4
  let c8_i32 : BitVec 32 := 8#32
  let v44 : BitVec 32 := Scalar.muli arg13 c8_i32
  let v45 : BitVec 32 := Scalar.addi v44 c0_i32_35
  let c16_i32_36 : BitVec 32 := 16#32
  let v46 : BitVec 32 := Scalar.muli v45 c16_i32_36
  let v47 : Index := Scalar.indexCast v46
  ![v47.toNat]
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_8 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x1x32x32_S1024 : S1x1x32x32.ShapeCasts S1024
  bcast_S1024_S1024x40_0 : S1024.BroadcastsInDim S1024x40 (![0] : Fin 1 → Fin S1024x40.rank)
  shapeCasts_S1024x40_S40960 : S1024x40.ShapeCasts S40960
  shapeCasts_S40_S1x40 : S40.ShapeCasts S1x40
  bcast_S1x40_S1024x40_0_1 : S1x40.BroadcastsInDim S1024x40 (![0, 1] : Fin 2 → Fin S1024x40.rank)
  bcast_S1024_S1024x16_0 : S1024.BroadcastsInDim S1024x16 (![0] : Fin 1 → Fin S1024x16.rank)
  shapeCasts_S1024x16_S16384 : S1024x16.ShapeCasts S16384
  h_S16 : 0 < S16.numel
  shapeCasts_S16_S16 : S16.ShapeCasts S16
  squeezes_S1x40960_S40960 : S1x40960.Squeezes S40960
  shapeCasts_S1024x40960_S32x32x40960 : S1024x40960.ShapeCasts S32x32x40960
  hcc0_scratch4 : 0 + S_.numel ≤ 5
  hcc0_scratch5 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ (r : Fin 8), ∀ a, (k0_off2 k0_t1 (BitVec.ofNat 32 r.val)) a + S16.size a ≤ S40960.size a
  k0_t2_ok : k0_t2_loop.OK
  k0_off3_inb : ∀ k0_t2 : Fin k0_t2_loop.trips, ∀ (r : Fin 2), ∀ a, (k0_off3 k0_t2 (BitVec.ofNat 32 r.val)) a + S16.size a ≤ S512.size a
  k0_off4_inb : ∀ (i : grid0.Coords) (k0_t2 : Fin k0_t2_loop.trips), ∀ (k0_h1 : k0_cond1 k0_t2 = 1#1), ∀ a, (k0_off4 i) a + S1x40960.size a ≤ S1024x40960.size a
  k0_t3_ok : k0_t3_loop.OK
  k0_off5_inb : ∀ k0_t3 : Fin k0_t3_loop.trips, ∀ (r : Fin 8), ∀ a, (k0_off5 k0_t3 (BitVec.ofNat 32 r.val)) a + S16.size a ≤ S40960.size a
  k0_off6_inb : ∀ (i : grid0.Coords) (k0_t2 : Fin k0_t2_loop.trips), ∀ (r : Fin 2), ∀ a, (k0_off6 i k0_t2 (BitVec.ofNat 32 r.val)) a + S1x40960.size a ≤ S1024x40960.size a
  k0_off7_inb : ∀ (i : grid0.Coords) (k0_t2 : Fin k0_t2_loop.trips), ∀ (k0_h2 : k0_cond2 k0_t2 = 1#1), ∀ a, (k0_off7 i) a + S1x40960.size a ≤ S1024x40960.size a
  k0_t4_ok : k0_t4_loop.OK
  k0_off8_inb : ∀ k0_t4 : Fin k0_t4_loop.trips, ∀ (r : Fin 8), ∀ a, (k0_off8 k0_t4 (BitVec.ofNat 32 r.val)) a + S16.size a ≤ S40960.size a
  k0_off9_inb : ∀ i : grid0.Coords, ∀ a, (k0_off9 i) a + S1x40960.size a ≤ S1024x40960.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

class Facts : Prop extends Facts₀ where

variable [Facts]
-- ==== ReferenceIdeal.lean ====
abbrev S1x1x32x32 : Shape := ⟨4, ![1, 1, 32, 32]⟩
abbrev S40 : Shape := ⟨1, ![40]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S32x32x1024 : Shape := ⟨3, ![32, 32, 1024]⟩
abbrev S32x32x1024x1 : Shape := ⟨4, ![32, 32, 1024, 1]⟩
abbrev S1x1x1x40 : Shape := ⟨4, ![1, 1, 1, 40]⟩
abbrev S32x32x1024x40 : Shape := ⟨4, ![32, 32, 1024, 40]⟩
abbrev S32x32x40960 : Shape := ⟨3, ![32, 32, 40960]⟩

abbrev nBuf : Space → Nat
  | .hbm => 16
  | .vmem => 0
  | .smem => 0
  | _ => 0

abbrev bufTy : (tb : Table) → Fin (tcTables nBuf tb) → BufTy
  | .hbm, ⟨0, _⟩ => ⟨S1x1x32x32, .f32⟩
  | .hbm, ⟨1, _⟩ => ⟨S40, .f32⟩
  | .hbm, ⟨2, _⟩ => ⟨S1024, .f32⟩
  | .hbm, ⟨3, _⟩ => ⟨S1x1024, .f32⟩
  | .hbm, ⟨4, _⟩ => ⟨S1024x1, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S32x32x1024, .f32⟩
  | .hbm, ⟨9, _⟩ => ⟨S32x32x1024x1, .f32⟩
  | .hbm, ⟨10, _⟩ => ⟨S1x1x1x40, .f32⟩
  | .hbm, ⟨11, _⟩ => ⟨S32x32x1024x40, .f32⟩
  | .hbm, ⟨12, _⟩ => ⟨S32x32x1024x40, .f32⟩
  | .hbm, ⟨13, _⟩ => ⟨S32x32x1024x40, .i1⟩
  | .hbm, ⟨14, _⟩ => ⟨S32x32x1024x40, .f32⟩
  | .hbm, ⟨15, _⟩ => ⟨S32x32x40960, .f32⟩
  | _, _ => ⟨S1x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]

class Facts₀ : Prop where
  shapeCasts_S1x1x32x32_S1024 : S1x1x32x32.ShapeCasts S1024
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  shapeCasts_S1024x1024_S32x32x1024 : S1024x1024.ShapeCasts S32x32x1024
  bcast_S32x32x1024_S32x32x1024x1_0_1_2 : S32x32x1024.BroadcastsInDim S32x32x1024x1 (![0, 1, 2] : Fin 3 → Fin S32x32x1024x1.rank)
  bcast_S40_S1x1x1x40_3 : S40.BroadcastsInDim S1x1x1x40 (![3] : Fin 1 → Fin S1x1x1x40.rank)
  bcast_S32x32x1024x1_S32x32x1024x40_0_1_2_3 : S32x32x1024x1.BroadcastsInDim S32x32x1024x40 (![0, 1, 2, 3] : Fin 4 → Fin S32x32x1024x40.rank)
  bcast_S1x1x1x40_S32x32x1024x40_0_1_2_3 : S1x1x1x40.BroadcastsInDim S32x32x1024x40 (![0, 1, 2, 3] : Fin 4 → Fin S32x32x1024x40.rank)
  shapeCasts_S32x32x1024x40_S32x32x40960 : S32x32x1024x40.ShapeCasts S32x32x40960

variable [Facts₀]

class Facts : Prop extends Facts₀ where

variable [Facts]
-- ==== Proof.TileSpec.lean ====
/-
  What one vector subcore's task of the labelling kernel is handed and what it hands back.

  The kernel computes, for every pixel row `r` of the 1024 and every column `k` of the 40960,
  the label `1` if `a k / b k ≥ t (16 r + lane)` and `0` otherwise, where `a` is the depth map with each
  entry repeated forty times, `b` the forty quantiser levels tiled 1024 times and `t` the depth map with each
  entry repeated sixteen times (one vector of equal lanes per row). The 32 vector subcores (2 SparseCores
  of 16) share the rows: subcore `w = 16 c + s` writes rows `32 w … 32 w + 31`, reading `a` and `b` whole and
  the 512 entries of `t` that belong to its rows.

  This module fixes the vocabulary: the arrays' locations, the memrefs as the body table passes them, the
  sets of elements a task owns, the whole-array function `OutBuf` the result holds at the end, the assertions
  `tileIn` / `tileOut`, and the program and ghost state as the launch theorem sees them.
-/
import proofs.«210286_g62405874811728_cont_9to1_m_386_18_alg».proof.Kernel
import proofs.«210286_g62405874811728_cont_9to1_m_386_18_alg».proof.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.KernelIdeal
import proofs.«210286_g62405874811728_cont_9to1_m_386_18_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the memrefs -/

abbrev aLoc (d : Dev nD) : Loc nD τ sig := (SparseCore.T d).loc main_v2
abbrev bLoc (d : Dev nD) : Loc nD τ sig := (SparseCore.T d).loc main_v5
abbrev tLoc (d : Dev nD) : Loc nD τ sig := (SparseCore.T d).loc main_v7
abbrev oLoc (d : Dev nD) : Loc nD τ sig := (SparseCore.T d).loc main_v8

abbrev aW : Memref sig .scVector .hbm S40960 .f32 := Memref.whole main_v2_scv
abbrev bW : Memref sig .scVector .hbm S40960 .f32 := Memref.whole main_v5_scv
abbrev tW : Memref sig .scVector .hbm S16384 .f32 := Memref.whole main_v7_scv
abbrev oW : Memref sig .scVector .hbm S1024x40960 .f32 := Memref.whole main_v8_scv
abbrev sR : Memref sig .scVector .vmem S40960 .f32 := Memref.whole cc0_scratch0
abbrev s0 : Memref sig .scVector .vmem S40960 .f32 := Memref.whole cc0_scratch1
abbrev s1 : Memref sig .scVector .vmem S40960 .f32 := Memref.whole cc0_scratch2
abbrev sT : Memref sig .scVector .vmem S512 .f32 := Memref.whole cc0_scratch3

abbrev cV (L : grid0.Coords) : Fin τ.nSC := (L 0).castLE hcore0
abbrev jV (L : grid0.Coords) : Fin τ.nSub := (L 1).castLE hsub0

/-- The 512 thresholds of a task's 32 rows, as the kernel slices them. -/
abbrev tSl (L : grid0.Coords) : Memref sig .scVector .hbm S512 .f32 :=
  (tW).slice (Rect.unit (s := S16384) (k0_off1 L) S512.size (k0_off1_inb L)) (fun _ => rfl)

/-- Row `2 g + r` of a task's 32 rows of the result, as the kernel slices it. -/
abbrev oRow (L : grid0.Coords) (g : Fin k0_t2_loop.trips) (r : Fin 2) : Memref sig .scVector .hbm S40960 .f32 :=
  ((oW).slice (Rect.unit (s := S1024x40960) (k0_off6 L g (BitVec.ofNat 32 r.val)) S1x40960.size (k0_off6_inb L g r)) (fun _ => rfl)).squeeze S40960 squeezes_S1x40960_S40960

/-- The task's number among the 32: `16 c + s`. -/
def wid (L : grid0.Coords) : Fin 32 :=
  ⟨16 * (L 0).val + (L 1).val, by
    have h0 : (L 0).val < 2 := (L 0).isLt
    have h1 : (L 1).val < 16 := (L 1).isLt
    omega⟩

/-! ## The value -/

section Value

variable [FloatOps F]

/-- Sixteen consecutive entries of a flat array, from entry `16 n`. -/
def lanes {N : Nat} (X : (⟨1, ![N]⟩ : Shape).Idx → Elt F .f32) (n : Nat) (hn : 16 * n + 16 ≤ N) : Vec F S16 .f32 :=
  fun l => X (ix1 ⟨16 * n + (l 0).val, by have h : (l 0).val < 16 := (l 0).isLt; omega⟩)

/-- The result array the kernel leaves: at row `r`, column `k`, the label of `a k / b k` against the threshold
    lane `16 r + k % 16`, computed by the kernel's own vector operations on the sixteen-lane chunk `k / 16`. -/
def OutBuf (A B : S40960.Idx → Elt F .f32) (Tt : S16384.Idx → Elt F .f32) : S1024x40960.Idx → Elt F .f32 := fun idx =>
  have hr : (idx 0).val < 1024 := (idx 0).isLt
  have hk : (idx 1).val < 40960 := (idx 1).isLt
  k0_pay10 (k0_pay22 (lanes Tt (idx 0).val (by omega)))
    (k0_pay3 (lanes A ((idx 1).val / 16) (by omega)) (lanes B ((idx 1).val / 16) (by omega)))
    (ix1 ⟨(idx 1).val % 16, Nat.mod_lt _ (by decide)⟩)

end Value

/-! ## What a task is handed and hands back -/

variable (A : (d : Dev nD) → Buf (Elt F) (aLoc d)) (B : (d : Dev nD) → Buf (Elt F) (bLoc d))
  (Tt : (d : Dev nD) → Buf (Elt F) (tLoc d)) (O0 : (d : Dev nD) → Buf (Elt F) (oLoc d))

/-- A task's share of the inputs and its rows of the result at the contents `Oc`. -/
def tileRes (Oc : (d : Dev nD) → Buf (Elt F) (oLoc d)) (d : Dev nD) (L : grid0.Coords) : sProp 𝕄 :=
  iprop((aLoc d ↦{Transfers.shareTok fullShare 32 (wid L)} A d) ∗ (bLoc d ↦{Transfers.shareTok fullShare 32 (wid L)} B d)
    ∗ (tLoc d ↦[(tSl L).view.set]{fullShare} Tt d)
    ∗ bigSep Finset.univ fun g : Fin k0_t2_loop.trips => bigSep Finset.univ fun r : Fin 2 =>
        oLoc d ↦[(oRow L g r).view.set]{fullShare} Oc d)

/-- Handed to the task: its rows at the launch contents. -/
abbrev tileIn (d : Dev nD) (L : grid0.Coords) : sProp 𝕄 := tileRes A B Tt O0 d L

/-- Handed back: its rows at the labels. -/
abbrev tileOut [FloatOps F] (d : Dev nD) (L : grid0.Coords) : sProp 𝕄 :=
  tileRes A B Tt (fun d => OutBuf (A d) (B d) (Tt d)) d L

/-- One task, run from what it is handed to what it hands back (the obligation the launch theorem asks of every
    vector subcore, at a symbolic subcore). -/
def TileBodyStmt [FloatOps F] : Prop :=
  ∀ (_hF : (K (F := F)).Facts) (d : Dev nD) (L : grid0.Coords) (O : CellTallies nD τ sig (HIx 1)) (W : Waits sig (HIx 1)), (∀ g, O g none = 0) →
    iprop(levAts (K (F := F)).L (K (F := F)).lev ∗ emp ∗ tileIn A B Tt O0 d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L aW (Memref.isWhole_whole _) bW (Memref.isWhole_whole _) tW (Memref.isWhole_whole _) oW (Memref.isWhole_whole _)
            sR (Memref.isWhole_whole _) s0 (Memref.isWhole_whole _) s1 (Memref.isWhole_whole _) sT (Memref.isWhole_whole _)
            cc0_scratch4 cc0_scratch5 cc0_scoped0 cc0_scoped1 cc0_scoped2)
          fun _ => iprop(tileOut A B Tt d L ∗ scopedBufs (V d (cV L) (jV L)) ∗ scopedSems0 (V d (cV L) (jV L))
            ∗ ∃ W', ⌜∀ p ∈ W', p ∈ W ∨ p.2 = none⌝ ∗ owes (V d (cV L) (jV L)) O W')

/-- Coordinates (SparseCore, subcore) as the body table builds them. -/
def coordsV (c : Fin (grid0.bound 0)) (s : Fin (grid0.bound 1)) : grid0.Coords :=
  fun | 0 => c | 1 => s | ⟨_ + 2, h⟩ => absurd h (Nat.not_lt.2 (Nat.le_add_left _ _))

/-- The four arrays held whole are the same as: what remains of `a` and `b` after 32 read tokens are split off,
    and every task's part — its tokens of `a` and `b`, its 512 entries of `t`, its 32 rows of the result —, whatever the
    result holds (`Oc`). Used one way before the call (at the launch contents) and the other way after it (at the labels). -/
def SplitStmt (Oc : (d : Dev nD) → Buf (Elt F) (oLoc d)) : Prop :=
  ∀ d : Dev nD,
    (iprop((aLoc d ↦{fullShare} A d) ∗ (bLoc d ↦{fullShare} B d) ∗ (tLoc d ↦{fullShare} Tt d) ∗ (oLoc d ↦{fullShare} Oc d)) : sProp 𝕄)
      ⊣⊢ iprop((aLoc d ↦{Transfers.shareDrop fullShare 32} A d) ∗ (bLoc d ↦{Transfers.shareDrop fullShare 32} B d)
        ∗ bigSep Finset.univ fun c : Fin (grid0.bound 0) => bigSep Finset.univ fun s : Fin (grid0.bound 1) =>
            tileRes A B Tt Oc d (coordsV c s))

/-! ## The whole program's result as a function of its two arguments -/

section Whole

variable [FloatOps F]

/-- The depth map flattened, each entry repeated forty times: @main's operand `a` of the kernel. -/
def hostA (x : FVec F S1x1x32x32 .f32) : FVec F S40960 .f32 :=
  shapeCast S40960 (broadcastInDim S1024x40 ![0] bcast_S1024_S1024x40_0 (shapeCast S1024 x shapeCasts_S1x1x32x32_S1024)) shapeCasts_S1024x40_S40960
/-- The forty levels tiled 1024 times: @main's operand `b`. -/
def hostB (q : FVec F S40 .f32) : FVec F S40960 .f32 :=
  shapeCast S40960 (broadcastInDim S1024x40 ![0, 1] bcast_S1x40_S1024x40_0_1 (shapeCast S1x40 q shapeCasts_S40_S1x40)) shapeCasts_S1024x40_S40960
/-- The depth map flattened, each entry repeated sixteen times: @main's operand `t`. -/
def hostT (x : FVec F S1x1x32x32 .f32) : FVec F S16384 .f32 :=
  shapeCast S16384 (broadcastInDim S1024x16 ![0] bcast_S1024_S1024x16_0 (shapeCast S1024 x shapeCasts_S1x1x32x32_S1024)) shapeCasts_S1024x16_S16384
/-- @main's result: the kernel's array of labels reshaped to [32, 32, 40960]. -/
def kernelVal (x : FVec F S1x1x32x32 .f32) (q : FVec F S40 .f32) : FVec F S32x32x40960 .f32 :=
  shapeCast S32x32x40960 (OutBuf (hostA x) (hostB q) (hostT x)) shapeCasts_S1024x40960_S32x32x40960

end Whole

end Cert.Proof.KI

end
-- ==== Proof.TileScoped.lean ====
/-
  One vector subcore's task of the labelling kernel, run symbolically.
-/
import proofs.«210286_g62405874811728_cont_9to1_m_386_18_alg».proof.Kernel
import proofs.«210286_g62405874811728_cont_9to1_m_386_18_alg».proof.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.KernelIdeal
import proofs.«210286_g62405874811728_cont_9to1_m_386_18_alg».proof.Proof.Gen.KernelIdeal.Skeleton
import proofs.«210286_g62405874811728_cont_9to1_m_386_18_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Tile

variable (d : Dev nD) (L : grid0.Coords)

/-! ## The subcore's semaphores and scratch -/

abbrev cS0 (d : Dev nD) (c : Fin τ.nSC) (i : Fin τ.nSub) : GSem nD τ sig := (V d c i, .dma cc0_scratch4.sem)
abbrev cS1 (d : Dev nD) (c : Fin τ.nSC) (i : Fin τ.nSub) : GSem nD τ sig := (V d c i, .dma cc0_scratch5.sem)
abbrev cR0 (d : Dev nD) (c : Fin τ.nSC) (i : Fin τ.nSub) : GSem nD τ sig := (V d c i, .dma cc0_scoped0.sem)
abbrev cR1 (d : Dev nD) (c : Fin τ.nSC) (i : Fin τ.nSub) : GSem nD τ sig := (V d c i, .dma cc0_scoped1.sem)
abbrev cR2 (d : Dev nD) (c : Fin τ.nSC) (i : Fin τ.nSub) : GSem nD τ sig := (V d c i, .dma cc0_scoped2.sem)

theorem ownSems0_V :
    (ownSems0 (V d (cV L) (jV L)) : sProp 𝕄)
      = iprop(semVal (cS0 d (cV L) (jV L)) 0 ∗ semVal (cS1 d (cV L) (jV L)) 0 ∗ semVal (cR0 d (cV L) (jV L)) 0
          ∗ semVal (cR1 d (cV L) (jV L)) 0 ∗ semVal (cR2 d (cV L) (jV L)) 0
          ∗ bigSep (((((( ownCells (V d (cV L) (jV L))).erase (cS0 d (cV L) (jV L))).erase (cS1 d (cV L) (jV L))).erase (cR0 d (cV L) (jV L))).erase
              (cR1 d (cV L) (jV L))).erase (cR2 d (cV L) (jV L)))
              fun g => semVal g 0) := by
  unfold SparseCore.Cfg.ownSems0
  rw [SparseCore.bigSep_erase' ((mem_ownCells (g := cS0 d (cV L) (jV L))).mpr ⟨rfl, by
      show (SemLoc.dma cc0_scratch4.sem : SemLoc sig).isScoped .scVector = true; decide⟩),
    SparseCore.bigSep_erase' (Finset.mem_erase.mpr ⟨by simp [cS0, cS1]; decide, (mem_ownCells (g := cS1 d (cV L) (jV L))).mpr ⟨rfl, by
      show (SemLoc.dma cc0_scratch5.sem : SemLoc sig).isScoped .scVector = true; decide⟩⟩),
    SparseCore.bigSep_erase' (Finset.mem_erase.mpr ⟨by simp [cS1, cR0]; decide, Finset.mem_erase.mpr ⟨by simp [cS0, cR0]; decide,
      (mem_ownCells (g := cR0 d (cV L) (jV L))).mpr ⟨rfl, by show (SemLoc.dma cc0_scoped0.sem : SemLoc sig).isScoped .scVector = true; decide⟩⟩⟩),
    SparseCore.bigSep_erase' (Finset.mem_erase.mpr ⟨by simp [cR0, cR1]; decide, Finset.mem_erase.mpr ⟨by simp [cS1, cR1]; decide, Finset.mem_erase.mpr ⟨by simp [cS0, cR1]; decide,
      (mem_ownCells (g := cR1 d (cV L) (jV L))).mpr ⟨rfl, by show (SemLoc.dma cc0_scoped1.sem : SemLoc sig).isScoped .scVector = true; decide⟩⟩⟩⟩),
    SparseCore.bigSep_erase' (Finset.mem_erase.mpr ⟨by simp [cR1, cR2]; decide, Finset.mem_erase.mpr ⟨by simp [cR0, cR2]; decide, Finset.mem_erase.mpr ⟨by simp [cS1, cR2]; decide, Finset.mem_erase.mpr ⟨by simp [cS0, cR2]; decide,
      (mem_ownCells (g := cR2 d (cV L) (jV L))).mpr ⟨rfl, by show (SemLoc.dma cc0_scoped2.sem : SemLoc sig).isScoped .scVector = true; decide⟩⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Tile

end Cert.Proof.KI

end
-- ==== Proof.TileVals.lean ====
/-
  The values one task's loops store, entry by entry: the ratios of the two inputs, and the labels of a row.
-/
import proofs.«210286_g62405874811728_cont_9to1_m_386_18_alg».proof.Kernel
import proofs.«210286_g62405874811728_cont_9to1_m_386_18_alg».proof.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.KernelIdeal
import proofs.«210286_g62405874811728_cont_9to1_m_386_18_alg».proof.Proof.Gen.KernelIdeal.Skeleton
import proofs.«210286_g62405874811728_cont_9to1_m_386_18_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

section Vals

variable [FloatOps F]

/-- The ratio the kernel stores at entry `y`: the quotient of the sixteen-lane chunks of the two inputs that hold it. -/
def ratioAt (fA fB : S40960.Idx → Elt F .f32) (y : S40960.Idx) : Elt F .f32 :=
  have hk : (y 0).val < 40960 := (y 0).isLt
  k0_pay3 (lanes fA ((y 0).val / 16) (by omega)) (lanes fB ((y 0).val / 16) (by omega)) (ix1 ⟨(y 0).val % 16, Nat.mod_lt _ (by decide)⟩)

/-- The label the kernel stores at entry `y` of a row whose threshold vector is `tv`: the compare-and-select of the
    sixteen-lane chunk of the ratios that holds `y` against `tv`. -/
def labelAt (fR : S40960.Idx → Elt F .f32) (tv : Vec F S16 .f32) (y : S40960.Idx) : Elt F .f32 :=
  have hk : (y 0).val < 40960 := (y 0).isLt
  k0_pay10 (k0_pay22 tv) (lanes fR ((y 0).val / 16) (by omega)) (ix1 ⟨(y 0).val % 16, Nat.mod_lt _ (by decide)⟩)

end Vals

end Cert.Proof.KI

end
-- ==== Proof.TileRows.lean ====
/-
  One task's 32 rows of the result across the 16 trips of its outer loop.

  Trip `g` computes rows `(g, 0)` and `(g, 1)` and starts their transfers; the transfers of rows `(g - 1, ·)` are waited
  for in trip `g`, and the last two after the loop. So before trip `g` the rows `(g', ·)` with `g' + 1 < g` hold the
  labels, the rows `(g - 1, ·)` are away in flight, and the rows `(g', ·)` with `g ≤ g'` still hold the launch contents.
  This module states that bookkeeping as one assertion per stage and proves the steps between the stages: all of it
  is rearrangement of an iterated separating conjunction.
-/
import proofs.«210286_g62405874811728_cont_9to1_m_386_18_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-- Row `(g', r)` of a task's rows before trip `g`: at the labels if its transfer has been waited for, absent while
    the transfer is in flight, at the launch contents if its trip is still to come. -/
def rowSt (d : Dev nD) (L : grid0.Coords) (Oc0 Out : Buf (Elt F) (oLoc d)) (g : Nat) (g' : Fin k0_t2_loop.trips) (r : Fin 2) : sProp 𝕄 :=
  if g'.val + 1 < g then (oLoc d ↦[(oRow L g' r).view.set]{fullShare} Out)
  else if g'.val + 1 = g then iprop(emp) else (oLoc d ↦[(oRow L g' r).view.set]{fullShare} Oc0)

/-- All 32 rows before trip `g`. -/
def rowsAt (d : Dev nD) (L : grid0.Coords) (Oc0 Out : Buf (Elt F) (oLoc d)) (g : Nat) : sProp 𝕄 :=
  bigSep Finset.univ fun g' : Fin k0_t2_loop.trips => bigSep Finset.univ fun r : Fin 2 => rowSt d L Oc0 Out g g' r

/-- The rows before trip `g` without trip `g`'s own two. -/
def rowsRest (d : Dev nD) (L : grid0.Coords) (Oc0 Out : Buf (Elt F) (oLoc d)) (g : Fin k0_t2_loop.trips) : sProp 𝕄 :=
  bigSep (Finset.univ.erase g) fun g' : Fin k0_t2_loop.trips => bigSep Finset.univ fun r : Fin 2 => rowSt d L Oc0 Out g.val g' r

variable (d : Dev nD) (L : grid0.Coords) (Oc0 Out : Buf (Elt F) (oLoc d))

theorem trips_eq : k0_t2_loop.trips = 16 := by decide

/-- A row whose trip is still to come holds the launch contents. -/
theorem rowSt_todo (g : Nat) (g' : Fin k0_t2_loop.trips) (r : Fin 2) (h : g ≤ g'.val) :
    rowSt d L Oc0 Out g g' r = (oLoc d ↦[(oRow L g' r).view.set]{fullShare} Oc0) := by
  unfold rowSt; rw [if_neg (by omega), if_neg (by omega)]

/-- A row whose transfer is in flight is absent. -/
theorem rowSt_away (g : Nat) (g' : Fin k0_t2_loop.trips) (r : Fin 2) (h : g'.val + 1 = g) :
    rowSt d L Oc0 Out g g' r = iprop(emp) := by
  unfold rowSt; rw [if_neg (by omega), if_pos h]

/-- A row whose transfer has been waited for holds the labels. -/
theorem rowSt_done (g : Nat) (g' : Fin k0_t2_loop.trips) (r : Fin 2) (h : g'.val + 1 < g) :
    rowSt d L Oc0 Out g g' r = (oLoc d ↦[(oRow L g' r).view.set]{fullShare} Out) := by
  unfold rowSt; rw [if_pos h]

/-- Before the first trip every row holds the launch contents. -/
theorem rowsAt_zero :
    (bigSep Finset.univ fun g' : Fin k0_t2_loop.trips => bigSep Finset.univ fun r : Fin 2 => oLoc d ↦[(oRow L g' r).view.set]{fullShare} Oc0)
      ⊢ rowsAt d L Oc0 Out 0 := by
  refine .of_eq ?_
  unfold rowsAt
  exact bigSep_congr fun g' _ => bigSep_congr fun r _ => (rowSt_todo d L Oc0 Out 0 g' r (Nat.zero_le _)).symm

/-- The rows of any stage, split at one trip. -/
theorem rowsAt_split (n : Nat) (g : Fin k0_t2_loop.trips) :
    rowsAt d L Oc0 Out n
      = iprop((rowSt d L Oc0 Out n g 0 ∗ rowSt d L Oc0 Out n g 1)
          ∗ bigSep (Finset.univ.erase g) fun g' : Fin k0_t2_loop.trips => bigSep Finset.univ fun r : Fin 2 => rowSt d L Oc0 Out n g' r) := by
  unfold rowsAt
  rw [SparseCore.bigSep_erase' (Finset.mem_univ g), bigSep_univ_two]

/-- Trip `g` takes its own two rows, still at the launch contents. -/
theorem rowsAt_take (g : Fin k0_t2_loop.trips) :
    rowsAt d L Oc0 Out g.val
      ⊢ iprop((oLoc d ↦[(oRow L g 0).view.set]{fullShare} Oc0) ∗ (oLoc d ↦[(oRow L g 1).view.set]{fullShare} Oc0) ∗ rowsRest d L Oc0 Out g) := by
  rw [rowsAt_split d L Oc0 Out g.val g, rowSt_todo d L Oc0 Out g.val g 0 (Nat.le_refl _), rowSt_todo d L Oc0 Out g.val g 1 (Nat.le_refl _)]
  unfold rowsRest
  iintro ⟨⟨A, B⟩, R⟩
  iframe

/-- `emp` is a unit of the separating conjunction. -/
theorem emp_emp_sep (P : sProp 𝕄) : iprop((emp ∗ emp) ∗ P) = P := by
  have h (Q : sProp 𝕄) : iprop(emp ∗ Q) = Q := _root_.Idealize.SL.BI.equiv_iff.mp _root_.Idealize.SL.BI.emp_sep
  rw [h, h]

/-- A trip other than `g` and the one before it is in the same state before trip `g` and before trip `g + 1`. -/
theorem rowSt_succ (g g' : Fin k0_t2_loop.trips) (r : Fin 2) (h1 : g'.val ≠ g.val) (h2 : g'.val + 1 ≠ g.val) :
    rowSt d L Oc0 Out (g.val + 1) g' r = rowSt d L Oc0 Out g.val g' r := by
  by_cases h : g'.val + 1 < g.val
  · rw [rowSt_done d L Oc0 Out (g.val + 1) g' r (by omega), rowSt_done d L Oc0 Out g.val g' r h]
  · rw [rowSt_todo d L Oc0 Out (g.val + 1) g' r (by omega), rowSt_todo d L Oc0 Out g.val g' r (by omega)]

/-- After the first trip, whose rows are now in flight, nothing else has changed. -/
theorem rowsAt_put_zero (g : Fin k0_t2_loop.trips) (hg : g.val = 0) :
    rowsRest d L Oc0 Out g ⊢ rowsAt d L Oc0 Out (g.val + 1) := by
  refine .of_eq ?_
  rw [rowsAt_split d L Oc0 Out (g.val + 1) g, rowSt_away d L Oc0 Out (g.val + 1) g 0 rfl,
    rowSt_away d L Oc0 Out (g.val + 1) g 1 rfl, emp_emp_sep]
  unfold rowsRest
  refine bigSep_congr fun g' hg' => bigSep_congr fun r _ => ?_
  have hne : g'.val ≠ g.val := fun h => (Finset.mem_erase.mp hg').1 (Fin.ext h)
  exact (rowSt_succ d L Oc0 Out g g' r hne (by omega)).symm

/-- After a later trip: its rows are in flight, and the rows of the trip before it, waited for during the trip, are
    back at the labels. -/
theorem rowsAt_put (g g1 : Fin k0_t2_loop.trips) (hg : g1.val + 1 = g.val) :
    iprop((oLoc d ↦[(oRow L g1 0).view.set]{fullShare} Out) ∗ (oLoc d ↦[(oRow L g1 1).view.set]{fullShare} Out) ∗ rowsRest d L Oc0 Out g)
      ⊢ rowsAt d L Oc0 Out (g.val + 1) := by
  have hmem : g1 ∈ (Finset.univ : Finset (Fin k0_t2_loop.trips)).erase g :=
    Finset.mem_erase.mpr ⟨fun h => by rw [h] at hg; omega, Finset.mem_univ _⟩
  have e : (bigSep (((Finset.univ : Finset (Fin k0_t2_loop.trips)).erase g).erase g1) fun g' : Fin k0_t2_loop.trips =>
        bigSep Finset.univ fun r : Fin 2 => rowSt d L Oc0 Out (g.val + 1) g' r)
      = bigSep (((Finset.univ : Finset (Fin k0_t2_loop.trips)).erase g).erase g1) fun g' : Fin k0_t2_loop.trips =>
        bigSep Finset.univ fun r : Fin 2 => rowSt d L Oc0 Out g.val g' r :=
    bigSep_congr fun g' hg' => bigSep_congr fun r _ => by
      have hne1 : g'.val ≠ g1.val := fun h => (Finset.mem_erase.mp hg').1 (Fin.ext h)
      have hne : g'.val ≠ g.val := fun h => (Finset.mem_erase.mp (Finset.mem_erase.mp hg').2).1 (Fin.ext h)
      exact rowSt_succ d L Oc0 Out g g' r hne (by omega)
  rw [rowsAt_split d L Oc0 Out (g.val + 1) g, rowSt_away d L Oc0 Out (g.val + 1) g 0 rfl,
    rowSt_away d L Oc0 Out (g.val + 1) g 1 rfl, emp_emp_sep,
    SparseCore.bigSep_erase' hmem (Φ := fun g' : Fin k0_t2_loop.trips => bigSep Finset.univ fun r : Fin 2 => rowSt d L Oc0 Out (g.val + 1) g' r),
    bigSep_univ_two, rowSt_done d L Oc0 Out (g.val + 1) g1 0 (by omega), rowSt_done d L Oc0 Out (g.val + 1) g1 1 (by omega), e]
  unfold rowsRest
  rw [SparseCore.bigSep_erase' hmem (Φ := fun g' : Fin k0_t2_loop.trips => bigSep Finset.univ fun r : Fin 2 => rowSt d L Oc0 Out g.val g' r),
    bigSep_univ_two, rowSt_away d L Oc0 Out g.val g1 0 hg, rowSt_away d L Oc0 Out g.val g1 1 hg, emp_emp_sep]
  iintro ⟨A, B, R⟩
  iframe

/-- After the loop the last trip's rows come back, and every row holds the labels. -/
theorem rowsAt_last (g1 : Fin k0_t2_loop.trips) (h : g1.val + 1 = 16) :
    iprop((oLoc d ↦[(oRow L g1 0).view.set]{fullShare} Out) ∗ (oLoc d ↦[(oRow L g1 1).view.set]{fullShare} Out) ∗ rowsAt d L Oc0 Out 16)
      ⊢ bigSep Finset.univ fun g' : Fin k0_t2_loop.trips => bigSep Finset.univ fun r : Fin 2 => oLoc d ↦[(oRow L g' r).view.set]{fullShare} Out := by
  have e : (bigSep ((Finset.univ : Finset (Fin k0_t2_loop.trips)).erase g1) fun g' : Fin k0_t2_loop.trips =>
        bigSep Finset.univ fun r : Fin 2 => rowSt d L Oc0 Out 16 g' r)
      = bigSep ((Finset.univ : Finset (Fin k0_t2_loop.trips)).erase g1) fun g' : Fin k0_t2_loop.trips =>
        bigSep Finset.univ fun r : Fin 2 => oLoc d ↦[(oRow L g' r).view.set]{fullShare} Out :=
    bigSep_congr fun g' hg' => bigSep_congr fun r _ => by
      have hne1 : g'.val ≠ g1.val := fun h => (Finset.mem_erase.mp hg').1 (Fin.ext h)
      have h16 : g'.val < 16 := trips_eq ▸ g'.isLt
      exact rowSt_done d L Oc0 Out 16 g' r (by omega)
  rw [rowsAt_split d L Oc0 Out 16 g1, rowSt_away d L Oc0 Out 16 g1 0 h, rowSt_away d L Oc0 Out 16 g1 1 h, emp_emp_sep, e,
    SparseCore.bigSep_erase' (Finset.mem_univ g1) (Φ := fun g' : Fin k0_t2_loop.trips => bigSep Finset.univ fun r : Fin 2 => oLoc d ↦[(oRow L g' r).view.set]{fullShare} Out),
    bigSep_univ_two]
  iintro ⟨A, B, R⟩
  iframe

end Cert.Proof.KI

end
-- ==== Proof.TilePure.lean ====
/-
  What one task's loops store, as pure facts about indices and values (no program is run here).

  A 40960-entry buffer is filled sixteen entries at a time: trip `k` of a loop makes eight stores, at entries
  `128 k + 16 r`, `r < 8`, so after trip `k` the entries below `128 (k + 1)` are settled. An entry `y` is lane `y % 16` of chunk
  `y / 16`; a store of sixteen entries from entry `16 n` puts its lane `x` at entry `16 n + x`, so the stored vector of chunk `n`
  is, entry by entry, the function "the value at `y`" (`ratioAt`, `labelAt`). The eight quotient payloads of a trip are one
  function of the two loaded chunks, and the eight label payloads one function of the threshold vector and the loaded chunk.

  A buffer of labels delivered whole into row `512 c + 32 s + 2 g + r` of the [1024, 40960] result lands entry `y` at
  column `y` of that row (the row is a 1 × 40960 slice read as 40960 entries in row-major order). The thresholds of that
  row are the sixteen entries of `t` from entry `16 (512 c + 32 s + 2 g + r)`: the task's 512 thresholds start at entry
  `8192 c + 512 s`, and the row's sixteen at entry `32 g + 16 r` of those.
-/
import proofs.«210286_g62405874811728_cont_9to1_m_386_18_alg».proof.Proof.TileSpec
import proofs.«210286_g62405874811728_cont_9to1_m_386_18_alg».proof.Proof.TileVals
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

variable [FloatOps F]

/-! ## Sixteen lanes of a flat array -/

/-- The lanes from entry `16 n` depend on `n` only. -/
theorem lanes_congr {N : Nat} (X : (⟨1, ![N]⟩ : Shape).Idx → Elt F .f32) {n m : Nat} (h : n = m) (hn : 16 * n + 16 ≤ N) :
    lanes X n hn = lanes X m (h ▸ hn) := by subst h; rfl

/-- Where a sixteen-entry interval from entry `16 n` puts its lane `x`: entry `16 n + x`. -/
theorem unit16_emb_val {N : Nat} (off : Fin (⟨1, ![N]⟩ : Shape).rank → Nat) (inb : ∀ a, off a + S16.size a ≤ (⟨1, ![N]⟩ : Shape).size a) (n : Nat)
    (hoff : off = ![16 * n]) (x : (Rect.unit (s := (⟨1, ![N]⟩ : Shape)) off S16.size inb).shape.Idx) :
    (((Rect.unit (s := (⟨1, ![N]⟩ : Shape)) off S16.size inb).emb x) 0).val = 16 * n + (x 0).val := by
  subst hoff
  show 16 * n + 1 * (x 0).val = _
  omega

/-- A load of sixteen entries from entry `16 n` through a view that reads its buffer as `g` is the lanes of `g` there. -/
theorem lanes_readAt_of_read {N : Nat} {κ : Kind} {sp : Space} (v : View sig κ sp (⟨1, ![N]⟩ : Shape) .f32) (f : v.ty.Contents (Elt F))
    (g : (⟨1, ![N]⟩ : Shape).Idx → Elt F .f32) (hread : ∀ y, v.read (Elt F) f y = g y)
    (off : Fin (⟨1, ![N]⟩ : Shape).rank → Nat) (inb : ∀ a, off a + S16.size a ≤ (⟨1, ![N]⟩ : Shape).size a)
    (n : Nat) (hn : 16 * n + 16 ≤ N) (hoff : off = ![16 * n]) :
    v.readAt (Elt F) (Rect.unit (s := (⟨1, ![N]⟩ : Shape)) off S16.size inb).toLoadRect f = lanes g n hn := by
  funext x
  rw [View.readAt_apply, hread]
  show g _ = g _
  congr 1
  funext a
  match a with
  | ⟨0, _⟩ =>
    apply Fin.ext
    exact unit16_emb_val off inb n hoff x

theorem lanes_readAt_sR (f : S40960.Idx → Elt F .f32) (off : Fin S40960.rank → Nat) (inb : ∀ a, off a + S16.size a ≤ S40960.size a)
    (n : Nat) (hn : 16 * n + 16 ≤ 40960) (hoff : off = ![16 * n]) :
    sR.view.readAt (Elt F) (Rect.unit (s := S40960) off S16.size inb).toLoadRect f = lanes f n hn :=
  lanes_readAt_of_read sR.view f f (fun _ => rfl) off inb n hn hoff
theorem lanes_readAt_s0 (f : S40960.Idx → Elt F .f32) (off : Fin S40960.rank → Nat) (inb : ∀ a, off a + S16.size a ≤ S40960.size a)
    (n : Nat) (hn : 16 * n + 16 ≤ 40960) (hoff : off = ![16 * n]) :
    s0.view.readAt (Elt F) (Rect.unit (s := S40960) off S16.size inb).toLoadRect f = lanes f n hn :=
  lanes_readAt_of_read s0.view f f (fun _ => rfl) off inb n hn hoff
theorem lanes_readAt_s1 (f : S40960.Idx → Elt F .f32) (off : Fin S40960.rank → Nat) (inb : ∀ a, off a + S16.size a ≤ S40960.size a)
    (n : Nat) (hn : 16 * n + 16 ≤ 40960) (hoff : off = ![16 * n]) :
    s1.view.readAt (Elt F) (Rect.unit (s := S40960) off S16.size inb).toLoadRect f = lanes f n hn :=
  lanes_readAt_of_read s1.view f f (fun _ => rfl) off inb n hn hoff
theorem lanes_readAt_sT (f : S512.Idx → Elt F .f32) (off : Fin S512.rank → Nat) (inb : ∀ a, off a + S16.size a ≤ S512.size a)
    (n : Nat) (hn : 16 * n + 16 ≤ 512) (hoff : off = ![16 * n]) :
    sT.view.readAt (Elt F) (Rect.unit (s := S512) off S16.size inb).toLoadRect f = lanes f n hn :=
  lanes_readAt_of_read sT.view f f (fun _ => rfl) off inb n hn hoff
/-! ## One trip's stores extend the filled prefix by 128 entries -/

/-- If the buffer agrees with `G` below entry `128 k`, every piece stores `G`, and the pieces cover entries `128 k … 128 k + 127`,
    then after the stores the buffer agrees with `G` below entry `128 (k + 1)`. -/
theorem read_writes_step {κ : Kind} {sp : Space} (v : View sig κ sp S40960 .f32) (G : S40960.Idx → Elt F .f32) (k : Nat) (f : v.ty.Contents (Elt F))
    (L : List (View.Piece (Elt F) S40960 .f32))
    (hf : ∀ y : S40960.Idx, (y 0).val < 128 * k → v.read (Elt F) f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → v.read (Elt F) (v.writes (Elt F) f L) y = G y := by
  intro y hy
  by_cases hc : ∃ p ∈ L, y ∈ p.1.set
  · exact View.read_writes_apply_of_pieces v f G L hL y hc
  · have hn : ∀ p ∈ L, y ∉ p.1.set := fun p hp hm => hc ⟨p, hp, hm⟩
    rw [View.read_writes_apply_of_forall_not_mem v f y L hn]
    refine hf y ?_
    by_contra hge
    exact hc (hcov y (by omega) hy)

theorem writes_step_sR (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → sR.view.writes (Elt F) f L y = G y :=
  read_writes_step sR.view G k f L hf hL hcov
theorem writes_step_s0 (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → s0.view.writes (Elt F) f L y = G y :=
  read_writes_step s0.view G k f L hf hL hcov
theorem writes_step_s1 (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → s1.view.writes (Elt F) f L y = G y :=
  read_writes_step s1.view G k f L hf hL hcov

/-! ## The stored vectors, entry by entry -/

/-- The ratio at an entry that is lane `x` of chunk `n`. -/
theorem ratioAt_eq (fA fB : S40960.Idx → Elt F .f32) (y : S40960.Idx) (n : Nat) (hn : 16 * n + 16 ≤ 40960) (x : S16.Idx)
    (h : (y 0).val = 16 * n + (x 0).val) : ratioAt fA fB y = k0_pay3 (lanes fA n hn) (lanes fB n hn) x := by
  have hx : (x 0).val < 16 := (x 0).isLt
  have hq : (y 0).val / 16 = n := by omega
  have hr : (y 0).val % 16 = (x 0).val := by omega
  unfold ratioAt
  simp only []
  rw [lanes_congr fA hq, lanes_congr fB hq]
  congr 1
  funext a
  match a with
  | ⟨0, _⟩ => exact Fin.ext hr

/-- The label at an entry that is lane `x` of chunk `n`. -/
theorem labelAt_eq (fR : S40960.Idx → Elt F .f32) (tv : Vec F S16 .f32) (y : S40960.Idx) (n : Nat) (hn : 16 * n + 16 ≤ 40960) (x : S16.Idx)
    (h : (y 0).val = 16 * n + (x 0).val) : labelAt fR tv y = k0_pay10 (k0_pay22 tv) (lanes fR n hn) x := by
  have hx : (x 0).val < 16 := (x 0).isLt
  have hq : (y 0).val / 16 = n := by omega
  have hr : (y 0).val % 16 = (x 0).val := by omega
  unfold labelAt
  simp only []
  rw [lanes_congr fR hq]
  congr 1
  funext a
  match a with
  | ⟨0, _⟩ => exact Fin.ext hr

/-- The quotient of chunk `n` of the two inputs is the ratio at each entry the store puts it. -/
theorem ratio_piece (fA fB : S40960.Idx → Elt F .f32) (n : Nat) (hn : 16 * n + 16 ≤ 40960) (off : Fin S40960.rank → Nat)
    (inb : ∀ a, off a + S16.size a ≤ S40960.size a) (hoff : off = ![16 * n]) :
    ∀ x, k0_pay3 (lanes fA n hn) (lanes fB n hn) x = ratioAt fA fB ((Rect.unit (s := S40960) off S16.size inb).emb x) :=
  fun x => (ratioAt_eq fA fB _ n hn x (unit16_emb_val off inb n hoff x)).symm

/-- The labels of chunk `n` of the ratios against `tv` are the label at each entry the store puts them. -/
theorem label_piece (fR : S40960.Idx → Elt F .f32) (tv : Vec F S16 .f32) (n : Nat) (hn : 16 * n + 16 ≤ 40960) (off : Fin S40960.rank → Nat)
    (inb : ∀ a, off a + S16.size a ≤ S40960.size a) (hoff : off = ![16 * n]) :
    ∀ x, k0_pay10 (k0_pay22 tv) (lanes fR n hn) x = labelAt fR tv ((Rect.unit (s := S40960) off S16.size inb).emb x) :=
  fun x => (labelAt_eq fR tv _ n hn x (unit16_emb_val off inb n hoff x)).symm

/-! ## The eight quotients and the eight labels of a trip are one function each -/

theorem pay2_eq : @k0_pay2 F _ = k0_pay3 := rfl
theorem pay4_eq : @k0_pay4 F _ = k0_pay3 := rfl
theorem pay5_eq : @k0_pay5 F _ = k0_pay3 := rfl
theorem pay6_eq : @k0_pay6 F _ = k0_pay3 := rfl
theorem pay7_eq : @k0_pay7 F _ = k0_pay3 := rfl
theorem pay8_eq : @k0_pay8 F _ = k0_pay3 := rfl
theorem pay1_pay9_eq (a b : Vec F S16 .f32) : k0_pay1 (k0_pay9 a) b = k0_pay3 a b := rfl

theorem pay11_eq : @k0_pay11 F _ = k0_pay10 := rfl
theorem pay12_eq : @k0_pay12 F _ = k0_pay10 := rfl
theorem pay13_eq : @k0_pay13 F _ = k0_pay10 := rfl
theorem pay14_eq : @k0_pay14 F _ = k0_pay10 := rfl
theorem pay15_eq : @k0_pay15 F _ = k0_pay10 := rfl
theorem pay16_eq : @k0_pay16 F _ = k0_pay10 := rfl
theorem pay17_eq : @k0_pay17 F _ = k0_pay10 := rfl
theorem pay18_eq : @k0_pay18 F _ = k0_pay10 := rfl
theorem pay19_eq : @k0_pay19 F _ = k0_pay10 := rfl
theorem pay20_eq : @k0_pay20 F _ = k0_pay10 := rfl
theorem pay21_eq : @k0_pay21 F _ = k0_pay10 := rfl
theorem pay25_eq : @k0_pay25 F = k0_pay22 := rfl
theorem pay23_eq (tv w : Vec F S16 .f32) : k0_pay23 tv w = k0_pay10 (k0_pay22 tv) w := rfl
theorem pay24_eq (tv w : Vec F S16 .f32) : k0_pay24 tv w = k0_pay10 (k0_pay22 tv) w := rfl
theorem pay26_eq (tv w : Vec F S16 .f32) : k0_pay26 tv w = k0_pay10 (k0_pay22 tv) w := rfl
theorem pay27_eq (tv w : Vec F S16 .f32) : k0_pay27 tv w = k0_pay10 (k0_pay22 tv) w := rfl

/-! ## The eight stores of a trip cover its 128 entries -/

/-- A sixteen-entry interval from entry `m`. -/
theorem mem_unit16 (off : Fin S40960.rank → Nat) (inb : ∀ a, off a + S16.size a ≤ S40960.size a) (m : Nat) (hoff : off = ![m]) (y : S40960.Idx) :
    y ∈ (Rect.unit (s := S40960) off S16.size inb).set ↔ m ≤ (y 0).val ∧ (y 0).val < m + 16 := by
  subst hoff
  rw [Rect.mem_set_unit, Fin.forall_fin_one]
  rfl

/-- Eight intervals of sixteen entries from entries `128 K + 16 r`, `r = 7, …, 0`, cover entries `128 K … 128 K + 127`. -/
theorem cover8_gen (K : Nat) (o7 o6 o5 o4 o3 o2 o1 o0 : Fin S40960.rank → Nat)
    (i7 : ∀ a, o7 a + S16.size a ≤ S40960.size a) (i6 : ∀ a, o6 a + S16.size a ≤ S40960.size a)
    (i5 : ∀ a, o5 a + S16.size a ≤ S40960.size a) (i4 : ∀ a, o4 a + S16.size a ≤ S40960.size a)
    (i3 : ∀ a, o3 a + S16.size a ≤ S40960.size a) (i2 : ∀ a, o2 a + S16.size a ≤ S40960.size a)
    (i1 : ∀ a, o1 a + S16.size a ≤ S40960.size a) (i0 : ∀ a, o0 a + S16.size a ≤ S40960.size a)
    (h7 : o7 = ![128 * K + 16 * 7]) (h6 : o6 = ![128 * K + 16 * 6]) (h5 : o5 = ![128 * K + 16 * 5]) (h4 : o4 = ![128 * K + 16 * 4])
    (h3 : o3 = ![128 * K + 16 * 3]) (h2 : o2 = ![128 * K + 16 * 2]) (h1 : o1 = ![128 * K + 16 * 1]) (h0 : o0 = ![128 * K + 16 * 0])
    (w7 : (Rect.unit (s := S40960) o7 S16.size i7).shape.Idx → Elt F .f32) (w6 : (Rect.unit (s := S40960) o6 S16.size i6).shape.Idx → Elt F .f32)
    (w5 : (Rect.unit (s := S40960) o5 S16.size i5).shape.Idx → Elt F .f32) (w4 : (Rect.unit (s := S40960) o4 S16.size i4).shape.Idx → Elt F .f32)
    (w3 : (Rect.unit (s := S40960) o3 S16.size i3).shape.Idx → Elt F .f32) (w2 : (Rect.unit (s := S40960) o2 S16.size i2).shape.Idx → Elt F .f32)
    (w1 : (Rect.unit (s := S40960) o1 S16.size i1).shape.Idx → Elt F .f32) (w0 : (Rect.unit (s := S40960) o0 S16.size i0).shape.Idx → Elt F .f32) :
    ∀ y : S40960.Idx, 128 * K ≤ (y 0).val → (y 0).val < 128 * (K + 1) →
      ∃ p ∈ ([⟨Rect.unit (s := S40960) o7 S16.size i7, w7⟩, ⟨Rect.unit (s := S40960) o6 S16.size i6, w6⟩,
              ⟨Rect.unit (s := S40960) o5 S16.size i5, w5⟩, ⟨Rect.unit (s := S40960) o4 S16.size i4, w4⟩,
              ⟨Rect.unit (s := S40960) o3 S16.size i3, w3⟩, ⟨Rect.unit (s := S40960) o2 S16.size i2, w2⟩,
              ⟨Rect.unit (s := S40960) o1 S16.size i1, w1⟩, ⟨Rect.unit (s := S40960) o0 S16.size i0, w0⟩] : List (View.Piece (Elt F) S40960 .f32)),
        y ∈ p.1.set := by
  intro y hlo hhi
  have hr : ((y 0).val - 128 * K) / 16 < 8 := by omega
  have hc : ((y 0).val - 128 * K) / 16 = 7 ∨ ((y 0).val - 128 * K) / 16 = 6 ∨ ((y 0).val - 128 * K) / 16 = 5 ∨ ((y 0).val - 128 * K) / 16 = 4
      ∨ ((y 0).val - 128 * K) / 16 = 3 ∨ ((y 0).val - 128 * K) / 16 = 2 ∨ ((y 0).val - 128 * K) / 16 = 1 ∨ ((y 0).val - 128 * K) / 16 = 0 := by omega
  rcases hc with e | e | e | e | e | e | e | e
  · exact ⟨_, .head _, (mem_unit16 o7 i7 _ h7 y).mpr (by omega)⟩
  · exact ⟨_, .tail _ (.head _), (mem_unit16 o6 i6 _ h6 y).mpr (by omega)⟩
  · exact ⟨_, .tail _ (.tail _ (.head _)), (mem_unit16 o5 i5 _ h5 y).mpr (by omega)⟩
  · exact ⟨_, .tail _ (.tail _ (.tail _ (.head _))), (mem_unit16 o4 i4 _ h4 y).mpr (by omega)⟩
  · exact ⟨_, .tail _ (.tail _ (.tail _ (.tail _ (.head _)))), (mem_unit16 o3 i3 _ h3 y).mpr (by omega)⟩
  · exact ⟨_, .tail _ (.tail _ (.tail _ (.tail _ (.tail _ (.head _))))), (mem_unit16 o2 i2 _ h2 y).mpr (by omega)⟩
  · exact ⟨_, .tail _ (.tail _ (.tail _ (.tail _ (.tail _ (.tail _ (.head _)))))), (mem_unit16 o1 i1 _ h1 y).mpr (by omega)⟩
  · exact ⟨_, .tail _ (.tail _ (.tail _ (.tail _ (.tail _ (.tail _ (.tail _ (.head _))))))), (mem_unit16 o0 i0 _ h0 y).mpr (by omega)⟩

/-- The eight stores of trip `k` of the loop that fills the ratios. -/
theorem cover8_off2 (k : Fin k0_t1_loop.trips)
    (w7 : (Rect.unit (s := S40960) (k0_off2 k 7#32) S16.size (k0_off2_inb k 7)).shape.Idx → Elt F .f32)
    (w6 : (Rect.unit (s := S40960) (k0_off2 k 6#32) S16.size (k0_off2_inb k 6)).shape.Idx → Elt F .f32)
    (w5 : (Rect.unit (s := S40960) (k0_off2 k 5#32) S16.size (k0_off2_inb k 5)).shape.Idx → Elt F .f32)
    (w4 : (Rect.unit (s := S40960) (k0_off2 k 4#32) S16.size (k0_off2_inb k 4)).shape.Idx → Elt F .f32)
    (w3 : (Rect.unit (s := S40960) (k0_off2 k 3#32) S16.size (k0_off2_inb k 3)).shape.Idx → Elt F .f32)
    (w2 : (Rect.unit (s := S40960) (k0_off2 k 2#32) S16.size (k0_off2_inb k 2)).shape.Idx → Elt F .f32)
    (w1 : (Rect.unit (s := S40960) (k0_off2 k 1#32) S16.size (k0_off2_inb k 1)).shape.Idx → Elt F .f32)
    (w0 : (Rect.unit (s := S40960) (k0_off2 k 0#32) S16.size (k0_off2_inb k 0)).shape.Idx → Elt F .f32) :
    ∀ y : S40960.Idx, 128 * k.val ≤ (y 0).val → (y 0).val < 128 * (k.val + 1) →
      ∃ p ∈ ([⟨Rect.unit (s := S40960) (k0_off2 k 7#32) S16.size (k0_off2_inb k 7), w7⟩, ⟨Rect.unit (s := S40960) (k0_off2 k 6#32) S16.size (k0_off2_inb k 6), w6⟩,
              ⟨Rect.unit (s := S40960) (k0_off2 k 5#32) S16.size (k0_off2_inb k 5), w5⟩, ⟨Rect.unit (s := S40960) (k0_off2 k 4#32) S16.size (k0_off2_inb k 4), w4⟩,
              ⟨Rect.unit (s := S40960) (k0_off2 k 3#32) S16.size (k0_off2_inb k 3), w3⟩, ⟨Rect.unit (s := S40960) (k0_off2 k 2#32) S16.size (k0_off2_inb k 2), w2⟩,
              ⟨Rect.unit (s := S40960) (k0_off2 k 1#32) S16.size (k0_off2_inb k 1), w1⟩, ⟨Rect.unit (s := S40960) (k0_off2 k 0#32) S16.size (k0_off2_inb k 0), w0⟩] : List (View.Piece (Elt F) S40960 .f32)),
        y ∈ p.1.set :=
  cover8_gen k.val _ _ _ _ _ _ _ _ _ _ _ _ _ _ _ _ (k0_off2_eq k 7) (k0_off2_eq k 6) (k0_off2_eq k 5) (k0_off2_eq k 4)
    (k0_off2_eq k 3) (k0_off2_eq k 2) (k0_off2_eq k 1) (k0_off2_eq k 0) w7 w6 w5 w4 w3 w2 w1 w0

/-- The eight stores of trip `k` of the loop that fills the labels of a pair's first row. -/
theorem cover8_off5 (k : Fin k0_t3_loop.trips)
    (w7 : (Rect.unit (s := S40960) (k0_off5 k 7#32) S16.size (k0_off5_inb k 7)).shape.Idx → Elt F .f32)
    (w6 : (Rect.unit (s := S40960) (k0_off5 k 6#32) S16.size (k0_off5_inb k 6)).shape.Idx → Elt F .f32)
    (w5 : (Rect.unit (s := S40960) (k0_off5 k 5#32) S16.size (k0_off5_inb k 5)).shape.Idx → Elt F .f32)
    (w4 : (Rect.unit (s := S40960) (k0_off5 k 4#32) S16.size (k0_off5_inb k 4)).shape.Idx → Elt F .f32)
    (w3 : (Rect.unit (s := S40960) (k0_off5 k 3#32) S16.size (k0_off5_inb k 3)).shape.Idx → Elt F .f32)
    (w2 : (Rect.unit (s := S40960) (k0_off5 k 2#32) S16.size (k0_off5_inb k 2)).shape.Idx → Elt F .f32)
    (w1 : (Rect.unit (s := S40960) (k0_off5 k 1#32) S16.size (k0_off5_inb k 1)).shape.Idx → Elt F .f32)
    (w0 : (Rect.unit (s := S40960) (k0_off5 k 0#32) S16.size (k0_off5_inb k 0)).shape.Idx → Elt F .f32) :
    ∀ y : S40960.Idx, 128 * k.val ≤ (y 0).val → (y 0).val < 128 * (k.val + 1) →
      ∃ p ∈ ([⟨Rect.unit (s := S40960) (k0_off5 k 7#32) S16.size (k0_off5_inb k 7), w7⟩,
              ⟨Rect.unit (s := S40960) (k0_off5 k 6#32) S16.size (k0_off5_inb k 6), w6⟩,
              ⟨Rect.unit (s := S40960) (k0_off5 k 5#32) S16.size (k0_off5_inb k 5), w5⟩,
              ⟨Rect.unit (s := S40960) (k0_off5 k 4#32) S16.size (k0_off5_inb k 4), w4⟩,
              ⟨Rect.unit (s := S40960) (k0_off5 k 3#32) S16.size (k0_off5_inb k 3), w3⟩,
              ⟨Rect.unit (s := S40960) (k0_off5 k 2#32) S16.size (k0_off5_inb k 2), w2⟩,
              ⟨Rect.unit (s := S40960) (k0_off5 k 1#32) S16.size (k0_off5_inb k 1), w1⟩,
              ⟨Rect.unit (s := S40960) (k0_off5 k 0#32) S16.size (k0_off5_inb k 0), w0⟩] : List (View.Piece (Elt F) S40960 .f32)),
        y ∈ p.1.set :=
  cover8_gen k.val _ _ _ _ _ _ _ _ _ _ _ _ _ _ _ _ (k0_off5_eq k 7) (k0_off5_eq k 6) (k0_off5_eq k 5) (k0_off5_eq k 4)
    (k0_off5_eq k 3) (k0_off5_eq k 2) (k0_off5_eq k 1) (k0_off5_eq k 0) w7 w6 w5 w4 w3 w2 w1 w0

/-- The eight stores of trip `k` of the loop that fills the labels of a pair's second row. -/
theorem cover8_off8 (k : Fin k0_t4_loop.trips)
    (w7 : (Rect.unit (s := S40960) (k0_off8 k 7#32) S16.size (k0_off8_inb k 7)).shape.Idx → Elt F .f32)
    (w6 : (Rect.unit (s := S40960) (k0_off8 k 6#32) S16.size (k0_off8_inb k 6)).shape.Idx → Elt F .f32)
    (w5 : (Rect.unit (s := S40960) (k0_off8 k 5#32) S16.size (k0_off8_inb k 5)).shape.Idx → Elt F .f32)
    (w4 : (Rect.unit (s := S40960) (k0_off8 k 4#32) S16.size (k0_off8_inb k 4)).shape.Idx → Elt F .f32)
    (w3 : (Rect.unit (s := S40960) (k0_off8 k 3#32) S16.size (k0_off8_inb k 3)).shape.Idx → Elt F .f32)
    (w2 : (Rect.unit (s := S40960) (k0_off8 k 2#32) S16.size (k0_off8_inb k 2)).shape.Idx → Elt F .f32)
    (w1 : (Rect.unit (s := S40960) (k0_off8 k 1#32) S16.size (k0_off8_inb k 1)).shape.Idx → Elt F .f32)
    (w0 : (Rect.unit (s := S40960) (k0_off8 k 0#32) S16.size (k0_off8_inb k 0)).shape.Idx → Elt F .f32) :
    ∀ y : S40960.Idx, 128 * k.val ≤ (y 0).val → (y 0).val < 128 * (k.val + 1) →
      ∃ p ∈ ([⟨Rect.unit (s := S40960) (k0_off8 k 7#32) S16.size (k0_off8_inb k 7), w7⟩,
              ⟨Rect.unit (s := S40960) (k0_off8 k 6#32) S16.size (k0_off8_inb k 6), w6⟩,
              ⟨Rect.unit (s := S40960) (k0_off8 k 5#32) S16.size (k0_off8_inb k 5), w5⟩,
              ⟨Rect.unit (s := S40960) (k0_off8 k 4#32) S16.size (k0_off8_inb k 4), w4⟩,
              ⟨Rect.unit (s := S40960) (k0_off8 k 3#32) S16.size (k0_off8_inb k 3), w3⟩,
              ⟨Rect.unit (s := S40960) (k0_off8 k 2#32) S16.size (k0_off8_inb k 2), w2⟩,
              ⟨Rect.unit (s := S40960) (k0_off8 k 1#32) S16.size (k0_off8_inb k 1), w1⟩,
              ⟨Rect.unit (s := S40960) (k0_off8 k 0#32) S16.size (k0_off8_inb k 0), w0⟩] : List (View.Piece (Elt F) S40960 .f32)),
        y ∈ p.1.set :=
  cover8_gen k.val _ _ _ _ _ _ _ _ _ _ _ _ _ _ _ _ (k0_off8_eq k 7) (k0_off8_eq k 6) (k0_off8_eq k 5) (k0_off8_eq k 4)
    (k0_off8_eq k 3) (k0_off8_eq k 2) (k0_off8_eq k 1) (k0_off8_eq k 0) w7 w6 w5 w4 w3 w2 w1 w0

/-! ## The loops' trip counts, and the offsets as multiples of sixteen -/

theorem trips1 : k0_t1_loop.trips = 320 := by decide
theorem trips3 : k0_t3_loop.trips = 320 := by decide
theorem trips4 : k0_t4_loop.trips = 320 := by decide

theorem off2_eq16 (k : Fin k0_t1_loop.trips) (r : Fin 8) : k0_off2 k (BitVec.ofNat 32 r.val) = ![16 * (8 * k.val + r.val)] := by
  rw [k0_off2_eq k r, show 128 * k.val + 16 * r.val = 16 * (8 * k.val + r.val) by omega]
theorem off5_eq16 (k : Fin k0_t3_loop.trips) (r : Fin 8) : k0_off5 k (BitVec.ofNat 32 r.val) = ![16 * (8 * k.val + r.val)] := by
  rw [k0_off5_eq k r, show 128 * k.val + 16 * r.val = 16 * (8 * k.val + r.val) by omega]
theorem off8_eq16 (k : Fin k0_t4_loop.trips) (r : Fin 8) : k0_off8 k (BitVec.ofNat 32 r.val) = ![16 * (8 * k.val + r.val)] := by
  rw [k0_off8_eq k r, show 128 * k.val + 16 * r.val = 16 * (8 * k.val + r.val) by omega]
theorem off3_eq16 (g : Fin k0_t2_loop.trips) (r : Fin 2) : k0_off3 g (BitVec.ofNat 32 r.val) = ![16 * (2 * g.val + r.val)] := by
  rw [k0_off3_eq g r, show 32 * g.val + 16 * r.val = 16 * (2 * g.val + r.val) by omega]

theorem chunk_inb1 (k : Fin k0_t1_loop.trips) (r : Fin 8) : 16 * (8 * k.val + r.val) + 16 ≤ 40960 := by
  have hk : k.val < 320 := trips1 ▸ k.isLt
  have hr : r.val < 8 := r.isLt
  omega
theorem chunk_inb3 (k : Fin k0_t3_loop.trips) (r : Fin 8) : 16 * (8 * k.val + r.val) + 16 ≤ 40960 := by
  have hk : k.val < 320 := trips3 ▸ k.isLt
  have hr : r.val < 8 := r.isLt
  omega
theorem chunk_inb4 (k : Fin k0_t4_loop.trips) (r : Fin 8) : 16 * (8 * k.val + r.val) + 16 ≤ 40960 := by
  have hk : k.val < 320 := trips4 ▸ k.isLt
  have hr : r.val < 8 := r.isLt
  omega
theorem row_inb (g : Fin k0_t2_loop.trips) (r : Fin 2) : 16 * (2 * g.val + r.val) + 16 ≤ 512 := by
  have hg : g.val < 16 := (show k0_t2_loop.trips = 16 by decide) ▸ g.isLt
  have hr : r.val < 2 := r.isLt
  omega

/-! ## One trip of each loop, whole -/

/-- A store of the quotient of chunk `n` puts the ratios there. -/
theorem ratio_store_ok (fA fB : S40960.Idx → Elt F .f32) (n : Nat) (hn : 16 * n + 16 ≤ 40960) (off : Fin S40960.rank → Nat)
    (inb : ∀ a, off a + S16.size a ≤ S40960.size a) (hoff : off = ![16 * n])
    (w : (Rect.unit (s := S40960) off S16.size inb).shape.Idx → Elt F .f32) (hw : w = k0_pay3 (lanes fA n hn) (lanes fB n hn)) :
    ∀ x, w x = ratioAt fA fB ((Rect.unit (s := S40960) off S16.size inb).emb x) := by
  subst hw; exact ratio_piece fA fB n hn off inb hoff

/-- A store of the labels of chunk `n` puts the labels there. -/
theorem label_store_ok (fR : S40960.Idx → Elt F .f32) (tv : Vec F S16 .f32) (n : Nat) (hn : 16 * n + 16 ≤ 40960) (off : Fin S40960.rank → Nat)
    (inb : ∀ a, off a + S16.size a ≤ S40960.size a) (hoff : off = ![16 * n])
    (w : (Rect.unit (s := S40960) off S16.size inb).shape.Idx → Elt F .f32) (hw : w = k0_pay10 (k0_pay22 tv) (lanes fR n hn)) :
    ∀ x, w x = labelAt fR tv ((Rect.unit (s := S40960) off S16.size inb).emb x) := by
  subst hw; exact label_piece fR tv n hn off inb hoff

/-- Trip `k` of the loop of quotients: if the buffer holds the ratios below entry `128 k`, after the trip's eight stores it holds them
    below entry `128 (k + 1)`. -/
theorem ratio_trip (fA fB f : S40960.Idx → Elt F .f32) (k : Fin k0_t1_loop.trips)
    (hf : ∀ y : S40960.Idx, (y 0).val < 128 * k.val → f y = ratioAt fA fB y) :
    ∀ y : S40960.Idx, (y 0).val < 128 * (k.val + 1) → sR.view.writes (Elt F) f [
      ⟨Rect.unit (s := S40960) (k0_off2 k 7#32) S16.size (k0_off2_inb k 7),
        k0_pay2 (s0.view.readAt (Elt F) (Rect.unit (s := S40960) (k0_off2 k 7#32) S16.size (k0_off2_inb k 7)).toLoadRect fA) (s1.view.readAt (Elt F) (Rect.unit (s := S40960) (k0_off2 k 7#32) S16.size (k0_off2_inb k 7)).toLoadRect fB)⟩,
      ⟨Rect.unit (s := S40960) (k0_off2 k 6#32) S16.size (k0_off2_inb k 6),
        k0_pay1 (k0_pay9 (s0.view.readAt (Elt F) (Rect.unit (s := S40960) (k0_off2 k 6#32) S16.size (k0_off2_inb k 6)).toLoadRect fA)) (s1.view.readAt (Elt F) (Rect.unit (s := S40960) (k0_off2 k 6#32) S16.size (k0_off2_inb k 6)).toLoadRect fB)⟩,
      ⟨Rect.unit (s := S40960) (k0_off2 k 5#32) S16.size (k0_off2_inb k 5),
        k0_pay8 (s0.view.readAt (Elt F) (Rect.unit (s := S40960) (k0_off2 k 5#32) S16.size (k0_off2_inb k 5)).toLoadRect fA) (s1.view.readAt (Elt F) (Rect.unit (s := S40960) (k0_off2 k 5#32) S16.size (k0_off2_inb k 5)).toLoadRect fB)⟩,
      ⟨Rect.unit (s := S40960) (k0_off2 k 4#32) S16.size (k0_off2_inb k 4),
        k0_pay7 (s0.view.readAt (Elt F) (Rect.unit (s := S40960) (k0_off2 k 4#32) S16.size (k0_off2_inb k 4)).toLoadRect fA) (s1.view.readAt (Elt F) (Rect.unit (s := S40960) (k0_off2 k 4#32) S16.size (k0_off2_inb k 4)).toLoadRect fB)⟩,
      ⟨Rect.unit (s := S40960) (k0_off2 k 3#32) S16.size (k0_off2_inb k 3),
        k0_pay6 (s0.view.readAt (Elt F) (Rect.unit (s := S40960) (k0_off2 k 3#32) S16.size (k0_off2_inb k 3)).toLoadRect fA) (s1.view.readAt (Elt F) (Rect.unit (s := S40960) (k0_off2 k 3#32) S16.size (k0_off2_inb k 3)).toLoadRect fB)⟩,
      ⟨Rect.unit (s := S40960) (k0_off2 k 2#32) S16.size (k0_off2_inb k 2),
        k0_pay5 (s0.view.readAt (Elt F) (Rect.unit (s := S40960) (k0_off2 k 2#32) S16.size (k0_off2_inb k 2)).toLoadRect fA) (s1.view.readAt (Elt F) (Rect.unit (s := S40960) (k0_off2 k 2#32) S16.size (k0_off2_inb k 2)).toLoadRect fB)⟩,
      ⟨Rect.unit (s := S40960) (k0_off2 k 1#32) S16.size (k0_off2_inb k 1),
        k0_pay4 (s0.view.readAt (Elt F) (Rect.unit (s := S40960) (k0_off2 k 1#32) S16.size (k0_off2_inb k 1)).toLoadRect fA) (s1.view.readAt (Elt F) (Rect.unit (s := S40960) (k0_off2 k 1#32) S16.size (k0_off2_inb k 1)).toLoadRect fB)⟩,
      ⟨Rect.unit (s := S40960) (k0_off2 k 0#32) S16.size (k0_off2_inb k 0),
        k0_pay3 (s0.view.readAt (Elt F) (Rect.unit (s := S40960) (k0_off2 k 0#32) S16.size (k0_off2_inb k 0)).toLoadRect fA) (s1.view.readAt (Elt F) (Rect.unit (s := S40960) (k0_off2 k 0#32) S16.size (k0_off2_inb k 0)).toLoadRect fB)⟩] y = ratioAt fA fB y :=
  writes_step_sR (ratioAt fA fB) k.val f _ hf
    (List.forall_mem_cons.mpr ⟨
    (ratio_store_ok fA fB (8 * k.val + 7) (chunk_inb1 k 7) (k0_off2 k 7#32) (k0_off2_inb k 7) (off2_eq16 k 7) _
      (congrArg₂ k0_pay3 (lanes_readAt_s0 fA (k0_off2 k 7#32) (k0_off2_inb k 7) _ (chunk_inb1 k 7) (off2_eq16 k 7)) (lanes_readAt_s1 fB (k0_off2 k 7#32) (k0_off2_inb k 7) _ (chunk_inb1 k 7) (off2_eq16 k 7)))),
    List.forall_mem_cons.mpr ⟨
    (ratio_store_ok fA fB (8 * k.val + 6) (chunk_inb1 k 6) (k0_off2 k 6#32) (k0_off2_inb k 6) (off2_eq16 k 6) _
      (congrArg₂ k0_pay3 (lanes_readAt_s0 fA (k0_off2 k 6#32) (k0_off2_inb k 6) _ (chunk_inb1 k 6) (off2_eq16 k 6)) (lanes_readAt_s1 fB (k0_off2 k 6#32) (k0_off2_inb k 6) _ (chunk_inb1 k 6) (off2_eq16 k 6)))),
    List.forall_mem_cons.mpr ⟨
    (ratio_store_ok fA fB (8 * k.val + 5) (chunk_inb1 k 5) (k0_off2 k 5#32) (k0_off2_inb k 5) (off2_eq16 k 5) _
      (congrArg₂ k0_pay3 (lanes_readAt_s0 fA (k0_off2 k 5#32) (k0_off2_inb k 5) _ (chunk_inb1 k 5) (off2_eq16 k 5)) (lanes_readAt_s1 fB (k0_off2 k 5#32) (k0_off2_inb k 5) _ (chunk_inb1 k 5) (off2_eq16 k 5)))),
    List.forall_mem_cons.mpr ⟨
    (ratio_store_ok fA fB (8 * k.val + 4) (chunk_inb1 k 4) (k0_off2 k 4#32) (k0_off2_inb k 4) (off2_eq16 k 4) _
      (congrArg₂ k0_pay3 (lanes_readAt_s0 fA (k0_off2 k 4#32) (k0_off2_inb k 4) _ (chunk_inb1 k 4) (off2_eq16 k 4)) (lanes_readAt_s1 fB (k0_off2 k 4#32) (k0_off2_inb k 4) _ (chunk_inb1 k 4) (off2_eq16 k 4)))),
    List.forall_mem_cons.mpr ⟨
    (ratio_store_ok fA fB (8 * k.val + 3) (chunk_inb1 k 3) (k0_off2 k 3#32) (k0_off2_inb k 3) (off2_eq16 k 3) _
      (congrArg₂ k0_pay3 (lanes_readAt_s0 fA (k0_off2 k 3#32) (k0_off2_inb k 3) _ (chunk_inb1 k 3) (off2_eq16 k 3)) (lanes_readAt_s1 fB (k0_off2 k 3#32) (k0_off2_inb k 3) _ (chunk_inb1 k 3) (off2_eq16 k 3)))),
    List.forall_mem_cons.mpr ⟨
    (ratio_store_ok fA fB (8 * k.val + 2) (chunk_inb1 k 2) (k0_off2 k 2#32) (k0_off2_inb k 2) (off2_eq16 k 2) _
      (congrArg₂ k0_pay3 (lanes_readAt_s0 fA (k0_off2 k 2#32) (k0_off2_inb k 2) _ (chunk_inb1 k 2) (off2_eq16 k 2)) (lanes_readAt_s1 fB (k0_off2 k 2#32) (k0_off2_inb k 2) _ (chunk_inb1 k 2) (off2_eq16 k 2)))),
    List.forall_mem_cons.mpr ⟨
    (ratio_store_ok fA fB (8 * k.val + 1) (chunk_inb1 k 1) (k0_off2 k 1#32) (k0_off2_inb k 1) (off2_eq16 k 1) _
      (congrArg₂ k0_pay3 (lanes_readAt_s0 fA (k0_off2 k 1#32) (k0_off2_inb k 1) _ (chunk_inb1 k 1) (off2_eq16 k 1)) (lanes_readAt_s1 fB (k0_off2 k 1#32) (k0_off2_inb k 1) _ (chunk_inb1 k 1) (off2_eq16 k 1)))),
    List.forall_mem_cons.mpr ⟨
    (ratio_store_ok fA fB (8 * k.val + 0) (chunk_inb1 k 0) (k0_off2 k 0#32) (k0_off2_inb k 0) (off2_eq16 k 0) _
      (congrArg₂ k0_pay3 (lanes_readAt_s0 fA (k0_off2 k 0#32) (k0_off2_inb k 0) _ (chunk_inb1 k 0) (off2_eq16 k 0)) (lanes_readAt_s1 fB (k0_off2 k 0#32) (k0_off2_inb k 0) _ (chunk_inb1 k 0) (off2_eq16 k 0)))),
    fun _ h => absurd h List.not_mem_nil⟩⟩⟩⟩⟩⟩⟩⟩)
    (cover8_off2 k _ _ _ _ _ _ _ _)

/-- Trip `k` of the loop of labels of a pair's first row. -/
theorem label_trip0 (fR f : S40960.Idx → Elt F .f32) (tv : Vec F S16 .f32) (k : Fin k0_t3_loop.trips)
    (hf : ∀ y : S40960.Idx, (y 0).val < 128 * k.val → f y = labelAt fR tv y) :
    ∀ y : S40960.Idx, (y 0).val < 128 * (k.val + 1) → s0.view.writes (Elt F) f [
      ⟨Rect.unit (s := S40960) (k0_off5 k 7#32) S16.size (k0_off5_inb k 7),
        k0_pay24 tv (sR.view.readAt (Elt F) (Rect.unit (s := S40960) (k0_off5 k 7#32) S16.size (k0_off5_inb k 7)).toLoadRect fR)⟩,
      ⟨Rect.unit (s := S40960) (k0_off5 k 6#32) S16.size (k0_off5_inb k 6),
        k0_pay23 tv (sR.view.readAt (Elt F) (Rect.unit (s := S40960) (k0_off5 k 6#32) S16.size (k0_off5_inb k 6)).toLoadRect fR)⟩,
      ⟨Rect.unit (s := S40960) (k0_off5 k 5#32) S16.size (k0_off5_inb k 5),
        k0_pay15 (k0_pay22 tv) (sR.view.readAt (Elt F) (Rect.unit (s := S40960) (k0_off5 k 5#32) S16.size (k0_off5_inb k 5)).toLoadRect fR)⟩,
      ⟨Rect.unit (s := S40960) (k0_off5 k 4#32) S16.size (k0_off5_inb k 4),
        k0_pay14 (k0_pay22 tv) (sR.view.readAt (Elt F) (Rect.unit (s := S40960) (k0_off5 k 4#32) S16.size (k0_off5_inb k 4)).toLoadRect fR)⟩,
      ⟨Rect.unit (s := S40960) (k0_off5 k 3#32) S16.size (k0_off5_inb k 3),
        k0_pay13 (k0_pay22 tv) (sR.view.readAt (Elt F) (Rect.unit (s := S40960) (k0_off5 k 3#32) S16.size (k0_off5_inb k 3)).toLoadRect fR)⟩,
      ⟨Rect.unit (s := S40960) (k0_off5 k 2#32) S16.size (k0_off5_inb k 2),
        k0_pay12 (k0_pay22 tv) (sR.view.readAt (Elt F) (Rect.unit (s := S40960) (k0_off5 k 2#32) S16.size (k0_off5_inb k 2)).toLoadRect fR)⟩,
      ⟨Rect.unit (s := S40960) (k0_off5 k 1#32) S16.size (k0_off5_inb k 1),
        k0_pay11 (k0_pay22 tv) (sR.view.readAt (Elt F) (Rect.unit (s := S40960) (k0_off5 k 1#32) S16.size (k0_off5_inb k 1)).toLoadRect fR)⟩,
      ⟨Rect.unit (s := S40960) (k0_off5 k 0#32) S16.size (k0_off5_inb k 0),
        k0_pay10 (k0_pay22 tv) (sR.view.readAt (Elt F) (Rect.unit (s := S40960) (k0_off5 k 0#32) S16.size (k0_off5_inb k 0)).toLoadRect fR)⟩] y = labelAt fR tv y :=
  writes_step_s0 (labelAt fR tv) k.val f _ hf
    (List.forall_mem_cons.mpr ⟨
    (label_store_ok fR tv (8 * k.val + 7) (chunk_inb3 k 7) (k0_off5 k 7#32) (k0_off5_inb k 7) (off5_eq16 k 7) _
      (congrArg (k0_pay10 (k0_pay22 tv)) (lanes_readAt_sR fR (k0_off5 k 7#32) (k0_off5_inb k 7) _ (chunk_inb3 k 7) (off5_eq16 k 7)))),
    List.forall_mem_cons.mpr ⟨
    (label_store_ok fR tv (8 * k.val + 6) (chunk_inb3 k 6) (k0_off5 k 6#32) (k0_off5_inb k 6) (off5_eq16 k 6) _
      (congrArg (k0_pay10 (k0_pay22 tv)) (lanes_readAt_sR fR (k0_off5 k 6#32) (k0_off5_inb k 6) _ (chunk_inb3 k 6) (off5_eq16 k 6)))),
    List.forall_mem_cons.mpr ⟨
    (label_store_ok fR tv (8 * k.val + 5) (chunk_inb3 k 5) (k0_off5 k 5#32) (k0_off5_inb k 5) (off5_eq16 k 5) _
      (congrArg (k0_pay10 (k0_pay22 tv)) (lanes_readAt_sR fR (k0_off5 k 5#32) (k0_off5_inb k 5) _ (chunk_inb3 k 5) (off5_eq16 k 5)))),
    List.forall_mem_cons.mpr ⟨
    (label_store_ok fR tv (8 * k.val + 4) (chunk_inb3 k 4) (k0_off5 k 4#32) (k0_off5_inb k 4) (off5_eq16 k 4) _
      (congrArg (k0_pay10 (k0_pay22 tv)) (lanes_readAt_sR fR (k0_off5 k 4#32) (k0_off5_inb k 4) _ (chunk_inb3 k 4) (off5_eq16 k 4)))),
    List.forall_mem_cons.mpr ⟨
    (label_store_ok fR tv (8 * k.val + 3) (chunk_inb3 k 3) (k0_off5 k 3#32) (k0_off5_inb k 3) (off5_eq16 k 3) _
      (congrArg (k0_pay10 (k0_pay22 tv)) (lanes_readAt_sR fR (k0_off5 k 3#32) (k0_off5_inb k 3) _ (chunk_inb3 k 3) (off5_eq16 k 3)))),
    List.forall_mem_cons.mpr ⟨
    (label_store_ok fR tv (8 * k.val + 2) (chunk_inb3 k 2) (k0_off5 k 2#32) (k0_off5_inb k 2) (off5_eq16 k 2) _
      (congrArg (k0_pay10 (k0_pay22 tv)) (lanes_readAt_sR fR (k0_off5 k 2#32) (k0_off5_inb k 2) _ (chunk_inb3 k 2) (off5_eq16 k 2)))),
    List.forall_mem_cons.mpr ⟨
    (label_store_ok fR tv (8 * k.val + 1) (chunk_inb3 k 1) (k0_off5 k 1#32) (k0_off5_inb k 1) (off5_eq16 k 1) _
      (congrArg (k0_pay10 (k0_pay22 tv)) (lanes_readAt_sR fR (k0_off5 k 1#32) (k0_off5_inb k 1) _ (chunk_inb3 k 1) (off5_eq16 k 1)))),
    List.forall_mem_cons.mpr ⟨
    (label_store_ok fR tv (8 * k.val + 0) (chunk_inb3 k 0) (k0_off5 k 0#32) (k0_off5_inb k 0) (off5_eq16 k 0) _
      (congrArg (k0_pay10 (k0_pay22 tv)) (lanes_readAt_sR fR (k0_off5 k 0#32) (k0_off5_inb k 0) _ (chunk_inb3 k 0) (off5_eq16 k 0)))),
    fun _ h => absurd h List.not_mem_nil⟩⟩⟩⟩⟩⟩⟩⟩)
    (cover8_off5 k _ _ _ _ _ _ _ _)

/-- Trip `k` of the loop of labels of a pair's second row. -/
theorem label_trip1 (fR f : S40960.Idx → Elt F .f32) (tv : Vec F S16 .f32) (k : Fin k0_t4_loop.trips)
    (hf : ∀ y : S40960.Idx, (y 0).val < 128 * k.val → f y = labelAt fR tv y) :
    ∀ y : S40960.Idx, (y 0).val < 128 * (k.val + 1) → s1.view.writes (Elt F) f [
      ⟨Rect.unit (s := S40960) (k0_off8 k 7#32) S16.size (k0_off8_inb k 7),
        k0_pay27 tv (sR.view.readAt (Elt F) (Rect.unit (s := S40960) (k0_off8 k 7#32) S16.size (k0_off8_inb k 7)).toLoadRect fR)⟩,
      ⟨Rect.unit (s := S40960) (k0_off8 k 6#32) S16.size (k0_off8_inb k 6),
        k0_pay26 tv (sR.view.readAt (Elt F) (Rect.unit (s := S40960) (k0_off8 k 6#32) S16.size (k0_off8_inb k 6)).toLoadRect fR)⟩,
      ⟨Rect.unit (s := S40960) (k0_off8 k 5#32) S16.size (k0_off8_inb k 5),
        k0_pay21 (k0_pay25 tv) (sR.view.readAt (Elt F) (Rect.unit (s := S40960) (k0_off8 k 5#32) S16.size (k0_off8_inb k 5)).toLoadRect fR)⟩,
      ⟨Rect.unit (s := S40960) (k0_off8 k 4#32) S16.size (k0_off8_inb k 4),
        k0_pay20 (k0_pay25 tv) (sR.view.readAt (Elt F) (Rect.unit (s := S40960) (k0_off8 k 4#32) S16.size (k0_off8_inb k 4)).toLoadRect fR)⟩,
      ⟨Rect.unit (s := S40960) (k0_off8 k 3#32) S16.size (k0_off8_inb k 3),
        k0_pay19 (k0_pay25 tv) (sR.view.readAt (Elt F) (Rect.unit (s := S40960) (k0_off8 k 3#32) S16.size (k0_off8_inb k 3)).toLoadRect fR)⟩,
      ⟨Rect.unit (s := S40960) (k0_off8 k 2#32) S16.size (k0_off8_inb k 2),
        k0_pay18 (k0_pay25 tv) (sR.view.readAt (Elt F) (Rect.unit (s := S40960) (k0_off8 k 2#32) S16.size (k0_off8_inb k 2)).toLoadRect fR)⟩,
      ⟨Rect.unit (s := S40960) (k0_off8 k 1#32) S16.size (k0_off8_inb k 1),
        k0_pay17 (k0_pay25 tv) (sR.view.readAt (Elt F) (Rect.unit (s := S40960) (k0_off8 k 1#32) S16.size (k0_off8_inb k 1)).toLoadRect fR)⟩,
      ⟨Rect.unit (s := S40960) (k0_off8 k 0#32) S16.size (k0_off8_inb k 0),
        k0_pay16 (k0_pay25 tv) (sR.view.readAt (Elt F) (Rect.unit (s := S40960) (k0_off8 k 0#32) S16.size (k0_off8_inb k 0)).toLoadRect fR)⟩] y = labelAt fR tv y :=
  writes_step_s1 (labelAt fR tv) k.val f _ hf
    (List.forall_mem_cons.mpr ⟨
    (label_store_ok fR tv (8 * k.val + 7) (chunk_inb4 k 7) (k0_off8 k 7#32) (k0_off8_inb k 7) (off8_eq16 k 7) _
      (congrArg (k0_pay10 (k0_pay22 tv)) (lanes_readAt_sR fR (k0_off8 k 7#32) (k0_off8_inb k 7) _ (chunk_inb4 k 7) (off8_eq16 k 7)))),
    List.forall_mem_cons.mpr ⟨
    (label_store_ok fR tv (8 * k.val + 6) (chunk_inb4 k 6) (k0_off8 k 6#32) (k0_off8_inb k 6) (off8_eq16 k 6) _
      (congrArg (k0_pay10 (k0_pay22 tv)) (lanes_readAt_sR fR (k0_off8 k 6#32) (k0_off8_inb k 6) _ (chunk_inb4 k 6) (off8_eq16 k 6)))),
    List.forall_mem_cons.mpr ⟨
    (label_store_ok fR tv (8 * k.val + 5) (chunk_inb4 k 5) (k0_off8 k 5#32) (k0_off8_inb k 5) (off8_eq16 k 5) _
      (congrArg (k0_pay10 (k0_pay22 tv)) (lanes_readAt_sR fR (k0_off8 k 5#32) (k0_off8_inb k 5) _ (chunk_inb4 k 5) (off8_eq16 k 5)))),
    List.forall_mem_cons.mpr ⟨
    (label_store_ok fR tv (8 * k.val + 4) (chunk_inb4 k 4) (k0_off8 k 4#32) (k0_off8_inb k 4) (off8_eq16 k 4) _
      (congrArg (k0_pay10 (k0_pay22 tv)) (lanes_readAt_sR fR (k0_off8 k 4#32) (k0_off8_inb k 4) _ (chunk_inb4 k 4) (off8_eq16 k 4)))),
    List.forall_mem_cons.mpr ⟨
    (label_store_ok fR tv (8 * k.val + 3) (chunk_inb4 k 3) (k0_off8 k 3#32) (k0_off8_inb k 3) (off8_eq16 k 3) _
      (congrArg (k0_pay10 (k0_pay22 tv)) (lanes_readAt_sR fR (k0_off8 k 3#32) (k0_off8_inb k 3) _ (chunk_inb4 k 3) (off8_eq16 k 3)))),
    List.forall_mem_cons.mpr ⟨
    (label_store_ok fR tv (8 * k.val + 2) (chunk_inb4 k 2) (k0_off8 k 2#32) (k0_off8_inb k 2) (off8_eq16 k 2) _
      (congrArg (k0_pay10 (k0_pay22 tv)) (lanes_readAt_sR fR (k0_off8 k 2#32) (k0_off8_inb k 2) _ (chunk_inb4 k 2) (off8_eq16 k 2)))),
    List.forall_mem_cons.mpr ⟨
    (label_store_ok fR tv (8 * k.val + 1) (chunk_inb4 k 1) (k0_off8 k 1#32) (k0_off8_inb k 1) (off8_eq16 k 1) _
      (congrArg (k0_pay10 (k0_pay22 tv)) (lanes_readAt_sR fR (k0_off8 k 1#32) (k0_off8_inb k 1) _ (chunk_inb4 k 1) (off8_eq16 k 1)))),
    List.forall_mem_cons.mpr ⟨
    (label_store_ok fR tv (8 * k.val + 0) (chunk_inb4 k 0) (k0_off8 k 0#32) (k0_off8_inb k 0) (off8_eq16 k 0) _
      (congrArg (k0_pay10 (k0_pay22 tv)) (lanes_readAt_sR fR (k0_off8 k 0#32) (k0_off8_inb k 0) _ (chunk_inb4 k 0) (off8_eq16 k 0)))),
    fun _ h => absurd h List.not_mem_nil⟩⟩⟩⟩⟩⟩⟩⟩)
    (cover8_off8 k _ _ _ _ _ _ _ _)

/-! ## A delivered row is the kernel's labels on that row -/

/-- The result at an element of row `row` that is lane `x` of chunk `n`. -/
theorem OutBuf_eq (A B : S40960.Idx → Elt F .f32) (Tt : S16384.Idx → Elt F .f32) (idx : S1024x40960.Idx) (row n : Nat)
    (hrow : 16 * row + 16 ≤ 16384) (hn : 16 * n + 16 ≤ 40960) (x : S16.Idx) (h0 : (idx 0).val = row) (h1 : (idx 1).val = 16 * n + (x 0).val) :
    OutBuf A B Tt idx = k0_pay10 (k0_pay22 (lanes Tt row hrow)) (k0_pay3 (lanes A n hn) (lanes B n hn)) x := by
  have hx : (x 0).val < 16 := (x 0).isLt
  have hq : (idx 1).val / 16 = n := by omega
  have hr : (idx 1).val % 16 = (x 0).val := by omega
  unfold OutBuf
  simp only []
  rw [lanes_congr Tt h0, lanes_congr A hq, lanes_congr B hq]
  congr 1
  funext a
  match a with
  | ⟨0, _⟩ => exact Fin.ext hr

/-- Chunk `n` of a buffer of ratios is the quotient of chunk `n` of the inputs. -/
theorem lanes_ratio (A B fR : S40960.Idx → Elt F .f32) (hR : ∀ y, fR y = ratioAt A B y) (n : Nat) (hn : 16 * n + 16 ≤ 40960) :
    lanes fR n hn = k0_pay3 (lanes A n hn) (lanes B n hn) := by
  funext l
  show fR _ = _
  rw [hR]
  exact ratioAt_eq A B _ n hn l rfl

/-- The task's 512 thresholds are entries `16 (512 c + 32 s) …` of `t`: sixteen of them from entry `16 m` of the task's are
    sixteen of `t` from entry `16 (512 c + 32 s + m)`. -/
theorem tSl_lanes (Tt : S16384.Idx → Elt F .f32) (L : grid0.Coords) (m : Nat) (hm : 16 * m + 16 ≤ 512)
    (hrow : 16 * (512 * (L 0).val + 32 * (L 1).val + m) + 16 ≤ 16384) :
    lanes ((tSl L).view.read (Elt F) Tt) m hm = lanes Tt (512 * (L 0).val + 32 * (L 1).val + m) hrow := by
  funext l
  show Tt _ = Tt _
  congr 1
  funext a
  match a with
  | ⟨0, _⟩ =>
    apply Fin.ext
    show k0_off1 L 0 + 1 * (16 * m + (l 0).val) = 16 * (512 * (L 0).val + 32 * (L 1).val + m) + (l 0).val
    rw [k0_off1_eq]
    show 8192 * (L 0).val + 512 * (L 1).val + 1 * (16 * m + (l 0).val) = _
    omega

/-- Where row `2 g + r` of a task puts entry `y` of a 40960-entry buffer: row `512 c + 32 s + 2 g + r`, column `y`. -/
theorem oRow_emb_val (L : grid0.Coords) (g : Fin k0_t2_loop.trips) (r : Fin 2) (y : S40960.Idx) :
    ((((oRow L g r).view.emb y : S1024x40960.Idx)) 0).val = 512 * (L 0).val + 32 * (L 1).val + 2 * g.val + r.val
      ∧ ((((oRow L g r).view.emb y : S1024x40960.Idx)) 1).val = (y 0).val := by
  obtain ⟨z, hz, hrm⟩ : ∃ z : (Rect.unit (s := S1024x40960) (k0_off6 L g (BitVec.ofNat 32 r.val)) S1x40960.size (k0_off6_inb L g r)).shape.Idx,
      ((oRow L g r).view.emb y : S1024x40960.Idx) = (Rect.unit (s := S1024x40960) (k0_off6 L g (BitVec.ofNat 32 r.val)) S1x40960.size (k0_off6_inb L g r)).emb z
        ∧ (((⟨2, S1x40960.size⟩ : Shape).rowMajor z : Nat)) = S40960.rowMajor y :=
    ⟨Shape.reshapeEquiv _ y, rfl, Shape.rowMajor_reshapeEquiv _ y⟩
  rw [hz]
  have e0 : (((Rect.unit (s := S1024x40960) (k0_off6 L g (BitVec.ofNat 32 r.val)) S1x40960.size (k0_off6_inb L g r)).emb z) 0).val
      = k0_off6 L g (BitVec.ofNat 32 r.val) 0 + 1 * (z 0).val := rfl
  have e1 : (((Rect.unit (s := S1024x40960) (k0_off6 L g (BitVec.ofNat 32 r.val)) S1x40960.size (k0_off6_inb L g r)).emb z) 1).val
      = k0_off6 L g (BitVec.ofNat 32 r.val) 1 + 1 * (z 1).val := rfl
  have hz0 : (z 0).val < 1 := (z 0).isLt
  have hz1 : (z 1).val < 40960 := (z 1).isLt
  rw [Shape.rowMajor_val_two, Shape.rowMajor_val_one] at hrm
  have hrm' : (z 0).val * 40960 + (z 1).val = (y 0).val := hrm
  have o0 : k0_off6 L g (BitVec.ofNat 32 r.val) 0 = 512 * (L 0).val + 32 * (L 1).val + 2 * g.val + r.val := by rw [k0_off6_eq]; rfl
  have o1 : k0_off6 L g (BitVec.ofNat 32 r.val) 1 = 0 := by rw [k0_off6_eq]; rfl
  rw [e0, e1]
  omega

/-- A 40960-entry buffer of labels, delivered whole into row `2 g + r` of a task, leaves the kernel's result on that row. -/
theorem row_labels_gen (A B : S40960.Idx → Elt F .f32) (Tt : S16384.Idx → Elt F .f32) (fR buf : S40960.Idx → Elt F .f32)
    (L : grid0.Coords) (g : Fin k0_t2_loop.trips) (r : Fin 2) (tv : Vec F S16 .f32)
    (htv : tv = lanes ((tSl L).view.read (Elt F) Tt) (2 * g.val + r.val) (row_inb g r))
    (hR : ∀ y, fR y = ratioAt A B y) (hbuf : ∀ y, buf y = labelAt fR tv y) (fd : S1024x40960.Idx → Elt F .f32) :
    ∀ i ∈ (oRow L g r).view.set, (oRow L g r).view.writes (Elt F) fd [⟨Rect.whole S40960, buf⟩] i = OutBuf A B Tt i := by
  intro i hi
  rw [← View.write_univ_eq_writes_whole (oRow L g r).view fd [] buf, View.writes_nil]
  obtain ⟨y, -, rfl⟩ := Finset.mem_map.mp hi
  rw [View.write_emb_of_mem _ _ (Finset.mem_univ y)]
  show buf y = _
  obtain ⟨h0, h1⟩ := oRow_emb_val L g r y
  have hy : (y 0).val < 40960 := (y 0).isLt
  have hc : (L 0).val < 2 := (L 0).isLt
  have hs : (L 1).val < 16 := (L 1).isLt
  have hg : g.val < 16 := (show k0_t2_loop.trips = 16 by decide) ▸ g.isLt
  have hr : r.val < 2 := r.isLt
  have hn : 16 * ((y 0).val / 16) + 16 ≤ 40960 := by omega
  have hrow : 16 * (512 * (L 0).val + 32 * (L 1).val + (2 * g.val + r.val)) + 16 ≤ 16384 := by omega
  have hxy : (y 0).val = 16 * ((y 0).val / 16) + ((ix1 (n := 16) ⟨(y 0).val % 16, Nat.mod_lt _ (by decide)⟩ : S16.Idx) 0).val := by
    show (y 0).val = 16 * ((y 0).val / 16) + (y 0).val % 16
    omega
  rw [hbuf y, labelAt_eq fR tv y ((y 0).val / 16) hn (ix1 ⟨(y 0).val % 16, Nat.mod_lt _ (by decide)⟩) hxy,
    OutBuf_eq A B Tt _ (512 * (L 0).val + 32 * (L 1).val + (2 * g.val + r.val)) ((y 0).val / 16) hrow hn (ix1 ⟨(y 0).val % 16, Nat.mod_lt _ (by decide)⟩)
      (by rw [h0]; omega) (h1.trans hxy),
    lanes_ratio A B fR hR, htv, tSl_lanes Tt L (2 * g.val + r.val) (row_inb g r) hrow]

/-- The first row of pair `g`: its thresholds are the sixteen the task's scratch copy holds from entry `32 g`. -/
theorem row_labels0 (A B : S40960.Idx → Elt F .f32) (Tt : S16384.Idx → Elt F .f32) (fR buf : S40960.Idx → Elt F .f32)
    (L : grid0.Coords) (g : Fin k0_t2_loop.trips) (hR : ∀ y, fR y = ratioAt A B y)
    (hbuf : ∀ y, buf y = labelAt fR (sT.view.readAt (Elt F) (Rect.unit (s := S512) (k0_off3 g 0#32) S16.size (k0_off3_inb g 0)).toLoadRect
      ((tSl L).view.read (Elt F) Tt)) y) (fd : S1024x40960.Idx → Elt F .f32) :
    ∀ i ∈ (oRow L g 0).view.set, (oRow L g 0).view.writes (Elt F) fd [⟨Rect.whole S40960, buf⟩] i = OutBuf A B Tt i :=
  row_labels_gen A B Tt fR buf L g 0 _ (lanes_readAt_sT _ _ _ _ (row_inb g 0) (off3_eq16 g 0)) hR hbuf fd

/-- The second row of pair `g`: its thresholds are the sixteen from entry `32 g + 16`. -/
theorem row_labels1 (A B : S40960.Idx → Elt F .f32) (Tt : S16384.Idx → Elt F .f32) (fR buf : S40960.Idx → Elt F .f32)
    (L : grid0.Coords) (g : Fin k0_t2_loop.trips) (hR : ∀ y, fR y = ratioAt A B y)
    (hbuf : ∀ y, buf y = labelAt fR (sT.view.readAt (Elt F) (Rect.unit (s := S512) (k0_off3 g 1#32) S16.size (k0_off3_inb g 1)).toLoadRect
      ((tSl L).view.read (Elt F) Tt)) y) (fd : S1024x40960.Idx → Elt F .f32) :
    ∀ i ∈ (oRow L g 1).view.set, (oRow L g 1).view.writes (Elt F) fd [⟨Rect.whole S40960, buf⟩] i = OutBuf A B Tt i :=
  row_labels_gen A B Tt fR buf L g 1 _ (lanes_readAt_sT _ _ _ _ (row_inb g 1) (off3_eq16 g 1)) hR hbuf fd

end Cert.Proof.KI

end
-- ==== Proof.TileBody.lean ====
/-
  One vector subcore's task of the labelling kernel, run from what the task is handed to what it hands back.

  The task copies the two inputs `a` and `b` whole and its 512 thresholds into its own memory, stores the 40960
  quotients `a k / b k` (a loop of 320 trips, eight sixteen-lane chunks a trip), and then, two rows a trip for 16 trips,
  compares every quotient with the row's threshold vector, stores the 40960 labels of the row in one of two buffers and
  starts the transfer of that buffer into the row of the result; a buffer is written again only after the transfer that
  reads it has been waited for (at the next trip, or after the loop for the last two rows). So between trips two
  transfers are in flight, each holding its buffer and its row until its wait: the row loop's invariant says, before
  trip `g`, which rows hold the labels (those of trips before `g - 1`), which are away (those of trip `g - 1`) and which
  still hold the launch contents, and that each buffer with its semaphore is either free (first trip) or away in the
  transfer of its row of trip `g - 1`, which delivers that row AT THE LABELS. The loops' value facts — what eight stores
  of a trip add to the stored prefix, and that a delivered buffer is the result's row — are stated entry by entry in the
  module of pure facts; here is the run.
-/
import proofs.«210286_g62405874811728_cont_9to1_m_386_18_alg».proof.Kernel
import proofs.«210286_g62405874811728_cont_9to1_m_386_18_alg».proof.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.KernelIdeal
import proofs.«210286_g62405874811728_cont_9to1_m_386_18_alg».proof.Proof.Gen.KernelIdeal.Skeleton
import proofs.«210286_g62405874811728_cont_9to1_m_386_18_alg».proof.Proof.TileSpec
import proofs.«210286_g62405874811728_cont_9to1_m_386_18_alg».proof.Proof.TileScoped
import proofs.«210286_g62405874811728_cont_9to1_m_386_18_alg».proof.Proof.TileVals
import proofs.«210286_g62405874811728_cont_9to1_m_386_18_alg».proof.Proof.TileRows
import proofs.«210286_g62405874811728_cont_9to1_m_386_18_alg».proof.Proof.TilePure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}
local notation "𝕄" => MT nD τ sig (HIx 1) (Elt F) ℕ UU ℕ

section Tile
variable (d : Dev nD) (L : grid0.Coords)
variable (A : (d : Dev nD) → Buf (Elt F) (aLoc d)) (B : (d : Dev nD) → Buf (Elt F) (bLoc d))
  (Tt : (d : Dev nD) → Buf (Elt F) (tLoc d)) (O0 : (d : Dev nD) → Buf (Elt F) (oLoc d))
variable [FloatOps F]

omit [FloatOps F] in
theorem pts_a (q : PosShare TreeShare) (f : Buf (Elt F) (aLoc d)) :
    ((aW).view.loc (V d (cV L) (jV L)) ↦{q} f : sProp 𝕄) = aLoc d ↦{q} f := rfl
omit [FloatOps F] in
theorem pts_b (q : PosShare TreeShare) (f : Buf (Elt F) (bLoc d)) :
    ((bW).view.loc (V d (cV L) (jV L)) ↦{q} f : sProp 𝕄) = bLoc d ↦{q} f := rfl
omit [FloatOps F] in
theorem pts_t (f : Buf (Elt F) (tLoc d)) :
    ((tSl L).view.loc (V d (cV L) (jV L)) ↦[(tSl L).view.set]{fullShare} f : sProp 𝕄) = tLoc d ↦[(tSl L).view.set]{fullShare} f := rfl
omit [FloatOps F] in
theorem pts_o (g : Fin k0_t2_loop.trips) (r : Fin 2) (f : Buf (Elt F) (oLoc d)) :
    ((oRow L g r).view.loc (V d (cV L) (jV L)) ↦[(oRow L g r).view.set]{fullShare} f : sProp 𝕄) = oLoc d ↦[(oRow L g r).view.set]{fullShare} f := rfl
omit [FloatOps F] in
theorem pts_sR (f : Buf (Elt F) ((V d (cV L) (jV L)).loc cc0_scratch0)) :
    ((sR).view.loc (V d (cV L) (jV L)) ↦{fullShare} f : sProp 𝕄) = (V d (cV L) (jV L)).loc cc0_scratch0 ↦{fullShare} f := rfl
omit [FloatOps F] in
theorem pts_s0 (f : Buf (Elt F) ((V d (cV L) (jV L)).loc cc0_scratch1)) :
    ((s0).view.loc (V d (cV L) (jV L)) ↦{fullShare} f : sProp 𝕄) = (V d (cV L) (jV L)).loc cc0_scratch1 ↦{fullShare} f := rfl
omit [FloatOps F] in
theorem pts_s1 (f : Buf (Elt F) ((V d (cV L) (jV L)).loc cc0_scratch2)) :
    ((s1).view.loc (V d (cV L) (jV L)) ↦{fullShare} f : sProp 𝕄) = (V d (cV L) (jV L)).loc cc0_scratch2 ↦{fullShare} f := rfl
omit [FloatOps F] in
theorem pts_sT (f : Buf (Elt F) ((V d (cV L) (jV L)).loc cc0_scratch3)) :
    ((sT).view.loc (V d (cV L) (jV L)) ↦{fullShare} f : sProp 𝕄) = (V d (cV L) (jV L)).loc cc0_scratch3 ↦{fullShare} f := rfl

/-! ## The invariants of the task's loops -/

/-- Before trip `k` of the division loop: the two inputs' copies untouched, the first `128 k` ratios stored. -/
def inv1 (fA : Buf (Elt F) ((V d (cV L) (jV L)).loc cc0_scratch1)) (fB : Buf (Elt F) ((V d (cV L) (jV L)).loc cc0_scratch2)) (k : Nat) (_ : PUnit) : sProp 𝕄 :=
  iprop(((s0).view.loc (V d (cV L) (jV L)) ↦{fullShare} fA) ∗ ((s1).view.loc (V d (cV L) (jV L)) ↦{fullShare} fB)
    ∗ ∃ f : Buf (Elt F) ((V d (cV L) (jV L)).loc cc0_scratch0), ((sR).view.loc (V d (cV L) (jV L)) ↦{fullShare} f)
        ∗ ⌜∀ y : S40960.Idx, (y 0).val < 128 * k → f y = ratioAt fA fB y⌝)

/-- Before trip `k` of a row's label loop into the first buffer: the ratios untouched, the first `128 k` labels stored. -/
def inv3 (fR : Buf (Elt F) ((V d (cV L) (jV L)).loc cc0_scratch0)) (tv : Vec F S16 .f32) (k : Nat) (_ : PUnit) : sProp 𝕄 :=
  iprop(((sR).view.loc (V d (cV L) (jV L)) ↦{fullShare} fR)
    ∗ ∃ f : Buf (Elt F) ((V d (cV L) (jV L)).loc cc0_scratch1), ((s0).view.loc (V d (cV L) (jV L)) ↦{fullShare} f)
        ∗ ⌜∀ y : S40960.Idx, (y 0).val < 128 * k → f y = labelAt fR tv y⌝)
/-- The same into the second buffer. -/
def inv4 (fR : Buf (Elt F) ((V d (cV L) (jV L)).loc cc0_scratch0)) (tv : Vec F S16 .f32) (k : Nat) (_ : PUnit) : sProp 𝕄 :=
  iprop(((sR).view.loc (V d (cV L) (jV L)) ↦{fullShare} fR)
    ∗ ∃ f : Buf (Elt F) ((V d (cV L) (jV L)).loc cc0_scratch2), ((s1).view.loc (V d (cV L) (jV L)) ↦{fullShare} f)
        ∗ ⌜∀ y : S40960.Idx, (y 0).val < 128 * k → f y = labelAt fR tv y⌝)

/-- The first label buffer and its semaphore before trip `g` of the row loop: free at the first trip, afterwards away
    in the transfer of row `(g - 1, 0)`, which delivers that row at the labels and the buffer back. -/
def slot0 (Out : Buf (Elt F) (oLoc d)) (g : Nat) : sProp 𝕄 :=
  if g = 0 then iprop(semVal (cS0 d (cV L) (jV L)) 0 ∗ ∃ f, (s0).view.loc (V d (cV L) (jV L)) ↦{fullShare} f)
  else iprop(∃ g1 : Fin k0_t2_loop.trips, ⌜g1.val + 1 = g⌝ ∗ ∃ l : Buf (Elt F) ((V d (cV L) (jV L)).loc cc0_scratch1),
      Transfers.Flight (countersEmb : UEmb Counters 𝕄) (V d (cV L) (jV L)) (SemLoc.dma cc0_scratch4.sem) default 1310720
        iprop(((oRow L g1 0).view.loc (V d (cV L) (jV L)) ↦[(oRow L g1 0).view.set]{fullShare} Out)
          ∗ ((s0).view.loc (V d (cV L) (jV L)) ↦[(s0).view.set]{fullShare} l))
      ∗ ((s0).view.loc (V d (cV L) (jV L)) ↦[Finset.univ \ (s0).view.set]{fullShare} l))
/-- The second label buffer and its semaphore likewise, with row `(g - 1, 1)`. -/
def slot1 (Out : Buf (Elt F) (oLoc d)) (g : Nat) : sProp 𝕄 :=
  if g = 0 then iprop(semVal (cS1 d (cV L) (jV L)) 0 ∗ ∃ f, (s1).view.loc (V d (cV L) (jV L)) ↦{fullShare} f)
  else iprop(∃ g1 : Fin k0_t2_loop.trips, ⌜g1.val + 1 = g⌝ ∗ ∃ l : Buf (Elt F) ((V d (cV L) (jV L)).loc cc0_scratch2),
      Transfers.Flight (countersEmb : UEmb Counters 𝕄) (V d (cV L) (jV L)) (SemLoc.dma cc0_scratch5.sem) default 1310720
        iprop(((oRow L g1 1).view.loc (V d (cV L) (jV L)) ↦[(oRow L g1 1).view.set]{fullShare} Out)
          ∗ ((s1).view.loc (V d (cV L) (jV L)) ↦[(s1).view.set]{fullShare} l))
      ∗ ((s1).view.loc (V d (cV L) (jV L)) ↦[Finset.univ \ (s1).view.set]{fullShare} l))

/-- Before trip `g` of the row loop. -/
def inv2 (fR : Buf (Elt F) ((V d (cV L) (jV L)).loc cc0_scratch0)) (fT : Buf (Elt F) ((V d (cV L) (jV L)).loc cc0_scratch3))
    (Oc0 Out : Buf (Elt F) (oLoc d)) (O : CellTallies nD τ sig (HIx 1)) (W : Waits sig (HIx 1)) (g : Nat) (_ : PUnit) : sProp 𝕄 :=
  iprop(Transfers.MayWaits (V d (cV L) (jV L)) (none : HIx 1) O
    ∗ ((sR).view.loc (V d (cV L) (jV L)) ↦{fullShare} fR) ∗ ((sT).view.loc (V d (cV L) (jV L)) ↦{fullShare} fT)
    ∗ slot0 d L Out g ∗ slot1 d L Out g
    ∗ rowsAt d L Oc0 Out g
    ∗ ∃ W', ⌜∀ p ∈ W', p ∈ W ∨ p.2 = none⌝ ∗ owes (V d (cV L) (jV L)) O W')

omit [FloatOps F] in
theorem slot0_zero (Out : Buf (Elt F) (oLoc d)) (g : Nat) (h : g = 0) :
    slot0 (F := F) d L Out g = iprop(semVal (cS0 d (cV L) (jV L)) 0 ∗ ∃ f, (s0).view.loc (V d (cV L) (jV L)) ↦{fullShare} f) := if_pos h
omit [FloatOps F] in
theorem slot1_zero (Out : Buf (Elt F) (oLoc d)) (g : Nat) (h : g = 0) :
    slot1 (F := F) d L Out g = iprop(semVal (cS1 d (cV L) (jV L)) 0 ∗ ∃ f, (s1).view.loc (V d (cV L) (jV L)) ↦{fullShare} f) := if_pos h
omit [FloatOps F] in
theorem slot0_pos (Out : Buf (Elt F) (oLoc d)) (g : Nat) (h : g ≠ 0) :
    slot0 (F := F) d L Out g = iprop(∃ g1 : Fin k0_t2_loop.trips, ⌜g1.val + 1 = g⌝ ∗ ∃ l : Buf (Elt F) ((V d (cV L) (jV L)).loc cc0_scratch1),
      Transfers.Flight (countersEmb : UEmb Counters 𝕄) (V d (cV L) (jV L)) (SemLoc.dma cc0_scratch4.sem) default 1310720
        iprop(((oRow L g1 0).view.loc (V d (cV L) (jV L)) ↦[(oRow L g1 0).view.set]{fullShare} Out)
          ∗ ((s0).view.loc (V d (cV L) (jV L)) ↦[(s0).view.set]{fullShare} l))
      ∗ ((s0).view.loc (V d (cV L) (jV L)) ↦[Finset.univ \ (s0).view.set]{fullShare} l)) := if_neg h
omit [FloatOps F] in
theorem slot1_pos (Out : Buf (Elt F) (oLoc d)) (g : Nat) (h : g ≠ 0) :
    slot1 (F := F) d L Out g = iprop(∃ g1 : Fin k0_t2_loop.trips, ⌜g1.val + 1 = g⌝ ∗ ∃ l : Buf (Elt F) ((V d (cV L) (jV L)).loc cc0_scratch2),
      Transfers.Flight (countersEmb : UEmb Counters 𝕄) (V d (cV L) (jV L)) (SemLoc.dma cc0_scratch5.sem) default 1310720
        iprop(((oRow L g1 1).view.loc (V d (cV L) (jV L)) ↦[(oRow L g1 1).view.set]{fullShare} Out)
          ∗ ((s1).view.loc (V d (cV L) (jV L)) ↦[(s1).view.set]{fullShare} l))
      ∗ ((s1).view.loc (V d (cV L) (jV L)) ↦[Finset.univ \ (s1).view.set]{fullShare} l)) := if_neg h

theorem cond1_spec : ∀ k : Fin k0_t2_loop.trips, (k0_cond1 k = 1#1 ↔ k.val ≠ 0) := by decide
theorem cond2_spec : ∀ k : Fin k0_t2_loop.trips, (k0_cond2 k = 1#1 ↔ k.val ≠ 0) := by decide

omit [FloatOps F] in
theorem waits_insert {X Y : Waits sig (HIx 1)} (s : SemLoc sig) (h : ∀ p ∈ X, p ∈ Y ∨ p.2 = none) :
    ∀ p ∈ insert (s, (default : HIx 1)) X, p ∈ Y ∨ p.2 = none := by
  intro p hp
  rcases Finset.mem_insert.mp hp with rfl | hp
  · exact .inr rfl
  · exact h p hp

set_option maxHeartbeats 4000000 in
theorem tile_body : TileBodyStmt (F := F) A B Tt O0 := by
  intro hF d L O W hO
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn tileOut tileRes
  iintro ⟨#Hlv, -, ⟨Ha, Hb, Ht, Ho⟩, ⟨⟨%fr, Hr⟩, ⟨%f0, H0⟩, ⟨%f1, H1⟩, ⟨%ft, Hts⟩, Hbufs⟩, ⟨HsemS0, HsemS1, HsemR0, HsemR1, HsemR2, Hsems⟩, HO⟩
  ihave Hmw := ((K (F := F)).mayWaits_none (thr := V d (cV L) (jV L)) hO) $$ Hlv
  ihave Ha' := (Entails.of_eq (pts_a (F := F) d L _ _).symm) $$ Ha
  ihave Hb' := (Entails.of_eq (pts_b (F := F) d L _ _).symm) $$ Hb
  ihave Ht' := (Entails.of_eq (pts_t (F := F) d L _).symm) $$ Ht
  ihave Hr' := (Entails.of_eq (pts_sR (F := F) d L _).symm) $$ Hr
  ihave H0' := (Entails.of_eq (pts_s0 (F := F) d L _).symm) $$ H0
  ihave H1' := (Entails.of_eq (pts_s1 (F := F) d L _).symm) $$ H1
  ihave Hts' := (Entails.of_eq (pts_sT (F := F) d L _).symm) $$ Hts
  sl_exec
  have hA : View.write (Elt F) s0.view f0 (tile_body.sl.dma0 A d) Finset.univ = A d := View.write_whole_univ _ _ _
  have hB : View.write (Elt F) s1.view f1 (tile_body.sl.dma0_1 B d) Finset.univ = B d := View.write_whole_univ _ _ _
  have hT : View.write (Elt F) sT.view ft (tile_body.sl.dma0_2 Tt d L) Finset.univ = (tSl L).view.read (Elt F) (Tt d) := View.write_whole_univ _ _ _
  rw [hA, hB, hT]
  sl_for (inv1 d L (A d) (B d)) $$ [H0' H1' Hr']
  case region =>
    intro k _
    unfold inv1
    iintro ⟨H0, H1, %f, Hr, %hf⟩
    sl_exec
    sl_step
    isplitl [H0]; · iexact H0
    isplitl [H1]; · iexact H1
    iexists _; isplitl [Hr]; · iexact Hr
    ipureintro
    exact ratio_trip (A d) (B d) f k hf
  · unfold inv1
    isplitl [H0']; · iexact H0'
    isplitl [H1']; · iexact H1'
    iexists _; isplitl [Hr']; · iexact Hr'
    ipureintro; intro y hy; exact absurd hy (by omega)
  iintro %_ HI
  unfold inv1
  icases HI with ⟨H0, H1, %fR, Hr, %hR⟩
  ihave Hrows := (rowsAt_zero (F := F) d L (O0 d) (OutBuf (A d) (B d) (Tt d))) $$ Ho
  have h320a : Scf.trips k0_t1_loop.lb k0_t1_loop.ub k0_t1_loop.st = 320 := trips1
  have h320c : Scf.trips k0_t3_loop.lb k0_t3_loop.ub k0_t3_loop.st = 320 := trips3
  have h320d : Scf.trips k0_t4_loop.lb k0_t4_loop.ub k0_t4_loop.st = 320 := trips4
  have hRall : ∀ y : S40960.Idx, fR y = ratioAt (A d) (B d) y := fun y =>
    hR y (by have h : (y 0).val < 40960 := (y 0).isLt; rw [h320a]; omega)
  have hbase : ∀ p ∈ (insert (SemLoc.dma cc0_scoped2.sem, (default : HIx 1)) (insert (SemLoc.dma cc0_scoped1.sem, default) (insert (SemLoc.dma cc0_scoped0.sem, default) W))), p ∈ W ∨ p.2 = none :=
    waits_insert _ (waits_insert _ (waits_insert _ (fun p hp => .inl hp)))
  sl_for (inv2 d L fR (View.read (Elt F) (tSl L).view (Tt d)) (O0 d) (OutBuf (A d) (B d) (Tt d)) O
      (insert (SemLoc.dma cc0_scoped2.sem, default) (insert (SemLoc.dma cc0_scoped1.sem, default) (insert (SemLoc.dma cc0_scoped0.sem, default) W)))) $$ [Hr Hts' H0 H1 HsemS0 HsemS1 Hrows HO]
  case region =>
    intro k _
    unfold inv2
    iintro ⟨#Hmw', Hr, HT, Hs0, Hs1, Hrows, %W', %hW', HO⟩
    ihave Hrows' := (rowsAt_take (F := F) d L (O0 d) (OutBuf (A d) (B d) (Tt d)) k) $$ Hrows
    icases Hrows' with ⟨Hrow0, Hrow1, Hrest⟩
    ihave Hrow0' := (Entails.of_eq (pts_o (F := F) d L k 0 _).symm) $$ Hrow0
    ihave Hrow1' := (Entails.of_eq (pts_o (F := F) d L k 1 _).symm) $$ Hrow1
    by_cases hk : k.val = 0
    · have hk1 : ¬ k0_cond1 k = 1#1 := fun h => (cond1_spec k).mp h hk
      have hk2 : ¬ k0_cond2 k = 1#1 := fun h => (cond2_spec k).mp h hk
      ihave Hs0' := (Entails.of_eq (slot0_zero (F := F) d L _ k.val hk)) $$ Hs0
      ihave Hs1' := (Entails.of_eq (slot1_zero (F := F) d L _ k.val hk)) $$ Hs1
      icases Hs0' with ⟨Hc0, %b0, H0⟩
      icases Hs1' with ⟨Hc1, %b1, H1⟩
      have hWfin := hW'
      sl_exec
      sl_for (inv3 d L fR (View.readAt (Elt F) sT.view (Rect.unit (s := S512) (k0_off3 k 0#32) S16.size (k0_off3_inb k 0)).toLoadRect (View.read (Elt F) (tSl L).view (Tt d)))) $$ [Hr H0]
      case region =>
        intro k3 _
        unfold inv3
        iintro ⟨Hr, %f, H0, %hf⟩
        sl_exec
        sl_step
        isplitl [Hr]; · iexact Hr
        iexists _; isplitl [H0]; · iexact H0
        ipureintro
        exact label_trip0 fR f _ k3 hf
      · unfold inv3
        isplitl [Hr]; · iexact Hr
        iexists _; isplitl [H0]; · iexact H0
        ipureintro; intro y hy; exact absurd hy (by omega)
      iintro %_ HI
      unfold inv3
      icases HI with ⟨Hr, %l0, H0, %hl0⟩
      sl_exec
      sl_for (inv4 d L fR (View.readAt (Elt F) sT.view (Rect.unit (s := S512) (k0_off3 k 1#32) S16.size (k0_off3_inb k 1)).toLoadRect (View.read (Elt F) (tSl L).view (Tt d)))) $$ [Hr H1]
      case region =>
        intro k4 _
        unfold inv4
        iintro ⟨Hr, %f, H1, %hf⟩
        sl_exec
        sl_step
        isplitl [Hr]; · iexact Hr
        iexists _; isplitl [H1]; · iexact H1
        ipureintro
        exact label_trip1 fR f _ k4 hf
      · unfold inv4
        isplitl [Hr]; · iexact Hr
        iexists _; isplitl [H1]; · iexact H1
        ipureintro; intro y hy; exact absurd hy (by omega)
      iintro %_ HI
      unfold inv4
      icases HI with ⟨Hr, %l1, H1, %hl1⟩
      sl_exec
      have hD0 : ∀ i ∈ (oRow L k 0).view.set, (oRow L k 0).view.writes (Elt F) (O0 d) [⟨Rect.whole S40960, tile_body.sl.dma0_3 d L l0⟩] i = OutBuf (A d) (B d) (Tt d) i :=
        row_labels0 (A d) (B d) (Tt d) fR l0 L k hRall (fun y => hl0 y (by have h : (y 0).val < 40960 := (y 0).isLt; rw [h320c]; omega)) (O0 d)
      have hD1 : ∀ i ∈ (oRow L k 1).view.set, (oRow L k 1).view.writes (Elt F) (O0 d) [⟨Rect.whole S40960, tile_body.sl.dma0_4 d L l1⟩] i = OutBuf (A d) (B d) (Tt d) i :=
        row_labels1 (A d) (B d) (Tt d) fR l1 L k hRall (fun y => hl1 y (by have h : (y 0).val < 40960 := (y 0).isLt; rw [h320d]; omega)) (O0 d)
      ihave Hf0 := (Transfers.Flight_mono _ _ (sep_mono_left (Entails.of_eq (pointsTo_congr hD0)))) $$ Hc0
      ihave Hf1 := (Transfers.Flight_mono _ _ (sep_mono_left (Entails.of_eq (pointsTo_congr hD1)))) $$ Hc1
      sl_step
      isplitr; · iexact Hmw'
      isplitl [Hr]; · iexact Hr
      isplitl [HT]; · iexact HT
      isplitl [Hf0 H0]
      · iapply (Entails.of_eq (slot0_pos (F := F) d L _ (k.val + 1) (Nat.succ_ne_zero _)).symm)
        iexists k; isplitr; · ipureintro; rfl
        iexists l0; isplitl [Hf0]; · iexact Hf0
        iexact H0
      isplitl [Hf1 H1]
      · iapply (Entails.of_eq (slot1_pos (F := F) d L _ (k.val + 1) (Nat.succ_ne_zero _)).symm)
        iexists k; isplitr; · ipureintro; rfl
        iexists l1; isplitl [Hf1]; · iexact Hf1
        iexact H1
      isplitl [Hrest]
      · iapply (rowsAt_put_zero (F := F) d L (O0 d) (OutBuf (A d) (B d) (Tt d)) k hk); iexact Hrest
      iexists _; isplitr
      · ipureintro; exact hWfin
      · iexact HO

    · have hk1 : k0_cond1 k = 1#1 := (cond1_spec k).mpr hk
      have hk2 : k0_cond2 k = 1#1 := (cond2_spec k).mpr hk
      ihave Hs0' := (Entails.of_eq (slot0_pos (F := F) d L _ k.val hk)) $$ Hs0
      ihave Hs1' := (Entails.of_eq (slot1_pos (F := F) d L _ k.val hk)) $$ Hs1
      icases Hs0' with ⟨%g1, %hg1, %p0, Hc0, H0⟩
      icases Hs1' with ⟨%g1', %hg1', %p1, Hc1, H1⟩
      have hgg : g1 = g1' := Fin.ext (by omega)
      subst hgg
      have hWfin := waits_insert (SemLoc.dma cc0_scratch5.sem) (waits_insert (SemLoc.dma cc0_scratch4.sem) hW')
      sl_exec
      sl_for (inv3 d L fR (View.readAt (Elt F) sT.view (Rect.unit (s := S512) (k0_off3 k 0#32) S16.size (k0_off3_inb k 0)).toLoadRect (View.read (Elt F) (tSl L).view (Tt d)))) $$ [Hr H0]
      case region =>
        intro k3 _
        unfold inv3
        iintro ⟨Hr, %f, H0, %hf⟩
        sl_exec
        sl_step
        isplitl [Hr]; · iexact Hr
        iexists _; isplitl [H0]; · iexact H0
        ipureintro
        exact label_trip0 fR f _ k3 hf
      · unfold inv3
        isplitl [Hr]; · iexact Hr
        iexists _; isplitl [H0]; · iexact H0
        ipureintro; intro y hy; exact absurd hy (by omega)
      iintro %_ HI
      unfold inv3
      icases HI with ⟨Hr, %l0, H0, %hl0⟩
      sl_exec
      sl_for (inv4 d L fR (View.readAt (Elt F) sT.view (Rect.unit (s := S512) (k0_off3 k 1#32) S16.size (k0_off3_inb k 1)).toLoadRect (View.read (Elt F) (tSl L).view (Tt d)))) $$ [Hr H1]
      case region =>
        intro k4 _
        unfold inv4
        iintro ⟨Hr, %f, H1, %hf⟩
        sl_exec
        sl_step
        isplitl [Hr]; · iexact Hr
        iexists _; isplitl [H1]; · iexact H1
        ipureintro
        exact label_trip1 fR f _ k4 hf
      · unfold inv4
        isplitl [Hr]; · iexact Hr
        iexists _; isplitl [H1]; · iexact H1
        ipureintro; intro y hy; exact absurd hy (by omega)
      iintro %_ HI
      unfold inv4
      icases HI with ⟨Hr, %l1, H1, %hl1⟩
      sl_exec
      ihave Hd0 := (Entails.of_eq (pts_o (F := F) d L g1 0 _)) $$ Hc0_dst
      ihave Hd1 := (Entails.of_eq (pts_o (F := F) d L g1 1 _)) $$ Hc1_dst
      have hD0 : ∀ i ∈ (oRow L k 0).view.set, (oRow L k 0).view.writes (Elt F) (O0 d) [⟨Rect.whole S40960, tile_body.sl.dma0_3 d L l0⟩] i = OutBuf (A d) (B d) (Tt d) i :=
        row_labels0 (A d) (B d) (Tt d) fR l0 L k hRall (fun y => hl0 y (by have h : (y 0).val < 40960 := (y 0).isLt; rw [h320c]; omega)) (O0 d)
      have hD1 : ∀ i ∈ (oRow L k 1).view.set, (oRow L k 1).view.writes (Elt F) (O0 d) [⟨Rect.whole S40960, tile_body.sl.dma0_4 d L l1⟩] i = OutBuf (A d) (B d) (Tt d) i :=
        row_labels1 (A d) (B d) (Tt d) fR l1 L k hRall (fun y => hl1 y (by have h : (y 0).val < 40960 := (y 0).isLt; rw [h320d]; omega)) (O0 d)
      ihave Hf0 := (Transfers.Flight_mono _ _ (sep_mono_left (Entails.of_eq (pointsTo_congr hD0)))) $$ Hc0
      ihave Hf1 := (Transfers.Flight_mono _ _ (sep_mono_left (Entails.of_eq (pointsTo_congr hD1)))) $$ Hc1
      sl_step
      isplitr; · iexact Hmw'
      isplitl [Hr]; · iexact Hr
      isplitl [HT]; · iexact HT
      isplitl [Hf0 H0]
      · iapply (Entails.of_eq (slot0_pos (F := F) d L _ (k.val + 1) (Nat.succ_ne_zero _)).symm)
        iexists k; isplitr; · ipureintro; rfl
        iexists l0; isplitl [Hf0]; · iexact Hf0
        iexact H0
      isplitl [Hf1 H1]
      · iapply (Entails.of_eq (slot1_pos (F := F) d L _ (k.val + 1) (Nat.succ_ne_zero _)).symm)
        iexists k; isplitr; · ipureintro; rfl
        iexists l1; isplitl [Hf1]; · iexact Hf1
        iexact H1
      isplitl [Hd0 Hd1 Hrest]
      · iapply (rowsAt_put (F := F) d L (O0 d) (OutBuf (A d) (B d) (Tt d)) k g1 hg1)
        isplitl [Hd0]; · iexact Hd0
        isplitl [Hd1]; · iexact Hd1
        iexact Hrest
      iexists _; isplitr
      · ipureintro; exact hWfin
      · iexact HO

  · unfold inv2
    isplitr; · iexact Hmw
    isplitl [Hr]; · iexact Hr
    isplitl [Hts']; · iexact Hts'
    isplitl [HsemS0 H0]
    · iapply (Entails.of_eq (slot0_zero (F := F) d L _ 0 rfl).symm)
      isplitl [HsemS0]; · iexact HsemS0
      iexists _; iexact H0
    isplitl [HsemS1 H1]
    · iapply (Entails.of_eq (slot1_zero (F := F) d L _ 0 rfl).symm)
      isplitl [HsemS1]; · iexact HsemS1
      iexists _; iexact H1
    isplitl [Hrows]; · iexact Hrows
    iexists _; isplitr
    · ipureintro; exact fun p hp => .inl hp
    · iexact HO
  iintro %_ HI
  unfold inv2
  icases HI with ⟨-, Hr, HT, Hs0, Hs1, Hrows, %W', %hW', HO⟩
  have h16 : Scf.trips k0_t2_loop.lb k0_t2_loop.ub k0_t2_loop.st = 16 := by decide
  ihave Hs0' := (Entails.of_eq (slot0_pos (F := F) d L _ _ (by rw [h16]; decide))) $$ Hs0
  ihave Hs1' := (Entails.of_eq (slot1_pos (F := F) d L _ _ (by rw [h16]; decide))) $$ Hs1
  icases Hs0' with ⟨%g1, %hg1, %p0, Hc0, H0⟩
  icases Hs1' with ⟨%g1', %hg1', %p1, Hc1, H1⟩
  have hgg : g1 = g1' := Fin.ext (by omega)
  subst hgg
  ihave Hrows16 := (Entails.of_eq (congrArg (rowsAt (F := F) d L (O0 d) (OutBuf (A d) (B d) (Tt d))) h16)) $$ Hrows
  sl_exec
  sl_step
  ihave Ha := (Entails.of_eq (pts_a (F := F) d L _ _)) $$ Ha'
  ihave Hb := (Entails.of_eq (pts_b (F := F) d L _ _)) $$ Hb'
  ihave Ht := (Entails.of_eq (pts_t (F := F) d L _)) $$ Ht'
  ihave Hd0 := (Entails.of_eq (pts_o (F := F) d L g1 0 _)) $$ Hc0_dst
  ihave Hd1 := (Entails.of_eq (pts_o (F := F) d L g1 1 _)) $$ Hc1_dst
  isplitl [Ha Hb Ht Hd0 Hd1 Hrows16]
  · isplitl [Ha]; · iexact Ha
    isplitl [Hb]; · iexact Hb
    isplitl [Ht]; · iexact Ht
    iapply (rowsAt_last (F := F) d L (O0 d) (OutBuf (A d) (B d) (Tt d)) g1 (by omega))
    isplitl [Hd0]; · iexact Hd0
    isplitl [Hd1]; · iexact Hd1
    iexact Hrows16
  isplitl [Hr HT H0 H1 Hbufs]
  · isplitl [Hr]; · iexists _; iexact Hr
    isplitl [H0]; · iexists _; iexact H0
    isplitl [H1]; · iexists _; iexact H1
    isplitl [HT]; · iexists _; iexact HT
    iexact Hbufs
  isplitl [Hc0 Hc1 HsemR0 HsemR1 HsemR2 Hsems]
  · isplitl [Hc0]; · iexact Hc0
    isplitl [Hc1]; · iexact Hc1
    isplitl [HsemR0]; · iexact HsemR0
    isplitl [HsemR1]; · iexact HsemR1
    isplitl [HsemR2]; · iexact HsemR2
    iexact Hsems
  iexists _; isplitr
  · ipureintro; exact fun p hp => ((waits_insert (SemLoc.dma cc0_scratch5.sem) (waits_insert (SemLoc.dma cc0_scratch4.sem) hW')) p hp).elim (hbase p) .inr
  · iexact HO

end Tile
end Cert.Proof.KI
end
-- ==== Proof.BTileSpec.lean ====
/-
  What one vector subcore's task of the labelling kernel is handed and what it hands back.

  The kernel computes, for every pixel row `r` of the 1024 and every column `k` of the 40960,
  the label `1` if `a k / b k ≥ t (16 r + lane)` and `0` otherwise, where `a` is the depth map with each
  entry repeated forty times, `b` the forty quantiser levels tiled 1024 times and `t` the depth map with each
  entry repeated sixteen times (one vector of equal lanes per row). The 32 vector subcores (2 SparseCores
  of 16) share the rows: subcore `w = 16 c + s` writes rows `32 w … 32 w + 31`, reading `a` and `b` whole and
  the 512 entries of `t` that belong to its rows.

  This module fixes the vocabulary: the arrays' locations, the memrefs as the body table passes them, the
  sets of elements a task owns, the whole-array function `OutBuf` the result holds at the end, the assertions
  `tileIn` / `tileOut`, and the program and ghost state as the launch theorem sees them.
-/
import proofs.«210286_g62405874811728_cont_9to1_m_386_18_alg».proof.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.Kernel
import proofs.«210286_g62405874811728_cont_9to1_m_386_18_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the memrefs -/

abbrev aLoc (d : Dev nD) : Loc nD τ sig := (SparseCore.T d).loc main_v2
abbrev bLoc (d : Dev nD) : Loc nD τ sig := (SparseCore.T d).loc main_v5
abbrev tLoc (d : Dev nD) : Loc nD τ sig := (SparseCore.T d).loc main_v7
abbrev oLoc (d : Dev nD) : Loc nD τ sig := (SparseCore.T d).loc main_v8

abbrev aW : Memref sig .scVector .hbm S40960 .f32 := Memref.whole main_v2_scv
abbrev bW : Memref sig .scVector .hbm S40960 .f32 := Memref.whole main_v5_scv
abbrev tW : Memref sig .scVector .hbm S16384 .f32 := Memref.whole main_v7_scv
abbrev oW : Memref sig .scVector .hbm S1024x40960 .f32 := Memref.whole main_v8_scv
abbrev sR : Memref sig .scVector .vmem S40960 .f32 := Memref.whole cc0_scratch0
abbrev s0 : Memref sig .scVector .vmem S40960 .f32 := Memref.whole cc0_scratch1
abbrev s1 : Memref sig .scVector .vmem S40960 .f32 := Memref.whole cc0_scratch2
abbrev sT : Memref sig .scVector .vmem S512 .f32 := Memref.whole cc0_scratch3

abbrev cV (L : grid0.Coords) : Fin τ.nSC := (L 0).castLE hcore0
abbrev jV (L : grid0.Coords) : Fin τ.nSub := (L 1).castLE hsub0

/-- The 512 thresholds of a task's 32 rows, as the kernel slices them. -/
abbrev tSl (L : grid0.Coords) : Memref sig .scVector .hbm S512 .f32 :=
  (tW).slice (Rect.unit (s := S16384) (k0_off1 L) S512.size (k0_off1_inb L)) (fun _ => rfl)

/-- Row `2 g + r` of a task's 32 rows of the result, as the kernel slices it. -/
abbrev oRow (L : grid0.Coords) (g : Fin k0_t2_loop.trips) (r : Fin 2) : Memref sig .scVector .hbm S40960 .f32 :=
  ((oW).slice (Rect.unit (s := S1024x40960) (k0_off6 L g (BitVec.ofNat 32 r.val)) S1x40960.size (k0_off6_inb L g r)) (fun _ => rfl)).squeeze S40960 squeezes_S1x40960_S40960

/-- The task's number among the 32: `16 c + s`. -/
def wid (L : grid0.Coords) : Fin 32 :=
  ⟨16 * (L 0).val + (L 1).val, by
    have h0 : (L 0).val < 2 := (L 0).isLt
    have h1 : (L 1).val < 16 := (L 1).isLt
    omega⟩

/-! ## The value -/

section Value

variable [FloatOps F]

/-- Sixteen consecutive entries of a flat array, from entry `16 n`. -/
def lanes {N : Nat} (X : (⟨1, ![N]⟩ : Shape).Idx → Elt F .f32) (n : Nat) (hn : 16 * n + 16 ≤ N) : Vec F S16 .f32 :=
  fun l => X (ix1 ⟨16 * n + (l 0).val, by have h : (l 0).val < 16 := (l 0).isLt; omega⟩)

/-- The result array the kernel leaves: at row `r`, column `k`, the label of `a k / b k` against the threshold
    lane `16 r + k % 16`, computed by the kernel's own vector operations on the sixteen-lane chunk `k / 16`. -/
def OutBuf (A B : S40960.Idx → Elt F .f32) (Tt : S16384.Idx → Elt F .f32) : S1024x40960.Idx → Elt F .f32 := fun idx =>
  have hr : (idx 0).val < 1024 := (idx 0).isLt
  have hk : (idx 1).val < 40960 := (idx 1).isLt
  k0_pay10 (k0_pay22 (lanes Tt (idx 0).val (by omega)))
    (k0_pay3 (lanes A ((idx 1).val / 16) (by omega)) (lanes B ((idx 1).val / 16) (by omega)))
    (ix1 ⟨(idx 1).val % 16, Nat.mod_lt _ (by decide)⟩)

end Value

/-! ## What a task is handed and hands back -/

variable (A : (d : Dev nD) → Buf (Elt F) (aLoc d)) (B : (d : Dev nD) → Buf (Elt F) (bLoc d))
  (Tt : (d : Dev nD) → Buf (Elt F) (tLoc d)) (O0 : (d : Dev nD) → Buf (Elt F) (oLoc d))

/-- A task's share of the inputs and its rows of the result at the contents `Oc`. -/
def tileRes (Oc : (d : Dev nD) → Buf (Elt F) (oLoc d)) (d : Dev nD) (L : grid0.Coords) : sProp 𝕄 :=
  iprop((aLoc d ↦{Transfers.shareTok fullShare 32 (wid L)} A d) ∗ (bLoc d ↦{Transfers.shareTok fullShare 32 (wid L)} B d)
    ∗ (tLoc d ↦[(tSl L).view.set]{fullShare} Tt d)
    ∗ bigSep Finset.univ fun g : Fin k0_t2_loop.trips => bigSep Finset.univ fun r : Fin 2 =>
        oLoc d ↦[(oRow L g r).view.set]{fullShare} Oc d)

/-- Handed to the task: its rows at the launch contents. -/
abbrev tileIn (d : Dev nD) (L : grid0.Coords) : sProp 𝕄 := tileRes A B Tt O0 d L

/-- Handed back: its rows at the labels. -/
abbrev tileOut [FloatOps F] (d : Dev nD) (L : grid0.Coords) : sProp 𝕄 :=
  tileRes A B Tt (fun d => OutBuf (A d) (B d) (Tt d)) d L

/-- One task, run from what it is handed to what it hands back (the obligation the launch theorem asks of every
    vector subcore, at a symbolic subcore). -/
def TileBodyStmt [FloatOps F] : Prop :=
  ∀ (_hF : (K (F := F)).Facts) (d : Dev nD) (L : grid0.Coords) (O : CellTallies nD τ sig (HIx 1)) (W : Waits sig (HIx 1)), (∀ g, O g none = 0) →
    iprop(levAts (K (F := F)).L (K (F := F)).lev ∗ emp ∗ tileIn A B Tt O0 d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L aW (Memref.isWhole_whole _) bW (Memref.isWhole_whole _) tW (Memref.isWhole_whole _) oW (Memref.isWhole_whole _)
            sR (Memref.isWhole_whole _) s0 (Memref.isWhole_whole _) s1 (Memref.isWhole_whole _) sT (Memref.isWhole_whole _)
            cc0_scratch4 cc0_scratch5 cc0_scoped0 cc0_scoped1 cc0_scoped2)
          fun _ => iprop(tileOut A B Tt d L ∗ scopedBufs (V d (cV L) (jV L)) ∗ scopedSems0 (V d (cV L) (jV L))
            ∗ ∃ W', ⌜∀ p ∈ W', p ∈ W ∨ p.2 = none⌝ ∗ owes (V d (cV L) (jV L)) O W')

/-- Coordinates (SparseCore, subcore) as the body table builds them. -/
def coordsV (c : Fin (grid0.bound 0)) (s : Fin (grid0.bound 1)) : grid0.Coords :=
  fun | 0 => c | 1 => s | ⟨_ + 2, h⟩ => absurd h (Nat.not_lt.2 (Nat.le_add_left _ _))

/-- The four arrays held whole are the same as: what remains of `a` and `b` after 32 read tokens are split off,
    and every task's part — its tokens of `a` and `b`, its 512 entries of `t`, its 32 rows of the result —, whatever the
    result holds (`Oc`). Used one way before the call (at the launch contents) and the other way after it (at the labels). -/
def SplitStmt (Oc : (d : Dev nD) → Buf (Elt F) (oLoc d)) : Prop :=
  ∀ d : Dev nD,
    (iprop((aLoc d ↦{fullShare} A d) ∗ (bLoc d ↦{fullShare} B d) ∗ (tLoc d ↦{fullShare} Tt d) ∗ (oLoc d ↦{fullShare} Oc d)) : sProp 𝕄)
      ⊣⊢ iprop((aLoc d ↦{Transfers.shareDrop fullShare 32} A d) ∗ (bLoc d ↦{Transfers.shareDrop fullShare 32} B d)
        ∗ bigSep Finset.univ fun c : Fin (grid0.bound 0) => bigSep Finset.univ fun s : Fin (grid0.bound 1) =>
            tileRes A B Tt Oc d (coordsV c s))

/-! ## The whole program's result as a function of its two arguments -/

section Whole

variable [FloatOps F]

/-- The depth map flattened, each entry repeated forty times: @main's operand `a` of the kernel. -/
def hostA (x : FVec F S1x1x32x32 .f32) : FVec F S40960 .f32 :=
  shapeCast S40960 (broadcastInDim S1024x40 ![0] bcast_S1024_S1024x40_0 (shapeCast S1024 x shapeCasts_S1x1x32x32_S1024)) shapeCasts_S1024x40_S40960
/-- The forty levels tiled 1024 times: @main's operand `b`. -/
def hostB (q : FVec F S40 .f32) : FVec F S40960 .f32 :=
  shapeCast S40960 (broadcastInDim S1024x40 ![0, 1] bcast_S1x40_S1024x40_0_1 (shapeCast S1x40 q shapeCasts_S40_S1x40)) shapeCasts_S1024x40_S40960
/-- The depth map flattened, each entry repeated sixteen times: @main's operand `t`. -/
def hostT (x : FVec F S1x1x32x32 .f32) : FVec F S16384 .f32 :=
  shapeCast S16384 (broadcastInDim S1024x16 ![0] bcast_S1024_S1024x16_0 (shapeCast S1024 x shapeCasts_S1x1x32x32_S1024)) shapeCasts_S1024x16_S16384
/-- @main's result: the kernel's array of labels reshaped to [32, 32, 40960]. -/
def kernelVal (x : FVec F S1x1x32x32 .f32) (q : FVec F S40 .f32) : FVec F S32x32x40960 .f32 :=
  shapeCast S32x32x40960 (OutBuf (hostA x) (hostB q) (hostT x)) shapeCasts_S1024x40960_S32x32x40960

end Whole

end Cert.Proof.KB

end
-- ==== Proof.BTileScoped.lean ====
/-
  One vector subcore's task of the labelling kernel, run symbolically.
-/
import proofs.«210286_g62405874811728_cont_9to1_m_386_18_alg».proof.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.Kernel
import proofs.«210286_g62405874811728_cont_9to1_m_386_18_alg».proof.Proof.Gen.Kernel.Skeleton
import proofs.«210286_g62405874811728_cont_9to1_m_386_18_alg».proof.Proof.BTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Tile

variable (d : Dev nD) (L : grid0.Coords)

/-! ## The subcore's semaphores and scratch -/

abbrev cS0 (d : Dev nD) (c : Fin τ.nSC) (i : Fin τ.nSub) : GSem nD τ sig := (V d c i, .dma cc0_scratch4.sem)
abbrev cS1 (d : Dev nD) (c : Fin τ.nSC) (i : Fin τ.nSub) : GSem nD τ sig := (V d c i, .dma cc0_scratch5.sem)
abbrev cR0 (d : Dev nD) (c : Fin τ.nSC) (i : Fin τ.nSub) : GSem nD τ sig := (V d c i, .dma cc0_scoped0.sem)
abbrev cR1 (d : Dev nD) (c : Fin τ.nSC) (i : Fin τ.nSub) : GSem nD τ sig := (V d c i, .dma cc0_scoped1.sem)
abbrev cR2 (d : Dev nD) (c : Fin τ.nSC) (i : Fin τ.nSub) : GSem nD τ sig := (V d c i, .dma cc0_scoped2.sem)

theorem ownSems0_V :
    (ownSems0 (V d (cV L) (jV L)) : sProp 𝕄)
      = iprop(semVal (cS0 d (cV L) (jV L)) 0 ∗ semVal (cS1 d (cV L) (jV L)) 0 ∗ semVal (cR0 d (cV L) (jV L)) 0
          ∗ semVal (cR1 d (cV L) (jV L)) 0 ∗ semVal (cR2 d (cV L) (jV L)) 0
          ∗ bigSep (((((( ownCells (V d (cV L) (jV L))).erase (cS0 d (cV L) (jV L))).erase (cS1 d (cV L) (jV L))).erase (cR0 d (cV L) (jV L))).erase
              (cR1 d (cV L) (jV L))).erase (cR2 d (cV L) (jV L)))
              fun g => semVal g 0) := by
  unfold SparseCore.Cfg.ownSems0
  rw [SparseCore.bigSep_erase' ((mem_ownCells (g := cS0 d (cV L) (jV L))).mpr ⟨rfl, by
      show (SemLoc.dma cc0_scratch4.sem : SemLoc sig).isScoped .scVector = true; decide⟩),
    SparseCore.bigSep_erase' (Finset.mem_erase.mpr ⟨by simp [cS0, cS1]; decide, (mem_ownCells (g := cS1 d (cV L) (jV L))).mpr ⟨rfl, by
      show (SemLoc.dma cc0_scratch5.sem : SemLoc sig).isScoped .scVector = true; decide⟩⟩),
    SparseCore.bigSep_erase' (Finset.mem_erase.mpr ⟨by simp [cS1, cR0]; decide, Finset.mem_erase.mpr ⟨by simp [cS0, cR0]; decide,
      (mem_ownCells (g := cR0 d (cV L) (jV L))).mpr ⟨rfl, by show (SemLoc.dma cc0_scoped0.sem : SemLoc sig).isScoped .scVector = true; decide⟩⟩⟩),
    SparseCore.bigSep_erase' (Finset.mem_erase.mpr ⟨by simp [cR0, cR1]; decide, Finset.mem_erase.mpr ⟨by simp [cS1, cR1]; decide, Finset.mem_erase.mpr ⟨by simp [cS0, cR1]; decide,
      (mem_ownCells (g := cR1 d (cV L) (jV L))).mpr ⟨rfl, by show (SemLoc.dma cc0_scoped1.sem : SemLoc sig).isScoped .scVector = true; decide⟩⟩⟩⟩),
    SparseCore.bigSep_erase' (Finset.mem_erase.mpr ⟨by simp [cR1, cR2]; decide, Finset.mem_erase.mpr ⟨by simp [cR0, cR2]; decide, Finset.mem_erase.mpr ⟨by simp [cS1, cR2]; decide, Finset.mem_erase.mpr ⟨by simp [cS0, cR2]; decide,
      (mem_ownCells (g := cR2 d (cV L) (jV L))).mpr ⟨rfl, by show (SemLoc.dma cc0_scoped2.sem : SemLoc sig).isScoped .scVector = true; decide⟩⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Tile

end Cert.Proof.KB

end
-- ==== Proof.BTileVals.lean ====
/-
  The values one task's loops store, entry by entry: the ratios of the two inputs, and the labels of a row.
-/
import proofs.«210286_g62405874811728_cont_9to1_m_386_18_alg».proof.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.Kernel
import proofs.«210286_g62405874811728_cont_9to1_m_386_18_alg».proof.Proof.Gen.Kernel.Skeleton
import proofs.«210286_g62405874811728_cont_9to1_m_386_18_alg».proof.Proof.BTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

section Vals

variable [FloatOps F]

/-- The ratio the kernel stores at entry `y`: the quotient of the sixteen-lane chunks of the two inputs that hold it. -/
def ratioAt (fA fB : S40960.Idx → Elt F .f32) (y : S40960.Idx) : Elt F .f32 :=
  have hk : (y 0).val < 40960 := (y 0).isLt
  k0_pay3 (lanes fA ((y 0).val / 16) (by omega)) (lanes fB ((y 0).val / 16) (by omega)) (ix1 ⟨(y 0).val % 16, Nat.mod_lt _ (by decide)⟩)

/-- The label the kernel stores at entry `y` of a row whose threshold vector is `tv`: the compare-and-select of the
    sixteen-lane chunk of the ratios that holds `y` against `tv`. -/
def labelAt (fR : S40960.Idx → Elt F .f32) (tv : Vec F S16 .f32) (y : S40960.Idx) : Elt F .f32 :=
  have hk : (y 0).val < 40960 := (y 0).isLt
  k0_pay10 (k0_pay22 tv) (lanes fR ((y 0).val / 16) (by omega)) (ix1 ⟨(y 0).val % 16, Nat.mod_lt _ (by decide)⟩)

end Vals

end Cert.Proof.KB

end
-- ==== Proof.BTileRows.lean ====
/-
  One task's 32 rows of the result across the 16 trips of its outer loop.

  Trip `g` computes rows `(g, 0)` and `(g, 1)` and starts their transfers; the transfers of rows `(g - 1, ·)` are waited
  for in trip `g`, and the last two after the loop. So before trip `g` the rows `(g', ·)` with `g' + 1 < g` hold the
  labels, the rows `(g - 1, ·)` are away in flight, and the rows `(g', ·)` with `g ≤ g'` still hold the launch contents.
  This module states that bookkeeping as one assertion per stage and proves the steps between the stages: all of it
  is rearrangement of an iterated separating conjunction.
-/
import proofs.«210286_g62405874811728_cont_9to1_m_386_18_alg».proof.Proof.BTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-- Row `(g', r)` of a task's rows before trip `g`: at the labels if its transfer has been waited for, absent while
    the transfer is in flight, at the launch contents if its trip is still to come. -/
def rowSt (d : Dev nD) (L : grid0.Coords) (Oc0 Out : Buf (Elt F) (oLoc d)) (g : Nat) (g' : Fin k0_t2_loop.trips) (r : Fin 2) : sProp 𝕄 :=
  if g'.val + 1 < g then (oLoc d ↦[(oRow L g' r).view.set]{fullShare} Out)
  else if g'.val + 1 = g then iprop(emp) else (oLoc d ↦[(oRow L g' r).view.set]{fullShare} Oc0)

/-- All 32 rows before trip `g`. -/
def rowsAt (d : Dev nD) (L : grid0.Coords) (Oc0 Out : Buf (Elt F) (oLoc d)) (g : Nat) : sProp 𝕄 :=
  bigSep Finset.univ fun g' : Fin k0_t2_loop.trips => bigSep Finset.univ fun r : Fin 2 => rowSt d L Oc0 Out g g' r

/-- The rows before trip `g` without trip `g`'s own two. -/
def rowsRest (d : Dev nD) (L : grid0.Coords) (Oc0 Out : Buf (Elt F) (oLoc d)) (g : Fin k0_t2_loop.trips) : sProp 𝕄 :=
  bigSep (Finset.univ.erase g) fun g' : Fin k0_t2_loop.trips => bigSep Finset.univ fun r : Fin 2 => rowSt d L Oc0 Out g.val g' r

variable (d : Dev nD) (L : grid0.Coords) (Oc0 Out : Buf (Elt F) (oLoc d))

theorem trips_eq : k0_t2_loop.trips = 16 := by decide

/-- A row whose trip is still to come holds the launch contents. -/
theorem rowSt_todo (g : Nat) (g' : Fin k0_t2_loop.trips) (r : Fin 2) (h : g ≤ g'.val) :
    rowSt d L Oc0 Out g g' r = (oLoc d ↦[(oRow L g' r).view.set]{fullShare} Oc0) := by
  unfold rowSt; rw [if_neg (by omega), if_neg (by omega)]

/-- A row whose transfer is in flight is absent. -/
theorem rowSt_away (g : Nat) (g' : Fin k0_t2_loop.trips) (r : Fin 2) (h : g'.val + 1 = g) :
    rowSt d L Oc0 Out g g' r = iprop(emp) := by
  unfold rowSt; rw [if_neg (by omega), if_pos h]

/-- A row whose transfer has been waited for holds the labels. -/
theorem rowSt_done (g : Nat) (g' : Fin k0_t2_loop.trips) (r : Fin 2) (h : g'.val + 1 < g) :
    rowSt d L Oc0 Out g g' r = (oLoc d ↦[(oRow L g' r).view.set]{fullShare} Out) := by
  unfold rowSt; rw [if_pos h]

/-- Before the first trip every row holds the launch contents. -/
theorem rowsAt_zero :
    (bigSep Finset.univ fun g' : Fin k0_t2_loop.trips => bigSep Finset.univ fun r : Fin 2 => oLoc d ↦[(oRow L g' r).view.set]{fullShare} Oc0)
      ⊢ rowsAt d L Oc0 Out 0 := by
  refine .of_eq ?_
  unfold rowsAt
  exact bigSep_congr fun g' _ => bigSep_congr fun r _ => (rowSt_todo d L Oc0 Out 0 g' r (Nat.zero_le _)).symm

/-- The rows of any stage, split at one trip. -/
theorem rowsAt_split (n : Nat) (g : Fin k0_t2_loop.trips) :
    rowsAt d L Oc0 Out n
      = iprop((rowSt d L Oc0 Out n g 0 ∗ rowSt d L Oc0 Out n g 1)
          ∗ bigSep (Finset.univ.erase g) fun g' : Fin k0_t2_loop.trips => bigSep Finset.univ fun r : Fin 2 => rowSt d L Oc0 Out n g' r) := by
  unfold rowsAt
  rw [SparseCore.bigSep_erase' (Finset.mem_univ g), bigSep_univ_two]

/-- Trip `g` takes its own two rows, still at the launch contents. -/
theorem rowsAt_take (g : Fin k0_t2_loop.trips) :
    rowsAt d L Oc0 Out g.val
      ⊢ iprop((oLoc d ↦[(oRow L g 0).view.set]{fullShare} Oc0) ∗ (oLoc d ↦[(oRow L g 1).view.set]{fullShare} Oc0) ∗ rowsRest d L Oc0 Out g) := by
  rw [rowsAt_split d L Oc0 Out g.val g, rowSt_todo d L Oc0 Out g.val g 0 (Nat.le_refl _), rowSt_todo d L Oc0 Out g.val g 1 (Nat.le_refl _)]
  unfold rowsRest
  iintro ⟨⟨A, B⟩, R⟩
  iframe

/-- `emp` is a unit of the separating conjunction. -/
theorem emp_emp_sep (P : sProp 𝕄) : iprop((emp ∗ emp) ∗ P) = P := by
  have h (Q : sProp 𝕄) : iprop(emp ∗ Q) = Q := _root_.Idealize.SL.BI.equiv_iff.mp _root_.Idealize.SL.BI.emp_sep
  rw [h, h]

/-- A trip other than `g` and the one before it is in the same state before trip `g` and before trip `g + 1`. -/
theorem rowSt_succ (g g' : Fin k0_t2_loop.trips) (r : Fin 2) (h1 : g'.val ≠ g.val) (h2 : g'.val + 1 ≠ g.val) :
    rowSt d L Oc0 Out (g.val + 1) g' r = rowSt d L Oc0 Out g.val g' r := by
  by_cases h : g'.val + 1 < g.val
  · rw [rowSt_done d L Oc0 Out (g.val + 1) g' r (by omega), rowSt_done d L Oc0 Out g.val g' r h]
  · rw [rowSt_todo d L Oc0 Out (g.val + 1) g' r (by omega), rowSt_todo d L Oc0 Out g.val g' r (by omega)]

/-- After the first trip, whose rows are now in flight, nothing else has changed. -/
theorem rowsAt_put_zero (g : Fin k0_t2_loop.trips) (hg : g.val = 0) :
    rowsRest d L Oc0 Out g ⊢ rowsAt d L Oc0 Out (g.val + 1) := by
  refine .of_eq ?_
  rw [rowsAt_split d L Oc0 Out (g.val + 1) g, rowSt_away d L Oc0 Out (g.val + 1) g 0 rfl,
    rowSt_away d L Oc0 Out (g.val + 1) g 1 rfl, emp_emp_sep]
  unfold rowsRest
  refine bigSep_congr fun g' hg' => bigSep_congr fun r _ => ?_
  have hne : g'.val ≠ g.val := fun h => (Finset.mem_erase.mp hg').1 (Fin.ext h)
  exact (rowSt_succ d L Oc0 Out g g' r hne (by omega)).symm

/-- After a later trip: its rows are in flight, and the rows of the trip before it, waited for during the trip, are
    back at the labels. -/
theorem rowsAt_put (g g1 : Fin k0_t2_loop.trips) (hg : g1.val + 1 = g.val) :
    iprop((oLoc d ↦[(oRow L g1 0).view.set]{fullShare} Out) ∗ (oLoc d ↦[(oRow L g1 1).view.set]{fullShare} Out) ∗ rowsRest d L Oc0 Out g)
      ⊢ rowsAt d L Oc0 Out (g.val + 1) := by
  have hmem : g1 ∈ (Finset.univ : Finset (Fin k0_t2_loop.trips)).erase g :=
    Finset.mem_erase.mpr ⟨fun h => by rw [h] at hg; omega, Finset.mem_univ _⟩
  have e : (bigSep (((Finset.univ : Finset (Fin k0_t2_loop.trips)).erase g).erase g1) fun g' : Fin k0_t2_loop.trips =>
        bigSep Finset.univ fun r : Fin 2 => rowSt d L Oc0 Out (g.val + 1) g' r)
      = bigSep (((Finset.univ : Finset (Fin k0_t2_loop.trips)).erase g).erase g1) fun g' : Fin k0_t2_loop.trips =>
        bigSep Finset.univ fun r : Fin 2 => rowSt d L Oc0 Out g.val g' r :=
    bigSep_congr fun g' hg' => bigSep_congr fun r _ => by
      have hne1 : g'.val ≠ g1.val := fun h => (Finset.mem_erase.mp hg').1 (Fin.ext h)
      have hne : g'.val ≠ g.val := fun h => (Finset.mem_erase.mp (Finset.mem_erase.mp hg').2).1 (Fin.ext h)
      exact rowSt_succ d L Oc0 Out g g' r hne (by omega)
  rw [rowsAt_split d L Oc0 Out (g.val + 1) g, rowSt_away d L Oc0 Out (g.val + 1) g 0 rfl,
    rowSt_away d L Oc0 Out (g.val + 1) g 1 rfl, emp_emp_sep,
    SparseCore.bigSep_erase' hmem (Φ := fun g' : Fin k0_t2_loop.trips => bigSep Finset.univ fun r : Fin 2 => rowSt d L Oc0 Out (g.val + 1) g' r),
    bigSep_univ_two, rowSt_done d L Oc0 Out (g.val + 1) g1 0 (by omega), rowSt_done d L Oc0 Out (g.val + 1) g1 1 (by omega), e]
  unfold rowsRest
  rw [SparseCore.bigSep_erase' hmem (Φ := fun g' : Fin k0_t2_loop.trips => bigSep Finset.univ fun r : Fin 2 => rowSt d L Oc0 Out g.val g' r),
    bigSep_univ_two, rowSt_away d L Oc0 Out g.val g1 0 hg, rowSt_away d L Oc0 Out g.val g1 1 hg, emp_emp_sep]
  iintro ⟨A, B, R⟩
  iframe

/-- After the loop the last trip's rows come back, and every row holds the labels. -/
theorem rowsAt_last (g1 : Fin k0_t2_loop.trips) (h : g1.val + 1 = 16) :
    iprop((oLoc d ↦[(oRow L g1 0).view.set]{fullShare} Out) ∗ (oLoc d ↦[(oRow L g1 1).view.set]{fullShare} Out) ∗ rowsAt d L Oc0 Out 16)
      ⊢ bigSep Finset.univ fun g' : Fin k0_t2_loop.trips => bigSep Finset.univ fun r : Fin 2 => oLoc d ↦[(oRow L g' r).view.set]{fullShare} Out := by
  have e : (bigSep ((Finset.univ : Finset (Fin k0_t2_loop.trips)).erase g1) fun g' : Fin k0_t2_loop.trips =>
        bigSep Finset.univ fun r : Fin 2 => rowSt d L Oc0 Out 16 g' r)
      = bigSep ((Finset.univ : Finset (Fin k0_t2_loop.trips)).erase g1) fun g' : Fin k0_t2_loop.trips =>
        bigSep Finset.univ fun r : Fin 2 => oLoc d ↦[(oRow L g' r).view.set]{fullShare} Out :=
    bigSep_congr fun g' hg' => bigSep_congr fun r _ => by
      have hne1 : g'.val ≠ g1.val := fun h => (Finset.mem_erase.mp hg').1 (Fin.ext h)
      have h16 : g'.val < 16 := trips_eq ▸ g'.isLt
      exact rowSt_done d L Oc0 Out 16 g' r (by omega)
  rw [rowsAt_split d L Oc0 Out 16 g1, rowSt_away d L Oc0 Out 16 g1 0 h, rowSt_away d L Oc0 Out 16 g1 1 h, emp_emp_sep, e,
    SparseCore.bigSep_erase' (Finset.mem_univ g1) (Φ := fun g' : Fin k0_t2_loop.trips => bigSep Finset.univ fun r : Fin 2 => oLoc d ↦[(oRow L g' r).view.set]{fullShare} Out),
    bigSep_univ_two]
  iintro ⟨A, B, R⟩
  iframe

end Cert.Proof.KB

end
-- ==== Proof.BTilePure.lean ====
/-
  What one task's loops store, as pure facts about indices and values (no program is run here).

  A 40960-entry buffer is filled sixteen entries at a time: trip `k` of a loop makes eight stores, at entries
  `128 k + 16 r`, `r < 8`, so after trip `k` the entries below `128 (k + 1)` are settled. An entry `y` is lane `y % 16` of chunk
  `y / 16`; a store of sixteen entries from entry `16 n` puts its lane `x` at entry `16 n + x`, so the stored vector of chunk `n`
  is, entry by entry, the function "the value at `y`" (`ratioAt`, `labelAt`). The eight quotient payloads of a trip are one
  function of the two loaded chunks, and the eight label payloads one function of the threshold vector and the loaded chunk.

  A buffer of labels delivered whole into row `512 c + 32 s + 2 g + r` of the [1024, 40960] result lands entry `y` at
  column `y` of that row (the row is a 1 × 40960 slice read as 40960 entries in row-major order). The thresholds of that
  row are the sixteen entries of `t` from entry `16 (512 c + 32 s + 2 g + r)`: the task's 512 thresholds start at entry
  `8192 c + 512 s`, and the row's sixteen at entry `32 g + 16 r` of those.
-/
import proofs.«210286_g62405874811728_cont_9to1_m_386_18_alg».proof.Proof.BTileSpec
import proofs.«210286_g62405874811728_cont_9to1_m_386_18_alg».proof.Proof.BTileVals
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

variable [FloatOps F]

/-! ## Sixteen lanes of a flat array -/

/-- The lanes from entry `16 n` depend on `n` only. -/
theorem lanes_congr {N : Nat} (X : (⟨1, ![N]⟩ : Shape).Idx → Elt F .f32) {n m : Nat} (h : n = m) (hn : 16 * n + 16 ≤ N) :
    lanes X n hn = lanes X m (h ▸ hn) := by subst h; rfl

/-- Where a sixteen-entry interval from entry `16 n` puts its lane `x`: entry `16 n + x`. -/
theorem unit16_emb_val {N : Nat} (off : Fin (⟨1, ![N]⟩ : Shape).rank → Nat) (inb : ∀ a, off a + S16.size a ≤ (⟨1, ![N]⟩ : Shape).size a) (n : Nat)
    (hoff : off = ![16 * n]) (x : (Rect.unit (s := (⟨1, ![N]⟩ : Shape)) off S16.size inb).shape.Idx) :
    (((Rect.unit (s := (⟨1, ![N]⟩ : Shape)) off S16.size inb).emb x) 0).val = 16 * n + (x 0).val := by
  subst hoff
  show 16 * n + 1 * (x 0).val = _
  omega

/-- A load of sixteen entries from entry `16 n` through a view that reads its buffer as `g` is the lanes of `g` there. -/
theorem lanes_readAt_of_read {N : Nat} {κ : Kind} {sp : Space} (v : View sig κ sp (⟨1, ![N]⟩ : Shape) .f32) (f : v.ty.Contents (Elt F))
    (g : (⟨1, ![N]⟩ : Shape).Idx → Elt F .f32) (hread : ∀ y, v.read (Elt F) f y = g y)
    (off : Fin (⟨1, ![N]⟩ : Shape).rank → Nat) (inb : ∀ a, off a + S16.size a ≤ (⟨1, ![N]⟩ : Shape).size a)
    (n : Nat) (hn : 16 * n + 16 ≤ N) (hoff : off = ![16 * n]) :
    v.readAt (Elt F) (Rect.unit (s := (⟨1, ![N]⟩ : Shape)) off S16.size inb).toLoadRect f = lanes g n hn := by
  funext x
  rw [View.readAt_apply, hread]
  show g _ = g _
  congr 1
  funext a
  match a with
  | ⟨0, _⟩ =>
    apply Fin.ext
    exact unit16_emb_val off inb n hoff x

theorem lanes_readAt_sR (f : S40960.Idx → Elt F .f32) (off : Fin S40960.rank → Nat) (inb : ∀ a, off a + S16.size a ≤ S40960.size a)
    (n : Nat) (hn : 16 * n + 16 ≤ 40960) (hoff : off = ![16 * n]) :
    sR.view.readAt (Elt F) (Rect.unit (s := S40960) off S16.size inb).toLoadRect f = lanes f n hn :=
  lanes_readAt_of_read sR.view f f (fun _ => rfl) off inb n hn hoff
theorem lanes_readAt_s0 (f : S40960.Idx → Elt F .f32) (off : Fin S40960.rank → Nat) (inb : ∀ a, off a + S16.size a ≤ S40960.size a)
    (n : Nat) (hn : 16 * n + 16 ≤ 40960) (hoff : off = ![16 * n]) :
    s0.view.readAt (Elt F) (Rect.unit (s := S40960) off S16.size inb).toLoadRect f = lanes f n hn :=
  lanes_readAt_of_read s0.view f f (fun _ => rfl) off inb n hn hoff
theorem lanes_readAt_s1 (f : S40960.Idx → Elt F .f32) (off : Fin S40960.rank → Nat) (inb : ∀ a, off a + S16.size a ≤ S40960.size a)
    (n : Nat) (hn : 16 * n + 16 ≤ 40960) (hoff : off = ![16 * n]) :
    s1.view.readAt (Elt F) (Rect.unit (s := S40960) off S16.size inb).toLoadRect f = lanes f n hn :=
  lanes_readAt_of_read s1.view f f (fun _ => rfl) off inb n hn hoff
theorem lanes_readAt_sT (f : S512.Idx → Elt F .f32) (off : Fin S512.rank → Nat) (inb : ∀ a, off a + S16.size a ≤ S512.size a)
    (n : Nat) (hn : 16 * n + 16 ≤ 512) (hoff : off = ![16 * n]) :
    sT.view.readAt (Elt F) (Rect.unit (s := S512) off S16.size inb).toLoadRect f = lanes f n hn :=
  lanes_readAt_of_read sT.view f f (fun _ => rfl) off inb n hn hoff
/-! ## One trip's stores extend the filled prefix by 128 entries -/

/-- If the buffer agrees with `G` below entry `128 k`, every piece stores `G`, and the pieces cover entries `128 k … 128 k + 127`,
    then after the stores the buffer agrees with `G` below entry `128 (k + 1)`. -/
theorem read_writes_step {κ : Kind} {sp : Space} (v : View sig κ sp S40960 .f32) (G : S40960.Idx → Elt F .f32) (k : Nat) (f : v.ty.Contents (Elt F))
    (L : List (View.Piece (Elt F) S40960 .f32))
    (hf : ∀ y : S40960.Idx, (y 0).val < 128 * k → v.read (Elt F) f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → v.read (Elt F) (v.writes (Elt F) f L) y = G y := by
  intro y hy
  by_cases hc : ∃ p ∈ L, y ∈ p.1.set
  · exact View.read_writes_apply_of_pieces v f G L hL y hc
  · have hn : ∀ p ∈ L, y ∉ p.1.set := fun p hp hm => hc ⟨p, hp, hm⟩
    rw [View.read_writes_apply_of_forall_not_mem v f y L hn]
    refine hf y ?_
    by_contra hge
    exact hc (hcov y (by omega) hy)

theorem writes_step_sR (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → sR.view.writes (Elt F) f L y = G y :=
  read_writes_step sR.view G k f L hf hL hcov
theorem writes_step_s0 (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → s0.view.writes (Elt F) f L y = G y :=
  read_writes_step s0.view G k f L hf hL hcov
theorem writes_step_s1 (G : S40960.Idx → Elt F .f32) (k : Nat) (f : S40960.Idx → Elt F .f32) (L : List (View.Piece (Elt F) S40960 .f32))
    (hf : ∀ y : S40960.Idx, (y 0).val < 128 * k → f y = G y) (hL : ∀ p ∈ L, ∀ x : p.1.shape.Idx, p.2 x = G (p.1.emb x))
    (hcov : ∀ y : S40960.Idx, 128 * k ≤ (y 0).val → (y 0).val < 128 * (k + 1) → ∃ p ∈ L, y ∈ p.1.set) :
    ∀ y : S40960.Idx, (y 0).val < 128 * (k + 1) → s1.view.writes (Elt F) f L y = G y :=
  read_writes_step s1.view G k f L hf hL hcov

/-! ## The stored vectors, entry by entry -/

/-- The ratio at an entry that is lane `x` of chunk `n`. -/
theorem ratioAt_eq (fA fB : S40960.Idx → Elt F .f32) (y : S40960.Idx) (n : Nat) (hn : 16 * n + 16 ≤ 40960) (x : S16.Idx)
    (h : (y 0).val = 16 * n + (x 0).val) : ratioAt fA fB y = k0_pay3 (lanes fA n hn) (lanes fB n hn) x := by
  have hx : (x 0).val < 16 := (x 0).isLt
  have hq : (y 0).val / 16 = n := by omega
  have hr : (y 0).val % 16 = (x 0).val := by omega
  unfold ratioAt
  simp only []
  rw [lanes_congr fA hq, lanes_congr fB hq]
  congr 1
  funext a
  match a with
  | ⟨0, _⟩ => exact Fin.ext hr

/-- The label at an entry that is lane `x` of chunk `n`. -/
theorem labelAt_eq (fR : S40960.Idx → Elt F .f32) (tv : Vec F S16 .f32) (y : S40960.Idx) (n : Nat) (hn : 16 * n + 16 ≤ 40960) (x : S16.Idx)
    (h : (y 0).val = 16 * n + (x 0).val) : labelAt fR tv y = k0_pay10 (k0_pay22 tv) (lanes fR n hn) x := by
  have hx : (x 0).val < 16 := (x 0).isLt
  have hq : (y 0).val / 16 = n := by omega
  have hr : (y 0).val % 16 = (x 0).val := by omega
  unfold labelAt
  simp only []
  rw [lanes_congr fR hq]
  congr 1
  funext a
  match a with
  | ⟨0, _⟩ => exact Fin.ext hr

/-- The quotient of chunk `n` of the two inputs is the ratio at each entry the store puts it. -/
theorem ratio_piece (fA fB : S40960.Idx → Elt F .f32) (n : Nat) (hn : 16 * n + 16 ≤ 40960) (off : Fin S40960.rank → Nat)
    (inb : ∀ a, off a + S16.size a ≤ S40960.size a) (hoff : off = ![16 * n]) :
    ∀ x, k0_pay3 (lanes fA n hn) (lanes fB n hn) x = ratioAt fA fB ((Rect.unit (s := S40960) off S16.size inb).emb x) :=
  fun x => (ratioAt_eq fA fB _ n hn x (unit16_emb_val off inb n hoff x)).symm

/-- The labels of chunk `n` of the ratios against `tv` are the label at each entry the store puts them. -/
theorem label_piece (fR : S40960.Idx → Elt F .f32) (tv : Vec F S16 .f32) (n : Nat) (hn : 16 * n + 16 ≤ 40960) (off : Fin S40960.rank → Nat)
    (inb : ∀ a, off a + S16.size a ≤ S40960.size a) (hoff : off = ![16 * n]) :
    ∀ x, k0_pay10 (k0_pay22 tv) (lanes fR n hn) x = labelAt fR tv ((Rect.unit (s := S40960) off S16.size inb).emb x) :=
  fun x => (labelAt_eq fR tv _ n hn x (unit16_emb_val off inb n hoff x)).symm

/-! ## The eight quotients and the eight labels of a trip are one function each -/

theorem pay2_eq : @k0_pay2 F _ = k0_pay3 := rfl
theorem pay4_eq : @k0_pay4 F _ = k0_pay3 := rfl
theorem pay5_eq : @k0_pay5 F _ = k0_pay3 := rfl
theorem pay6_eq : @k0_pay6 F _ = k0_pay3 := rfl
theorem pay7_eq : @k0_pay7 F _ = k0_pay3 := rfl
theorem pay8_eq : @k0_pay8 F _ = k0_pay3 := rfl
theorem pay1_pay9_eq (a b : Vec F S16 .f32) : k0_pay1 (k0_pay9 a) b = k0_pay3 a b := rfl

theorem pay11_eq : @k0_pay11 F _ = k0_pay10 := rfl
theorem pay12_eq : @k0_pay12 F _ = k0_pay10 := rfl
theorem pay13_eq : @k0_pay13 F _ = k0_pay10 := rfl
theorem pay14_eq : @k0_pay14 F _ = k0_pay10 := rfl
theorem pay15_eq : @k0_pay15 F _ = k0_pay10 := rfl
theorem pay16_eq : @k0_pay16 F _ = k0_pay10 := rfl
theorem pay17_eq : @k0_pay17 F _ = k0_pay10 := rfl
theorem pay18_eq : @k0_pay18 F _ = k0_pay10 := rfl
theorem pay19_eq : @k0_pay19 F _ = k0_pay10 := rfl
theorem pay20_eq : @k0_pay20 F _ = k0_pay10 := rfl
theorem pay21_eq : @k0_pay21 F _ = k0_pay10 := rfl
theorem pay25_eq : @k0_pay25 F = k0_pay22 := rfl
theorem pay23_eq (tv w : Vec F S16 .f32) : k0_pay23 tv w = k0_pay10 (k0_pay22 tv) w := rfl
theorem pay24_eq (tv w : Vec F S16 .f32) : k0_pay24 tv w = k0_pay10 (k0_pay22 tv) w := rfl
theorem pay26_eq (tv w : Vec F S16 .f32) : k0_pay26 tv w = k0_pay10 (k0_pay22 tv) w := rfl
theorem pay27_eq (tv w : Vec F S16 .f32) : k0_pay27 tv w = k0_pay10 (k0_pay22 tv) w := rfl

/-! ## The eight stores of a trip cover its 128 entries -/

/-- A sixteen-entry interval from entry `m`. -/
theorem mem_unit16 (off : Fin S40960.rank → Nat) (inb : ∀ a, off a + S16.size a ≤ S40960.size a) (m : Nat) (hoff : off = ![m]) (y : S40960.Idx) :
    y ∈ (Rect.unit (s := S40960) off S16.size inb).set ↔ m ≤ (y 0).val ∧ (y 0).val < m + 16 := by
  subst hoff
  rw [Rect.mem_set_unit, Fin.forall_fin_one]
  rfl

/-- Eight intervals of sixteen entries from entries `128 K + 16 r`, `r = 7, …, 0`, cover entries `128 K … 128 K + 127`. -/
theorem cover8_gen (K : Nat) (o7 o6 o5 o4 o3 o2 o1 o0 : Fin S40960.rank → Nat)
    (i7 : ∀ a, o7 a + S16.size a ≤ S40960.size a) (i6 : ∀ a, o6 a + S16.size a ≤ S40960.size a)
    (i5 : ∀ a, o5 a + S16.size a ≤ S40960.size a) (i4 : ∀ a, o4 a + S16.size a ≤ S40960.size a)
    (i3 : ∀ a, o3 a + S16.size a ≤ S40960.size a) (i2 : ∀ a, o2 a + S16.size a ≤ S40960.size a)
    (i1 : ∀ a, o1 a + S16.size a ≤ S40960.size a) (i0 : ∀ a, o0 a + S16.size a ≤ S40960.size a)
    (h7 : o7 = ![128 * K + 16 * 7]) (h6 : o6 = ![128 * K + 16 * 6]) (h5 : o5 = ![128 * K + 16 * 5]) (h4 : o4 = ![128 * K + 16 * 4])
    (h3 : o3 = ![128 * K + 16 * 3]) (h2 : o2 = ![128 * K + 16 * 2]) (h1 : o1 = ![128 * K + 16 * 1]) (h0 : o0 = ![128 * K + 16 * 0])
    (w7 : (Rect.unit (s := S40960) o7 S16.size i7).shape.Idx → Elt F .f32) (w6 : (Rect.unit (s := S40960) o6 S16.size i6).shape.Idx → Elt F .f32)
    (w5 : (Rect.unit (s := S40960) o5 S16.size i5).shape.Idx → Elt F .f32) (w4 : (Rect.unit (s := S40960) o4 S16.size i4).shape.Idx → Elt F .f32)
    (w3 : (Rect.unit (s := S40960) o3 S16.size i3).shape.Idx → Elt F .f32) (w2 : (Rect.unit (s := S40960) o2 S16.size i2).shape.Idx → Elt F .f32)
    (w1 : (Rect.unit (s := S40960) o1 S16.size i1).shape.Idx → Elt F .f32) (w0 : (Rect.unit (s := S40960) o0 S16.size i0).shape.Idx → Elt F .f32) :
    ∀ y : S40960.Idx, 128 * K ≤ (y 0).val → (y 0).val < 128 * (K + 1) →
      ∃ p ∈ ([⟨Rect.unit (s := S40960) o7 S16.size i7, w7⟩, ⟨Rect.unit (s := S40960) o6 S16.size i6, w6⟩,
              ⟨Rect.unit (s := S40960) o5 S16.size i5, w5⟩, ⟨Rect.unit (s := S40960) o4 S16.size i4, w4⟩,
              ⟨Rect.unit (s := S40960) o3 S16.size i3, w3⟩, ⟨Rect.unit (s := S40960) o2 S16.size i2, w2⟩,
              ⟨Rect.unit (s := S40960) o1 S16.size i1, w1⟩, ⟨Rect.unit (s := S40960) o0 S16.size i0, w0⟩] : List (View.Piece (Elt F) S40960 .f32)),
        y ∈ p.1.set := by
  intro y hlo hhi
  have hr : ((y 0).val - 128 * K) / 16 < 8 := by omega
  have hc : ((y 0).val - 128 * K) / 16 = 7 ∨ ((y 0).val - 128 * K) / 16 = 6 ∨ ((y 0).val - 128 * K) / 16 = 5 ∨ ((y 0).val - 128 * K) / 16 = 4
      ∨ ((y 0).val - 128 * K) / 16 = 3 ∨ ((y 0).val - 128 * K) / 16 = 2 ∨ ((y 0).val - 128 * K) / 16 = 1 ∨ ((y 0).val - 128 * K) / 16 = 0 := by omega
  rcases hc with e | e | e | e | e | e | e | e
  · exact ⟨_, .head _, (mem_unit16 o7 i7 _ h7 y).mpr (by omega)⟩
  · exact ⟨_, .tail _ (.head _), (mem_unit16 o6 i6 _ h6 y).mpr (by omega)⟩
  · exact ⟨_, .tail _ (.tail _ (.head _)), (mem_unit16 o5 i5 _ h5 y).mpr (by omega)⟩
  · exact ⟨_, .tail _ (.tail _ (.tail _ (.head _))), (mem_unit16 o4 i4 _ h4 y).mpr (by omega)⟩
  · exact ⟨_, .tail _ (.tail _ (.tail _ (.tail _ (.head _)))), (mem_unit16 o3 i3 _ h3 y).mpr (by omega)⟩
  · exact ⟨_, .tail _ (.tail _ (.tail _ (.tail _ (.tail _ (.head _))))), (mem_unit16 o2 i2 _ h2 y).mpr (by omega)⟩
  · exact ⟨_, .tail _ (.tail _ (.tail _ (.tail _ (.tail _ (.tail _ (.head _)))))), (mem_unit16 o1 i1 _ h1 y).mpr (by omega)⟩
  · exact ⟨_, .tail _ (.tail _ (.tail _ (.tail _ (.tail _ (.tail _ (.tail _ (.head _))))))), (mem_unit16 o0 i0 _ h0 y).mpr (by omega)⟩

/-- The eight stores of trip `k` of the loop that fills the ratios. -/
theorem cover8_off2 (k : Fin k0_t1_loop.trips)
    (w7 : (Rect.unit (s := S40960) (k0_off2 k 7#32) S16.size (k0_off2_inb k 7)).shape.Idx → Elt F .f32)
    (w6 : (Rect.unit (s := S40960) (k0_off2 k 6#32) S16.size (k0_off2_inb k 6)).shape.Idx → Elt F .f32)
    (w5 : (Rect.unit (s := S40960) (k0_off2 k 5#32) S16.size (k0_off2_inb k 5)).shape.Idx → Elt F .f32)
    (w4 : (Rect.unit (s := S40960) (k0_off2 k 4#32) S16.size (k0_off2_inb k 4)).shape.Idx → Elt F .f32)
    (w3 : (Rect.unit (s := S40960) (k0_off2 k 3#32) S16.size (k0_off2_inb k 3)).shape.Idx → Elt F .f32)
    (w2 : (Rect.unit (s := S40960) (k0_off2 k 2#32) S16.size (k0_off2_inb k 2)).shape.Idx → Elt F .f32)
    (w1 : (Rect.unit (s := S40960) (k0_off2 k 1#32) S16.size (k0_off2_inb k 1)).shape.Idx → Elt F .f32)
    (w0 : (Rect.unit (s := S40960) (k0_off2 k 0#32) S16.size (k0_off2_inb k 0)).shape.Idx → Elt F .f32) :
    ∀ y : S40960.Idx, 128 * k.val ≤ (y 0).val → (y 0).val < 128 * (k.val + 1) →
      ∃ p ∈ ([⟨Rect.unit (s := S40960) (k0_off2 k 7#32) S16.size (k0_off2_inb k 7), w7⟩, ⟨Rect.unit (s := S40960) (k0_off2 k 6#32) S16.size (k0_off2_inb k 6), w6⟩,
              ⟨Rect.unit (s := S40960) (k0_off2 k 5#32) S16.size (k0_off2_inb k 5), w5⟩, ⟨Rect.unit (s := S40960) (k0_off2 k 4#32) S16.size (k0_off2_inb k 4), w4⟩,
              ⟨Rect.unit (s := S40960) (k0_off2 k 3#32) S16.size (k0_off2_inb k 3), w3⟩, ⟨Rect.unit (s := S40960) (k0_off2 k 2#32) S16.size (k0_off2_inb k 2), w2⟩,
              ⟨Rect.unit (s := S40960) (k0_off2 k 1#32) S16.size (k0_off2_inb k 1), w1⟩, ⟨Rect.unit (s := S40960) (k0_off2 k 0#32) S16.size (k0_off2_inb k 0), w0⟩] : List (View.Piece (Elt F) S40960 .f32)),
        y ∈ p.1.set :=
  cover8_gen k.val _ _ _ _ _ _ _ _ _ _ _ _ _ _ _ _ (k0_off2_eq k 7) (k0_off2_eq k 6) (k0_off2_eq k 5) (k0_off2_eq k 4)
    (k0_off2_eq k 3) (k0_off2_eq k 2) (k0_off2_eq k 1) (k0_off2_eq k 0) w7 w6 w5 w4 w3 w2 w1 w0

/-- The eight stores of trip `k` of the loop that fills the labels of a pair's first row. -/
theorem cover8_off5 (k : Fin k0_t3_loop.trips)
    (w7 : (Rect.unit (s := S40960) (k0_off5 k 7#32) S16.size (k0_off5_inb k 7)).shape.Idx → Elt F .f32)
    (w6 : (Rect.unit (s := S40960) (k0_off5 k 6#32) S16.size (k0_off5_inb k 6)).shape.Idx → Elt F .f32)
    (w5 : (Rect.unit (s := S40960) (k0_off5 k 5#32) S16.size (k0_off5_inb k 5)).shape.Idx → Elt F .f32)
    (w4 : (Rect.unit (s := S40960) (k0_off5 k 4#32) S16.size (k0_off5_inb k 4)).shape.Idx → Elt F .f32)
    (w3 : (Rect.unit (s := S40960) (k0_off5 k 3#32) S16.size (k0_off5_inb k 3)).shape.Idx → Elt F .f32)
    (w2 : (Rect.unit (s := S40960) (k0_off5 k 2#32) S16.size (k0_off5_inb k 2)).shape.Idx → Elt F .f32)
    (w1 : (Rect.unit (s := S40960) (k0_off5 k 1#32) S16.size (k0_off5_inb k 1)).shape.Idx → Elt F .f32)
    (w0 : (Rect.unit (s := S40960) (k0_off5 k 0#32) S16.size (k0_off5_inb k 0)).shape.Idx → Elt F .f32) :
    ∀ y : S40960.Idx, 128 * k.val ≤ (y 0).val → (y 0).val < 128 * (k.val + 1) →
      ∃ p ∈ ([⟨Rect.unit (s := S40960) (k0_off5 k 7#32) S16.size (k0_off5_inb k 7), w7⟩,
              ⟨Rect.unit (s := S40960) (k0_off5 k 6#32) S16.size (k0_off5_inb k 6), w6⟩,
              ⟨Rect.unit (s := S40960) (k0_off5 k 5#32) S16.size (k0_off5_inb k 5), w5⟩,
              ⟨Rect.unit (s := S40960) (k0_off5 k 4#32) S16.size (k0_off5_inb k 4), w4⟩,
              ⟨Rect.unit (s := S40960) (k0_off5 k 3#32) S16.size (k0_off5_inb k 3), w3⟩,
              ⟨Rect.unit (s := S40960) (k0_off5 k 2#32) S16.size (k0_off5_inb k 2), w2⟩,
              ⟨Rect.unit (s := S40960) (k0_off5 k 1#32) S16.size (k0_off5_inb k 1), w1⟩,
              ⟨Rect.unit (s := S40960) (k0_off5 k 0#32) S16.size (k0_off5_inb k 0), w0⟩] : List (View.Piece (Elt F) S40960 .f32)),
        y ∈ p.1.set :=
  cover8_gen k.val _ _ _ _ _ _ _ _ _ _ _ _ _ _ _ _ (k0_off5_eq k 7) (k0_off5_eq k 6) (k0_off5_eq k 5) (k0_off5_eq k 4)
    (k0_off5_eq k 3) (k0_off5_eq k 2) (k0_off5_eq k 1) (k0_off5_eq k 0) w7 w6 w5 w4 w3 w2 w1 w0

/-- The eight stores of trip `k` of the loop that fills the labels of a pair's second row. -/
theorem cover8_off8 (k : Fin k0_t4_loop.trips)
    (w7 : (Rect.unit (s := S40960) (k0_off8 k 7#32) S16.size (k0_off8_inb k 7)).shape.Idx → Elt F .f32)
    (w6 : (Rect.unit (s := S40960) (k0_off8 k 6#32) S16.size (k0_off8_inb k 6)).shape.Idx → Elt F .f32)
    (w5 : (Rect.unit (s := S40960) (k0_off8 k 5#32) S16.size (k0_off8_inb k 5)).shape.Idx → Elt F .f32)
    (w4 : (Rect.unit (s := S40960) (k0_off8 k 4#32) S16.size (k0_off8_inb k 4)).shape.Idx → Elt F .f32)
    (w3 : (Rect.unit (s := S40960) (k0_off8 k 3#32) S16.size (k0_off8_inb k 3)).shape.Idx → Elt F .f32)
    (w2 : (Rect.unit (s := S40960) (k0_off8 k 2#32) S16.size (k0_off8_inb k 2)).shape.Idx → Elt F .f32)
    (w1 : (Rect.unit (s := S40960) (k0_off8 k 1#32) S16.size (k0_off8_inb k 1)).shape.Idx → Elt F .f32)
    (w0 : (Rect.unit (s := S40960) (k0_off8 k 0#32) S16.size (k0_off8_inb k 0)).shape.Idx → Elt F .f32) :
    ∀ y : S40960.Idx, 128 * k.val ≤ (y 0).val → (y 0).val < 128 * (k.val + 1) →
      ∃ p ∈ ([⟨Rect.unit (s := S40960) (k0_off8 k 7#32) S16.size (k0_off8_inb k 7), w7⟩,
              ⟨Rect.unit (s := S40960) (k0_off8 k 6#32) S16.size (k0_off8_inb k 6), w6⟩,
              ⟨Rect.unit (s := S40960) (k0_off8 k 5#32) S16.size (k0_off8_inb k 5), w5⟩,
              ⟨Rect.unit (s := S40960) (k0_off8 k 4#32) S16.size (k0_off8_inb k 4), w4⟩,
              ⟨Rect.unit (s := S40960) (k0_off8 k 3#32) S16.size (k0_off8_inb k 3), w3⟩,
              ⟨Rect.unit (s := S40960) (k0_off8 k 2#32) S16.size (k0_off8_inb k 2), w2⟩,
              ⟨Rect.unit (s := S40960) (k0_off8 k 1#32) S16.size (k0_off8_inb k 1), w1⟩,
              ⟨Rect.unit (s := S40960) (k0_off8 k 0#32) S16.size (k0_off8_inb k 0), w0⟩] : List (View.Piece (Elt F) S40960 .f32)),
        y ∈ p.1.set :=
  cover8_gen k.val _ _ _ _ _ _ _ _ _ _ _ _ _ _ _ _ (k0_off8_eq k 7) (k0_off8_eq k 6) (k0_off8_eq k 5) (k0_off8_eq k 4)
    (k0_off8_eq k 3) (k0_off8_eq k 2) (k0_off8_eq k 1) (k0_off8_eq k 0) w7 w6 w5 w4 w3 w2 w1 w0

/-! ## The loops' trip counts, and the offsets as multiples of sixteen -/

theorem trips1 : k0_t1_loop.trips = 320 := by decide
theorem trips3 : k0_t3_loop.trips = 320 := by decide
theorem trips4 : k0_t4_loop.trips = 320 := by decide

theorem off2_eq16 (k : Fin k0_t1_loop.trips) (r : Fin 8) : k0_off2 k (BitVec.ofNat 32 r.val) = ![16 * (8 * k.val + r.val)] := by
  rw [k0_off2_eq k r, show 128 * k.val + 16 * r.val = 16 * (8 * k.val + r.val) by omega]
theorem off5_eq16 (k : Fin k0_t3_loop.trips) (r : Fin 8) : k0_off5 k (BitVec.ofNat 32 r.val) = ![16 * (8 * k.val + r.val)] := by
  rw [k0_off5_eq k r, show 128 * k.val + 16 * r.val = 16 * (8 * k.val + r.val) by omega]
theorem off8_eq16 (k : Fin k0_t4_loop.trips) (r : Fin 8) : k0_off8 k (BitVec.ofNat 32 r.val) = ![16 * (8 * k.val + r.val)] := by
  rw [k0_off8_eq k r, show 128 * k.val + 16 * r.val = 16 * (8 * k.val + r.val) by omega]
theorem off3_eq16 (g : Fin k0_t2_loop.trips) (r : Fin 2) : k0_off3 g (BitVec.ofNat 32 r.val) = ![16 * (2 * g.val + r.val)] := by
  rw [k0_off3_eq g r, show 32 * g.val + 16 * r.val = 16 * (2 * g.val + r.val) by omega]

theorem chunk_inb1 (k : Fin k0_t1_loop.trips) (r : Fin 8) : 16 * (8 * k.val + r.val) + 16 ≤ 40960 := by
  have hk : k.val < 320 := trips1 ▸ k.isLt
  have hr : r.val < 8 := r.isLt
  omega
theorem chunk_inb3 (k : Fin k0_t3_loop.trips) (r : Fin 8) : 16 * (8 * k.val + r.val) + 16 ≤ 40960 := by
  have hk : k.val < 320 := trips3 ▸ k.isLt
  have hr : r.val < 8 := r.isLt
  omega
theorem chunk_inb4 (k : Fin k0_t4_loop.trips) (r : Fin 8) : 16 * (8 * k.val + r.val) + 16 ≤ 40960 := by
  have hk : k.val < 320 := trips4 ▸ k.isLt
  have hr : r.val < 8 := r.isLt
  omega
theorem row_inb (g : Fin k0_t2_loop.trips) (r : Fin 2) : 16 * (2 * g.val + r.val) + 16 ≤ 512 := by
  have hg : g.val < 16 := (show k0_t2_loop.trips = 16 by decide) ▸ g.isLt
  have hr : r.val < 2 := r.isLt
  omega

/-! ## One trip of each loop, whole -/

/-- A store of the quotient of chunk `n` puts the ratios there. -/
theorem ratio_store_ok (fA fB : S40960.Idx → Elt F .f32) (n : Nat) (hn : 16 * n + 16 ≤ 40960) (off : Fin S40960.rank → Nat)
    (inb : ∀ a, off a + S16.size a ≤ S40960.size a) (hoff : off = ![16 * n])
    (w : (Rect.unit (s := S40960) off S16.size inb).shape.Idx → Elt F .f32) (hw : w = k0_pay3 (lanes fA n hn) (lanes fB n hn)) :
    ∀ x, w x = ratioAt fA fB ((Rect.unit (s := S40960) off S16.size inb).emb x) := by
  subst hw; exact ratio_piece fA fB n hn off inb hoff

/-- A store of the labels of chunk `n` puts the labels there. -/
theorem label_store_ok (fR : S40960.Idx → Elt F .f32) (tv : Vec F S16 .f32) (n : Nat) (hn : 16 * n + 16 ≤ 40960) (off : Fin S40960.rank → Nat)
    (inb : ∀ a, off a + S16.size a ≤ S40960.size a) (hoff : off = ![16 * n])
    (w : (Rect.unit (s := S40960) off S16.size inb).shape.Idx → Elt F .f32) (hw : w = k0_pay10 (k0_pay22 tv) (lanes fR n hn)) :
    ∀ x, w x = labelAt fR tv ((Rect.unit (s := S40960) off S16.size inb).emb x) := by
  subst hw; exact label_piece fR tv n hn off inb hoff

/-- Trip `k` of the loop of quotients: if the buffer holds the ratios below entry `128 k`, after the trip's eight stores it holds them
    below entry `128 (k + 1)`. -/
theorem ratio_trip (fA fB f : S40960.Idx → Elt F .f32) (k : Fin k0_t1_loop.trips)
    (hf : ∀ y : S40960.Idx, (y 0).val < 128 * k.val → f y = ratioAt fA fB y) :
    ∀ y : S40960.Idx, (y 0).val < 128 * (k.val + 1) → sR.view.writes (Elt F) f [
      ⟨Rect.unit (s := S40960) (k0_off2 k 7#32) S16.size (k0_off2_inb k 7),
        k0_pay2 (s0.view.readAt (Elt F) (Rect.unit (s := S40960) (k0_off2 k 7#32) S16.size (k0_off2_inb k 7)).toLoadRect fA) (s1.view.readAt (Elt F) (Rect.unit (s := S40960) (k0_off2 k 7#32) S16.size (k0_off2_inb k 7)).toLoadRect fB)⟩,
      ⟨Rect.unit (s := S40960) (k0_off2 k 6#32) S16.size (k0_off2_inb k 6),
        k0_pay1 (k0_pay9 (s0.view.readAt (Elt F) (Rect.unit (s := S40960) (k0_off2 k 6#32) S16.size (k0_off2_inb k 6)).toLoadRect fA)) (s1.view.readAt (Elt F) (Rect.unit (s := S40960) (k0_off2 k 6#32) S16.size (k0_off2_inb k 6)).toLoadRect fB)⟩,
      ⟨Rect.unit (s := S40960) (k0_off2 k 5#32) S16.size (k0_off2_inb k 5),
        k0_pay8 (s0.view.readAt (Elt F) (Rect.unit (s := S40960) (k0_off2 k 5#32) S16.size (k0_off2_inb k 5)).toLoadRect fA) (s1.view.readAt (Elt F) (Rect.unit (s := S40960) (k0_off2 k 5#32) S16.size (k0_off2_inb k 5)).toLoadRect fB)⟩,
      ⟨Rect.unit (s := S40960) (k0_off2 k 4#32) S16.size (k0_off2_inb k 4),
        k0_pay7 (s0.view.readAt (Elt F) (Rect.unit (s := S40960) (k0_off2 k 4#32) S16.size (k0_off2_inb k 4)).toLoadRect fA) (s1.view.readAt (Elt F) (Rect.unit (s := S40960) (k0_off2 k 4#32) S16.size (k0_off2_inb k 4)).toLoadRect fB)⟩,
      ⟨Rect.unit (s := S40960) (k0_off2 k 3#32) S16.size (k0_off2_inb k 3),
        k0_pay6 (s0.view.readAt (Elt F) (Rect.unit (s := S40960) (k0_off2 k 3#32) S16.size (k0_off2_inb k 3)).toLoadRect fA) (s1.view.readAt (Elt F) (Rect.unit (s := S40960) (k0_off2 k 3#32) S16.size (k0_off2_inb k 3)).toLoadRect fB)⟩,
      ⟨Rect.unit (s := S40960) (k0_off2 k 2#32) S16.size (k0_off2_inb k 2),
        k0_pay5 (s0.view.readAt (Elt F) (Rect.unit (s := S40960) (k0_off2 k 2#32) S16.size (k0_off2_inb k 2)).toLoadRect fA) (s1.view.readAt (Elt F) (Rect.unit (s := S40960) (k0_off2 k 2#32) S16.size (k0_off2_inb k 2)).toLoadRect fB)⟩,
      ⟨Rect.unit (s := S40960) (k0_off2 k 1#32) S16.size (k0_off2_inb k 1),
        k0_pay4 (s0.view.readAt (Elt F) (Rect.unit (s := S40960) (k0_off2 k 1#32) S16.size (k0_off2_inb k 1)).toLoadRect fA) (s1.view.readAt (Elt F) (Rect.unit (s := S40960) (k0_off2 k 1#32) S16.size (k0_off2_inb k 1)).toLoadRect fB)⟩,
      ⟨Rect.unit (s := S40960) (k0_off2 k 0#32) S16.size (k0_off2_inb k 0),
        k0_pay3 (s0.view.readAt (Elt F) (Rect.unit (s := S40960) (k0_off2 k 0#32) S16.size (k0_off2_inb k 0)).toLoadRect fA) (s1.view.readAt (Elt F) (Rect.unit (s := S40960) (k0_off2 k 0#32) S16.size (k0_off2_inb k 0)).toLoadRect fB)⟩] y = ratioAt fA fB y :=
  writes_step_sR (ratioAt fA fB) k.val f _ hf
    (List.forall_mem_cons.mpr ⟨
    (ratio_store_ok fA fB (8 * k.val + 7) (chunk_inb1 k 7) (k0_off2 k 7#32) (k0_off2_inb k 7) (off2_eq16 k 7) _
      (congrArg₂ k0_pay3 (lanes_readAt_s0 fA (k0_off2 k 7#32) (k0_off2_inb k 7) _ (chunk_inb1 k 7) (off2_eq16 k 7)) (lanes_readAt_s1 fB (k0_off2 k 7#32) (k0_off2_inb k 7) _ (chunk_inb1 k 7) (off2_eq16 k 7)))),
    List.forall_mem_cons.mpr ⟨
    (ratio_store_ok fA fB (8 * k.val + 6) (chunk_inb1 k 6) (k0_off2 k 6#32) (k0_off2_inb k 6) (off2_eq16 k 6) _
      (congrArg₂ k0_pay3 (lanes_readAt_s0 fA (k0_off2 k 6#32) (k0_off2_inb k 6) _ (chunk_inb1 k 6) (off2_eq16 k 6)) (lanes_readAt_s1 fB (k0_off2 k 6#32) (k0_off2_inb k 6) _ (chunk_inb1 k 6) (off2_eq16 k 6)))),
    List.forall_mem_cons.mpr ⟨
    (ratio_store_ok fA fB (8 * k.val + 5) (chunk_inb1 k 5) (k0_off2 k 5#32) (k0_off2_inb k 5) (off2_eq16 k 5) _
      (congrArg₂ k0_pay3 (lanes_readAt_s0 fA (k0_off2 k 5#32) (k0_off2_inb k 5) _ (chunk_inb1 k 5) (off2_eq16 k 5)) (lanes_readAt_s1 fB (k0_off2 k 5#32) (k0_off2_inb k 5) _ (chunk_inb1 k 5) (off2_eq16 k 5)))),
    List.forall_mem_cons.mpr ⟨
    (ratio_store_ok fA fB (8 * k.val + 4) (chunk_inb1 k 4) (k0_off2 k 4#32) (k0_off2_inb k 4) (off2_eq16 k 4) _
      (congrArg₂ k0_pay3 (lanes_readAt_s0 fA (k0_off2 k 4#32) (k0_off2_inb k 4) _ (chunk_inb1 k 4) (off2_eq16 k 4)) (lanes_readAt_s1 fB (k0_off2 k 4#32) (k0_off2_inb k 4) _ (chunk_inb1 k 4) (off2_eq16 k 4)))),
    List.forall_mem_cons.mpr ⟨
    (ratio_store_ok fA fB (8 * k.val + 3) (chunk_inb1 k 3) (k0_off2 k 3#32) (k0_off2_inb k 3) (off2_eq16 k 3) _
      (congrArg₂ k0_pay3 (lanes_readAt_s0 fA (k0_off2 k 3#32) (k0_off2_inb k 3) _ (chunk_inb1 k 3) (off2_eq16 k 3)) (lanes_readAt_s1 fB (k0_off2 k 3#32) (k0_off2_inb k 3) _ (chunk_inb1 k 3) (off2_eq16 k 3)))),
    List.forall_mem_cons.mpr ⟨
    (ratio_store_ok fA fB (8 * k.val + 2) (chunk_inb1 k 2) (k0_off2 k 2#32) (k0_off2_inb k 2) (off2_eq16 k 2) _
      (congrArg₂ k0_pay3 (lanes_readAt_s0 fA (k0_off2 k 2#32) (k0_off2_inb k 2) _ (chunk_inb1 k 2) (off2_eq16 k 2)) (lanes_readAt_s1 fB (k0_off2 k 2#32) (k0_off2_inb k 2) _ (chunk_inb1 k 2) (off2_eq16 k 2)))),
    List.forall_mem_cons.mpr ⟨
    (ratio_store_ok fA fB (8 * k.val + 1) (chunk_inb1 k 1) (k0_off2 k 1#32) (k0_off2_inb k 1) (off2_eq16 k 1) _
      (congrArg₂ k0_pay3 (lanes_readAt_s0 fA (k0_off2 k 1#32) (k0_off2_inb k 1) _ (chunk_inb1 k 1) (off2_eq16 k 1)) (lanes_readAt_s1 fB (k0_off2 k 1#32) (k0_off2_inb k 1) _ (chunk_inb1 k 1) (off2_eq16 k 1)))),
    List.forall_mem_cons.mpr ⟨
    (ratio_store_ok fA fB (8 * k.val + 0) (chunk_inb1 k 0) (k0_off2 k 0#32) (k0_off2_inb k 0) (off2_eq16 k 0) _
      (congrArg₂ k0_pay3 (lanes_readAt_s0 fA (k0_off2 k 0#32) (k0_off2_inb k 0) _ (chunk_inb1 k 0) (off2_eq16 k 0)) (lanes_readAt_s1 fB (k0_off2 k 0#32) (k0_off2_inb k 0) _ (chunk_inb1 k 0) (off2_eq16 k 0)))),
    fun _ h => absurd h List.not_mem_nil⟩⟩⟩⟩⟩⟩⟩⟩)
    (cover8_off2 k _ _ _ _ _ _ _ _)

/-- Trip `k` of the loop of labels of a pair's first row. -/
theorem label_trip0 (fR f : S40960.Idx → Elt F .f32) (tv : Vec F S16 .f32) (k : Fin k0_t3_loop.trips)
    (hf : ∀ y : S40960.Idx, (y 0).val < 128 * k.val → f y = labelAt fR tv y) :
    ∀ y : S40960.Idx, (y 0).val < 128 * (k.val + 1) → s0.view.writes (Elt F) f [
      ⟨Rect.unit (s := S40960) (k0_off5 k 7#32) S16.size (k0_off5_inb k 7),
        k0_pay24 tv (sR.view.readAt (Elt F) (Rect.unit (s := S40960) (k0_off5 k 7#32) S16.size (k0_off5_inb k 7)).toLoadRect fR)⟩,
      ⟨Rect.unit (s := S40960) (k0_off5 k 6#32) S16.size (k0_off5_inb k 6),
        k0_pay23 tv (sR.view.readAt (Elt F) (Rect.unit (s := S40960) (k0_off5 k 6#32) S16.size (k0_off5_inb k 6)).toLoadRect fR)⟩,
      ⟨Rect.unit (s := S40960) (k0_off5 k 5#32) S16.size (k0_off5_inb k 5),
        k0_pay15 (k0_pay22 tv) (sR.view.readAt (Elt F) (Rect.unit (s := S40960) (k0_off5 k 5#32) S16.size (k0_off5_inb k 5)).toLoadRect fR)⟩,
      ⟨Rect.unit (s := S40960) (k0_off5 k 4#32) S16.size (k0_off5_inb k 4),
        k0_pay14 (k0_pay22 tv) (sR.view.readAt (Elt F) (Rect.unit (s := S40960) (k0_off5 k 4#32) S16.size (k0_off5_inb k 4)).toLoadRect fR)⟩,
      ⟨Rect.unit (s := S40960) (k0_off5 k 3#32) S16.size (k0_off5_inb k 3),
        k0_pay13 (k0_pay22 tv) (sR.view.readAt (Elt F) (Rect.unit (s := S40960) (k0_off5 k 3#32) S16.size (k0_off5_inb k 3)).toLoadRect fR)⟩,
      ⟨Rect.unit (s := S40960) (k0_off5 k 2#32) S16.size (k0_off5_inb k 2),
        k0_pay12 (k0_pay22 tv) (sR.view.readAt (Elt F) (Rect.unit (s := S40960) (k0_off5 k 2#32) S16.size (k0_off5_inb k 2)).toLoadRect fR)⟩,
      ⟨Rect.unit (s := S40960) (k0_off5 k 1#32) S16.size (k0_off5_inb k 1),
        k0_pay11 (k0_pay22 tv) (sR.view.readAt (Elt F) (Rect.unit (s := S40960) (k0_off5 k 1#32) S16.size (k0_off5_inb k 1)).toLoadRect fR)⟩,
      ⟨Rect.unit (s := S40960) (k0_off5 k 0#32) S16.size (k0_off5_inb k 0),
        k0_pay10 (k0_pay22 tv) (sR.view.readAt (Elt F) (Rect.unit (s := S40960) (k0_off5 k 0#32) S16.size (k0_off5_inb k 0)).toLoadRect fR)⟩] y = labelAt fR tv y :=
  writes_step_s0 (labelAt fR tv) k.val f _ hf
    (List.forall_mem_cons.mpr ⟨
    (label_store_ok fR tv (8 * k.val + 7) (chunk_inb3 k 7) (k0_off5 k 7#32) (k0_off5_inb k 7) (off5_eq16 k 7) _
      (congrArg (k0_pay10 (k0_pay22 tv)) (lanes_readAt_sR fR (k0_off5 k 7#32) (k0_off5_inb k 7) _ (chunk_inb3 k 7) (off5_eq16 k 7)))),
    List.forall_mem_cons.mpr ⟨
    (label_store_ok fR tv (8 * k.val + 6) (chunk_inb3 k 6) (k0_off5 k 6#32) (k0_off5_inb k 6) (off5_eq16 k 6) _
      (congrArg (k0_pay10 (k0_pay22 tv)) (lanes_readAt_sR fR (k0_off5 k 6#32) (k0_off5_inb k 6) _ (chunk_inb3 k 6) (off5_eq16 k 6)))),
    List.forall_mem_cons.mpr ⟨
    (label_store_ok fR tv (8 * k.val + 5) (chunk_inb3 k 5) (k0_off5 k 5#32) (k0_off5_inb k 5) (off5_eq16 k 5) _
      (congrArg (k0_pay10 (k0_pay22 tv)) (lanes_readAt_sR fR (k0_off5 k 5#32) (k0_off5_inb k 5) _ (chunk_inb3 k 5) (off5_eq16 k 5)))),
    List.forall_mem_cons.mpr ⟨
    (label_store_ok fR tv (8 * k.val + 4) (chunk_inb3 k 4) (k0_off5 k 4#32) (k0_off5_inb k 4) (off5_eq16 k 4) _
      (congrArg (k0_pay10 (k0_pay22 tv)) (lanes_readAt_sR fR (k0_off5 k 4#32) (k0_off5_inb k 4) _ (chunk_inb3 k 4) (off5_eq16 k 4)))),
    List.forall_mem_cons.mpr ⟨
    (label_store_ok fR tv (8 * k.val + 3) (chunk_inb3 k 3) (k0_off5 k 3#32) (k0_off5_inb k 3) (off5_eq16 k 3) _
      (congrArg (k0_pay10 (k0_pay22 tv)) (lanes_readAt_sR fR (k0_off5 k 3#32) (k0_off5_inb k 3) _ (chunk_inb3 k 3) (off5_eq16 k 3)))),
    List.forall_mem_cons.mpr ⟨
    (label_store_ok fR tv (8 * k.val + 2) (chunk_inb3 k 2) (k0_off5 k 2#32) (k0_off5_inb k 2) (off5_eq16 k 2) _
      (congrArg (k0_pay10 (k0_pay22 tv)) (lanes_readAt_sR fR (k0_off5 k 2#32) (k0_off5_inb k 2) _ (chunk_inb3 k 2) (off5_eq16 k 2)))),
    List.forall_mem_cons.mpr ⟨
    (label_store_ok fR tv (8 * k.val + 1) (chunk_inb3 k 1) (k0_off5 k 1#32) (k0_off5_inb k 1) (off5_eq16 k 1) _
      (congrArg (k0_pay10 (k0_pay22 tv)) (lanes_readAt_sR fR (k0_off5 k 1#32) (k0_off5_inb k 1) _ (chunk_inb3 k 1) (off5_eq16 k 1)))),
    List.forall_mem_cons.mpr ⟨
    (label_store_ok fR tv (8 * k.val + 0) (chunk_inb3 k 0) (k0_off5 k 0#32) (k0_off5_inb k 0) (off5_eq16 k 0) _
      (congrArg (k0_pay10 (k0_pay22 tv)) (lanes_readAt_sR fR (k0_off5 k 0#32) (k0_off5_inb k 0) _ (chunk_inb3 k 0) (off5_eq16 k 0)))),
    fun _ h => absurd h List.not_mem_nil⟩⟩⟩⟩⟩⟩⟩⟩)
    (cover8_off5 k _ _ _ _ _ _ _ _)

/-- Trip `k` of the loop of labels of a pair's second row. -/
theorem label_trip1 (fR f : S40960.Idx → Elt F .f32) (tv : Vec F S16 .f32) (k : Fin k0_t4_loop.trips)
    (hf : ∀ y : S40960.Idx, (y 0).val < 128 * k.val → f y = labelAt fR tv y) :
    ∀ y : S40960.Idx, (y 0).val < 128 * (k.val + 1) → s1.view.writes (Elt F) f [
      ⟨Rect.unit (s := S40960) (k0_off8 k 7#32) S16.size (k0_off8_inb k 7),
        k0_pay27 tv (sR.view.readAt (Elt F) (Rect.unit (s := S40960) (k0_off8 k 7#32) S16.size (k0_off8_inb k 7)).toLoadRect fR)⟩,
      ⟨Rect.unit (s := S40960) (k0_off8 k 6#32) S16.size (k0_off8_inb k 6),
        k0_pay26 tv (sR.view.readAt (Elt F) (Rect.unit (s := S40960) (k0_off8 k 6#32) S16.size (k0_off8_inb k 6)).toLoadRect fR)⟩,
      ⟨Rect.unit (s := S40960) (k0_off8 k 5#32) S16.size (k0_off8_inb k 5),
        k0_pay21 (k0_pay25 tv) (sR.view.readAt (Elt F) (Rect.unit (s := S40960) (k0_off8 k 5#32) S16.size (k0_off8_inb k 5)).toLoadRect fR)⟩,
      ⟨Rect.unit (s := S40960) (k0_off8 k 4#32) S16.size (k0_off8_inb k 4),
        k0_pay20 (k0_pay25 tv) (sR.view.readAt (Elt F) (Rect.unit (s := S40960) (k0_off8 k 4#32) S16.size (k0_off8_inb k 4)).toLoadRect fR)⟩,
      ⟨Rect.unit (s := S40960) (k0_off8 k 3#32) S16.size (k0_off8_inb k 3),
        k0_pay19 (k0_pay25 tv) (sR.view.readAt (Elt F) (Rect.unit (s := S40960) (k0_off8 k 3#32) S16.size (k0_off8_inb k 3)).toLoadRect fR)⟩,
      ⟨Rect.unit (s := S40960) (k0_off8 k 2#32) S16.size (k0_off8_inb k 2),
        k0_pay18 (k0_pay25 tv) (sR.view.readAt (Elt F) (Rect.unit (s := S40960) (k0_off8 k 2#32) S16.size (k0_off8_inb k 2)).toLoadRect fR)⟩,
      ⟨Rect.unit (s := S40960) (k0_off8 k 1#32) S16.size (k0_off8_inb k 1),
        k0_pay17 (k0_pay25 tv) (sR.view.readAt (Elt F) (Rect.unit (s := S40960) (k0_off8 k 1#32) S16.size (k0_off8_inb k 1)).toLoadRect fR)⟩,
      ⟨Rect.unit (s := S40960) (k0_off8 k 0#32) S16.size (k0_off8_inb k 0),
        k0_pay16 (k0_pay25 tv) (sR.view.readAt (Elt F) (Rect.unit (s := S40960) (k0_off8 k 0#32) S16.size (k0_off8_inb k 0)).toLoadRect fR)⟩] y = labelAt fR tv y :=
  writes_step_s1 (labelAt fR tv) k.val f _ hf
    (List.forall_mem_cons.mpr ⟨
    (label_store_ok fR tv (8 * k.val + 7) (chunk_inb4 k 7) (k0_off8 k 7#32) (k0_off8_inb k 7) (off8_eq16 k 7) _
      (congrArg (k0_pay10 (k0_pay22 tv)) (lanes_readAt_sR fR (k0_off8 k 7#32) (k0_off8_inb k 7) _ (chunk_inb4 k 7) (off8_eq16 k 7)))),
    List.forall_mem_cons.mpr ⟨
    (label_store_ok fR tv (8 * k.val + 6) (chunk_inb4 k 6) (k0_off8 k 6#32) (k0_off8_inb k 6) (off8_eq16 k 6) _
      (congrArg (k0_pay10 (k0_pay22 tv)) (lanes_readAt_sR fR (k0_off8 k 6#32) (k0_off8_inb k 6) _ (chunk_inb4 k 6) (off8_eq16 k 6)))),
    List.forall_mem_cons.mpr ⟨
    (label_store_ok fR tv (8 * k.val + 5) (chunk_inb4 k 5) (k0_off8 k 5#32) (k0_off8_inb k 5) (off8_eq16 k 5) _
      (congrArg (k0_pay10 (k0_pay22 tv)) (lanes_readAt_sR fR (k0_off8 k 5#32) (k0_off8_inb k 5) _ (chunk_inb4 k 5) (off8_eq16 k 5)))),
    List.forall_mem_cons.mpr ⟨
    (label_store_ok fR tv (8 * k.val + 4) (chunk_inb4 k 4) (k0_off8 k 4#32) (k0_off8_inb k 4) (off8_eq16 k 4) _
      (congrArg (k0_pay10 (k0_pay22 tv)) (lanes_readAt_sR fR (k0_off8 k 4#32) (k0_off8_inb k 4) _ (chunk_inb4 k 4) (off8_eq16 k 4)))),
    List.forall_mem_cons.mpr ⟨
    (label_store_ok fR tv (8 * k.val + 3) (chunk_inb4 k 3) (k0_off8 k 3#32) (k0_off8_inb k 3) (off8_eq16 k 3) _
      (congrArg (k0_pay10 (k0_pay22 tv)) (lanes_readAt_sR fR (k0_off8 k 3#32) (k0_off8_inb k 3) _ (chunk_inb4 k 3) (off8_eq16 k 3)))),
    List.forall_mem_cons.mpr ⟨
    (label_store_ok fR tv (8 * k.val + 2) (chunk_inb4 k 2) (k0_off8 k 2#32) (k0_off8_inb k 2) (off8_eq16 k 2) _
      (congrArg (k0_pay10 (k0_pay22 tv)) (lanes_readAt_sR fR (k0_off8 k 2#32) (k0_off8_inb k 2) _ (chunk_inb4 k 2) (off8_eq16 k 2)))),
    List.forall_mem_cons.mpr ⟨
    (label_store_ok fR tv (8 * k.val + 1) (chunk_inb4 k 1) (k0_off8 k 1#32) (k0_off8_inb k 1) (off8_eq16 k 1) _
      (congrArg (k0_pay10 (k0_pay22 tv)) (lanes_readAt_sR fR (k0_off8 k 1#32) (k0_off8_inb k 1) _ (chunk_inb4 k 1) (off8_eq16 k 1)))),
    List.forall_mem_cons.mpr ⟨
    (label_store_ok fR tv (8 * k.val + 0) (chunk_inb4 k 0) (k0_off8 k 0#32) (k0_off8_inb k 0) (off8_eq16 k 0) _
      (congrArg (k0_pay10 (k0_pay22 tv)) (lanes_readAt_sR fR (k0_off8 k 0#32) (k0_off8_inb k 0) _ (chunk_inb4 k 0) (off8_eq16 k 0)))),
    fun _ h => absurd h List.not_mem_nil⟩⟩⟩⟩⟩⟩⟩⟩)
    (cover8_off8 k _ _ _ _ _ _ _ _)

/-! ## A delivered row is the kernel's labels on that row -/

/-- The result at an element of row `row` that is lane `x` of chunk `n`. -/
theorem OutBuf_eq (A B : S40960.Idx → Elt F .f32) (Tt : S16384.Idx → Elt F .f32) (idx : S1024x40960.Idx) (row n : Nat)
    (hrow : 16 * row + 16 ≤ 16384) (hn : 16 * n + 16 ≤ 40960) (x : S16.Idx) (h0 : (idx 0).val = row) (h1 : (idx 1).val = 16 * n + (x 0).val) :
    OutBuf A B Tt idx = k0_pay10 (k0_pay22 (lanes Tt row hrow)) (k0_pay3 (lanes A n hn) (lanes B n hn)) x := by
  have hx : (x 0).val < 16 := (x 0).isLt
  have hq : (idx 1).val / 16 = n := by omega
  have hr : (idx 1).val % 16 = (x 0).val := by omega
  unfold OutBuf
  simp only []
  rw [lanes_congr Tt h0, lanes_congr A hq, lanes_congr B hq]
  congr 1
  funext a
  match a with
  | ⟨0, _⟩ => exact Fin.ext hr

/-- Chunk `n` of a buffer of ratios is the quotient of chunk `n` of the inputs. -/
theorem lanes_ratio (A B fR : S40960.Idx → Elt F .f32) (hR : ∀ y, fR y = ratioAt A B y) (n : Nat) (hn : 16 * n + 16 ≤ 40960) :
    lanes fR n hn = k0_pay3 (lanes A n hn) (lanes B n hn) := by
  funext l
  show fR _ = _
  rw [hR]
  exact ratioAt_eq A B _ n hn l rfl

/-- The task's 512 thresholds are entries `16 (512 c + 32 s) …` of `t`: sixteen of them from entry `16 m` of the task's are
    sixteen of `t` from entry `16 (512 c + 32 s + m)`. -/
theorem tSl_lanes (Tt : S16384.Idx → Elt F .f32) (L : grid0.Coords) (m : Nat) (hm : 16 * m + 16 ≤ 512)
    (hrow : 16 * (512 * (L 0).val + 32 * (L 1).val + m) + 16 ≤ 16384) :
    lanes ((tSl L).view.read (Elt F) Tt) m hm = lanes Tt (512 * (L 0).val + 32 * (L 1).val + m) hrow := by
  funext l
  show Tt _ = Tt _
  congr 1
  funext a
  match a with
  | ⟨0, _⟩ =>
    apply Fin.ext
    show k0_off1 L 0 + 1 * (16 * m + (l 0).val) = 16 * (512 * (L 0).val + 32 * (L 1).val + m) + (l 0).val
    rw [k0_off1_eq]
    show 8192 * (L 0).val + 512 * (L 1).val + 1 * (16 * m + (l 0).val) = _
    omega

/-- Where row `2 g + r` of a task puts entry `y` of a 40960-entry buffer: row `512 c + 32 s + 2 g + r`, column `y`. -/
theorem oRow_emb_val (L : grid0.Coords) (g : Fin k0_t2_loop.trips) (r : Fin 2) (y : S40960.Idx) :
    ((((oRow L g r).view.emb y : S1024x40960.Idx)) 0).val = 512 * (L 0).val + 32 * (L 1).val + 2 * g.val + r.val
      ∧ ((((oRow L g r).view.emb y : S1024x40960.Idx)) 1).val = (y 0).val := by
  obtain ⟨z, hz, hrm⟩ : ∃ z : (Rect.unit (s := S1024x40960) (k0_off6 L g (BitVec.ofNat 32 r.val)) S1x40960.size (k0_off6_inb L g r)).shape.Idx,
      ((oRow L g r).view.emb y : S1024x40960.Idx) = (Rect.unit (s := S1024x40960) (k0_off6 L g (BitVec.ofNat 32 r.val)) S1x40960.size (k0_off6_inb L g r)).emb z
        ∧ (((⟨2, S1x40960.size⟩ : Shape).rowMajor z : Nat)) = S40960.rowMajor y :=
    ⟨Shape.reshapeEquiv _ y, rfl, Shape.rowMajor_reshapeEquiv _ y⟩
  rw [hz]
  have e0 : (((Rect.unit (s := S1024x40960) (k0_off6 L g (BitVec.ofNat 32 r.val)) S1x40960.size (k0_off6_inb L g r)).emb z) 0).val
      = k0_off6 L g (BitVec.ofNat 32 r.val) 0 + 1 * (z 0).val := rfl
  have e1 : (((Rect.unit (s := S1024x40960) (k0_off6 L g (BitVec.ofNat 32 r.val)) S1x40960.size (k0_off6_inb L g r)).emb z) 1).val
      = k0_off6 L g (BitVec.ofNat 32 r.val) 1 + 1 * (z 1).val := rfl
  have hz0 : (z 0).val < 1 := (z 0).isLt
  have hz1 : (z 1).val < 40960 := (z 1).isLt
  rw [Shape.rowMajor_val_two, Shape.rowMajor_val_one] at hrm
  have hrm' : (z 0).val * 40960 + (z 1).val = (y 0).val := hrm
  have o0 : k0_off6 L g (BitVec.ofNat 32 r.val) 0 = 512 * (L 0).val + 32 * (L 1).val + 2 * g.val + r.val := by rw [k0_off6_eq]; rfl
  have o1 : k0_off6 L g (BitVec.ofNat 32 r.val) 1 = 0 := by rw [k0_off6_eq]; rfl
  rw [e0, e1]
  omega

/-- A 40960-entry buffer of labels, delivered whole into row `2 g + r` of a task, leaves the kernel's result on that row. -/
theorem row_labels_gen (A B : S40960.Idx → Elt F .f32) (Tt : S16384.Idx → Elt F .f32) (fR buf : S40960.Idx → Elt F .f32)
    (L : grid0.Coords) (g : Fin k0_t2_loop.trips) (r : Fin 2) (tv : Vec F S16 .f32)
    (htv : tv = lanes ((tSl L).view.read (Elt F) Tt) (2 * g.val + r.val) (row_inb g r))
    (hR : ∀ y, fR y = ratioAt A B y) (hbuf : ∀ y, buf y = labelAt fR tv y) (fd : S1024x40960.Idx → Elt F .f32) :
    ∀ i ∈ (oRow L g r).view.set, (oRow L g r).view.writes (Elt F) fd [⟨Rect.whole S40960, buf⟩] i = OutBuf A B Tt i := by
  intro i hi
  rw [← View.write_univ_eq_writes_whole (oRow L g r).view fd [] buf, View.writes_nil]
  obtain ⟨y, -, rfl⟩ := Finset.mem_map.mp hi
  rw [View.write_emb_of_mem _ _ (Finset.mem_univ y)]
  show buf y = _
  obtain ⟨h0, h1⟩ := oRow_emb_val L g r y
  have hy : (y 0).val < 40960 := (y 0).isLt
  have hc : (L 0).val < 2 := (L 0).isLt
  have hs : (L 1).val < 16 := (L 1).isLt
  have hg : g.val < 16 := (show k0_t2_loop.trips = 16 by decide) ▸ g.isLt
  have hr : r.val < 2 := r.isLt
  have hn : 16 * ((y 0).val / 16) + 16 ≤ 40960 := by omega
  have hrow : 16 * (512 * (L 0).val + 32 * (L 1).val + (2 * g.val + r.val)) + 16 ≤ 16384 := by omega
  have hxy : (y 0).val = 16 * ((y 0).val / 16) + ((ix1 (n := 16) ⟨(y 0).val % 16, Nat.mod_lt _ (by decide)⟩ : S16.Idx) 0).val := by
    show (y 0).val = 16 * ((y 0).val / 16) + (y 0).val % 16
    omega
  rw [hbuf y, labelAt_eq fR tv y ((y 0).val / 16) hn (ix1 ⟨(y 0).val % 16, Nat.mod_lt _ (by decide)⟩) hxy,
    OutBuf_eq A B Tt _ (512 * (L 0).val + 32 * (L 1).val + (2 * g.val + r.val)) ((y 0).val / 16) hrow hn (ix1 ⟨(y 0).val % 16, Nat.mod_lt _ (by decide)⟩)
      (by rw [h0]; omega) (h1.trans hxy),
    lanes_ratio A B fR hR, htv, tSl_lanes Tt L (2 * g.val + r.val) (row_inb g r) hrow]

/-- The first row of pair `g`: its thresholds are the sixteen the task's scratch copy holds from entry `32 g`. -/
theorem row_labels0 (A B : S40960.Idx → Elt F .f32) (Tt : S16384.Idx → Elt F .f32) (fR buf : S40960.Idx → Elt F .f32)
    (L : grid0.Coords) (g : Fin k0_t2_loop.trips) (hR : ∀ y, fR y = ratioAt A B y)
    (hbuf : ∀ y, buf y = labelAt fR (sT.view.readAt (Elt F) (Rect.unit (s := S512) (k0_off3 g 0#32) S16.size (k0_off3_inb g 0)).toLoadRect
      ((tSl L).view.read (Elt F) Tt)) y) (fd : S1024x40960.Idx → Elt F .f32) :
    ∀ i ∈ (oRow L g 0).view.set, (oRow L g 0).view.writes (Elt F) fd [⟨Rect.whole S40960, buf⟩] i = OutBuf A B Tt i :=
  row_labels_gen A B Tt fR buf L g 0 _ (lanes_readAt_sT _ _ _ _ (row_inb g 0) (off3_eq16 g 0)) hR hbuf fd

/-- The second row of pair `g`: its thresholds are the sixteen from entry `32 g + 16`. -/
theorem row_labels1 (A B : S40960.Idx → Elt F .f32) (Tt : S16384.Idx → Elt F .f32) (fR buf : S40960.Idx → Elt F .f32)
    (L : grid0.Coords) (g : Fin k0_t2_loop.trips) (hR : ∀ y, fR y = ratioAt A B y)
    (hbuf : ∀ y, buf y = labelAt fR (sT.view.readAt (Elt F) (Rect.unit (s := S512) (k0_off3 g 1#32) S16.size (k0_off3_inb g 1)).toLoadRect
      ((tSl L).view.read (Elt F) Tt)) y) (fd : S1024x40960.Idx → Elt F .f32) :
    ∀ i ∈ (oRow L g 1).view.set, (oRow L g 1).view.writes (Elt F) fd [⟨Rect.whole S40960, buf⟩] i = OutBuf A B Tt i :=
  row_labels_gen A B Tt fR buf L g 1 _ (lanes_readAt_sT _ _ _ _ (row_inb g 1) (off3_eq16 g 1)) hR hbuf fd

end Cert.Proof.KB

end
-- ==== Proof.BTileBody.lean ====
/-
  One vector subcore's task of the labelling kernel, run from what the task is handed to what it hands back.

  The task copies the two inputs `a` and `b` whole and its 512 thresholds into its own memory, stores the 40960
  quotients `a k / b k` (a loop of 320 trips, eight sixteen-lane chunks a trip), and then, two rows a trip for 16 trips,
  compares every quotient with the row's threshold vector, stores the 40960 labels of the row in one of two buffers and
  starts the transfer of that buffer into the row of the result; a buffer is written again only after the transfer that
  reads it has been waited for (at the next trip, or after the loop for the last two rows). So between trips two
  transfers are in flight, each holding its buffer and its row until its wait: the row loop's invariant says, before
  trip `g`, which rows hold the labels (those of trips before `g - 1`), which are away (those of trip `g - 1`) and which
  still hold the launch contents, and that each buffer with its semaphore is either free (first trip) or away in the
  transfer of its row of trip `g - 1`, which delivers that row AT THE LABELS. The loops' value facts — what eight stores
  of a trip add to the stored prefix, and that a delivered buffer is the result's row — are stated entry by entry in the
  module of pure facts; here is the run.
-/
import proofs.«210286_g62405874811728_cont_9to1_m_386_18_alg».proof.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«210286_g62405874811728_cont_9to1_m_386_18_alg».proof.Proof.Gen.Kernel
import proofs.«210286_g62405874811728_cont_9to1_m_386_18_alg».proof.Proof.Gen.Kernel.Skeleton
import proofs.«210286_g62405874811728_cont_9to1_m_386_18_alg».proof.Proof.BTileSpec
import proofs.«210286_g62405874811728_cont_9to1_m_386_18_alg».proof.Proof.BTileScoped
import proofs.«210286_g62405874811728_cont_9to1_m_386_18_alg».proof.Proof.BTileVals
import proofs.«210286_g62405874811728_cont_9to1_m_386_18_alg».proof.Proof.BTileRows
import proofs.«210286_g62405874811728_cont_9to1_m_386_18_alg».proof.Proof.BTilePure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}
local notation "𝕄" => MT nD τ sig (HIx 1) (Elt F) ℕ UU ℕ

section Tile
variable (d : Dev nD) (L : grid0.Coords)
variable (A : (d : Dev nD) → Buf (Elt F) (aLoc d)) (B : (d : Dev nD) → Buf (Elt F) (bLoc d))
  (Tt : (d : Dev nD) → Buf (Elt F) (tLoc d)) (O0 : (d : Dev nD) → Buf (Elt F) (oLoc d))
variable [FloatOps F]

omit [FloatOps F] in
theorem pts_a (q : PosShare TreeShare) (f : Buf (Elt F) (aLoc d)) :
    ((aW).view.loc (V d (cV L) (jV L)) ↦{q} f : sProp 𝕄) = aLoc d ↦{q} f := rfl
omit [FloatOps F] in
theorem pts_b (q : PosShare TreeShare) (f : Buf (Elt F) (bLoc d)) :
    ((bW).view.loc (V d (cV L) (jV L)) ↦{q} f : sProp 𝕄) = bLoc d ↦{q} f := rfl
omit [FloatOps F] in
theorem pts_t (f : Buf (Elt F) (tLoc d)) :
    ((tSl L).view.loc (V d (cV L) (jV L)) ↦[(tSl L).view.set]{fullShare} f : sProp 𝕄) = tLoc d ↦[(tSl L).view.set]{fullShare} f := rfl
omit [FloatOps F] in
theorem pts_o (g : Fin k0_t2_loop.trips) (r : Fin 2) (f : Buf (Elt F) (oLoc d)) :
    ((oRow L g r).view.loc (V d (cV L) (jV L)) ↦[(oRow L g r).view.set]{fullShare} f : sProp 𝕄) = oLoc d ↦[(oRow L g r).view.set]{fullShare} f := rfl
omit [FloatOps F] in
theorem pts_sR (f : Buf (Elt F) ((V d (cV L) (jV L)).loc cc0_scratch0)) :
    ((sR).view.loc (V d (cV L) (jV L)) ↦{fullShare} f : sProp 𝕄) = (V d (cV L) (jV L)).loc cc0_scratch0 ↦{fullShare} f := rfl
omit [FloatOps F] in
theorem pts_s0 (f : Buf (Elt F) ((V d (cV L) (jV L)).loc cc0_scratch1)) :
    ((s0).view.loc (V d (cV L) (jV L)) ↦{fullShare} f : sProp 𝕄) = (V d (cV L) (jV L)).loc cc0_scratch1 ↦{fullShare} f := rfl
omit [FloatOps F] in
theorem pts_s1 (f : Buf (Elt F) ((V d (cV L) (jV L)).loc cc0_scratch2)) :
    ((s1).view.loc (V d (cV L) (jV L)) ↦{fullShare} f : sProp 𝕄) = (V d (cV L) (jV L)).loc cc0_scratch2 ↦{fullShare} f := rfl
omit [FloatOps F] in
theorem pts_sT (f : Buf (Elt F) ((V d (cV L) (jV L)).loc cc0_scratch3)) :
    ((sT).view.loc (V d (cV L) (jV L)) ↦{fullShare} f : sProp 𝕄) = (V d (cV L) (jV L)).loc cc0_scratch3 ↦{fullShare} f := rfl

/-! ## The invariants of the task's loops -/

/-- Before trip `k` of the division loop: the two inputs' copies untouched, the first `128 k` ratios stored. -/
def inv1 (fA : Buf (Elt F) ((V d (cV L) (jV L)).loc cc0_scratch1)) (fB : Buf (Elt F) ((V d (cV L) (jV L)).loc cc0_scratch2)) (k : Nat) (_ : PUnit) : sProp 𝕄 :=
  iprop(((s0).view.loc (V d (cV L) (jV L)) ↦{fullShare} fA) ∗ ((s1).view.loc (V d (cV L) (jV L)) ↦{fullShare} fB)
    ∗ ∃ f : Buf (Elt F) ((V d (cV L) (jV L)).loc cc0_scratch0), ((sR).view.loc (V d (cV L) (jV L)) ↦{fullShare} f)
        ∗ ⌜∀ y : S40960.Idx, (y 0).val < 128 * k → f y = ratioAt fA fB y⌝)

/-- Before trip `k` of a row's label loop into the first buffer: the ratios untouched, the first `128 k` labels stored. -/
def inv3 (fR : Buf (Elt F) ((V d (cV L) (jV L)).loc cc0_scratch0)) (tv : Vec F S16 .f32) (k : Nat) (_ : PUnit) : sProp 𝕄 :=
  iprop(((sR).view.loc (V d (cV L) (jV L)) ↦{fullShare} fR)
    ∗ ∃ f : Buf (Elt F) ((V d (cV L) (jV L)).loc cc0_scratch1), ((s0).view.loc (V d (cV L) (jV L)) ↦{fullShare} f)
        ∗ ⌜∀ y : S40960.Idx, (y 0).val < 128 * k → f y = labelAt fR tv y⌝)
/-- The same into the second buffer. -/
def inv4 (fR : Buf (Elt F) ((V d (cV L) (jV L)).loc cc0_scratch0)) (tv : Vec F S16 .f32) (k : Nat) (_ : PUnit) : sProp 𝕄 :=
  iprop(((sR).view.loc (V d (cV L) (jV L)) ↦{fullShare} fR)
    ∗ ∃ f : Buf (Elt F) ((V d (cV L) (jV L)).loc cc0_scratch2), ((s1).view.loc (V d (cV L) (jV L)) ↦{fullShare} f)
        ∗ ⌜∀ y : S40960.Idx, (y 0).val < 128 * k → f y = labelAt fR tv y⌝)

/-- The first label buffer and its semaphore before trip `g` of the row loop: free at the first trip, afterwards away
    in the transfer of row `(g - 1, 0)`, which delivers that row at the labels and the buffer back. -/
def slot0 (Out : Buf (Elt F) (oLoc d)) (g : Nat) : sProp 𝕄 :=
  if g = 0 then iprop(semVal (cS0 d (cV L) (jV L)) 0 ∗ ∃ f, (s0).view.loc (V d (cV L) (jV L)) ↦{fullShare} f)
  else iprop(∃ g1 : Fin k0_t2_loop.trips, ⌜g1.val + 1 = g⌝ ∗ ∃ l : Buf (Elt F) ((V d (cV L) (jV L)).loc cc0_scratch1),
      Transfers.Flight (countersEmb : UEmb Counters 𝕄) (V d (cV L) (jV L)) (SemLoc.dma cc0_scratch4.sem) default 1310720
        iprop(((oRow L g1 0).view.loc (V d (cV L) (jV L)) ↦[(oRow L g1 0).view.set]{fullShare} Out)
          ∗ ((s0).view.loc (V d (cV L) (jV L)) ↦[(s0).view.set]{fullShare} l))
      ∗ ((s0).view.loc (V d (cV L) (jV L)) ↦[Finset.univ \ (s0).view.set]{fullShare} l))
/-- The second label buffer and its semaphore likewise, with row `(g - 1, 1)`. -/
def slot1 (Out : Buf (Elt F) (oLoc d)) (g : Nat) : sProp 𝕄 :=
  if g = 0 then iprop(semVal (cS1 d (cV L) (jV L)) 0 ∗ ∃ f, (s1).view.loc (V d (cV L) (jV L)) ↦{fullShare} f)
  else iprop(∃ g1 : Fin k0_t2_loop.trips, ⌜g1.val + 1 = g⌝ ∗ ∃ l : Buf (Elt F) ((V d (cV L) (jV L)).loc cc0_scratch2),
      Transfers.Flight (countersEmb : UEmb Counters 𝕄) (V d (cV L) (jV L)) (SemLoc.dma cc0_scratch5.sem) default 1310720
        iprop(((oRow L g1 1).view.loc (V d (cV L) (jV L)) ↦[(oRow L g1 1).view.set]{fullShare} Out)
          ∗ ((s1).view.loc (V d (cV L) (jV L)) ↦[(s1).view.set]{fullShare} l))
      ∗ ((s1).view.loc (V d (cV L) (jV L)) ↦[Finset.univ \ (s1).view.set]{fullShare} l))

/-- Before trip `g` of the row loop. -/
def inv2 (fR : Buf (Elt F) ((V d (cV L) (jV L)).loc cc0_scratch0)) (fT : Buf (Elt F) ((V d (cV L) (jV L)).loc cc0_scratch3))
    (Oc0 Out : Buf (Elt F) (oLoc d)) (O : CellTallies nD τ sig (HIx 1)) (W : Waits sig (HIx 1)) (g : Nat) (_ : PUnit) : sProp 𝕄 :=
  iprop(Transfers.MayWaits (V d (cV L) (jV L)) (none : HIx 1) O
    ∗ ((sR).view.loc (V d (cV L) (jV L)) ↦{fullShare} fR) ∗ ((sT).view.loc (V d (cV L) (jV L)) ↦{fullShare} fT)
    ∗ slot0 d L Out g ∗ slot1 d L Out g
    ∗ rowsAt d L Oc0 Out g
    ∗ ∃ W', ⌜∀ p ∈ W', p ∈ W ∨ p.2 = none⌝ ∗ owes (V d (cV L) (jV L)) O W')

omit [FloatOps F] in
theorem slot0_zero (Out : Buf (Elt F) (oLoc d)) (g : Nat) (h : g = 0) :
    slot0 (F := F) d L Out g = iprop(semVal (cS0 d (cV L) (jV L)) 0 ∗ ∃ f, (s0).view.loc (V d (cV L) (jV L)) ↦{fullShare} f) := if_pos h
omit [FloatOps F] in
theorem slot1_zero (Out : Buf (Elt F) (oLoc d)) (g : Nat) (h : g = 0) :
    slot1 (F := F) d L Out g = iprop(semVal (cS1 d (cV L) (jV L)) 0 ∗ ∃ f, (s1).view.loc (V d (cV L) (jV L)) ↦{fullShare} f) := if_pos h
omit [FloatOps F] in
theorem slot0_pos (Out : Buf (Elt F) (oLoc d)) (g : Nat) (h : g ≠ 0) :
    slot0 (F := F) d L Out g = iprop(∃ g1 : Fin k0_t2_loop.trips, ⌜g1.val + 1 = g⌝ ∗ ∃ l : Buf (Elt F) ((V d (cV L) (jV L)).loc cc0_scratch1),
      Transfers.Flight (countersEmb : UEmb Counters 𝕄) (V d (cV L) (jV L)) (SemLoc.dma cc0_scratch4.sem) default 1310720
        iprop(((oRow L g1 0).view.loc (V d (cV L) (jV L)) ↦[(oRow L g1 0).view.set]{fullShare} Out)
          ∗ ((s0).view.loc (V d (cV L) (jV L)) ↦[(s0).view.set]{fullShare} l))
      ∗ ((s0).view.loc (V d (cV L) (jV L)) ↦[Finset.univ \ (s0).view.set]{fullShare} l)) := if_neg h
omit [FloatOps F] in
theorem slot1_pos (Out : Buf (Elt F) (oLoc d)) (g : Nat) (h : g ≠ 0) :
    slot1 (F := F) d L Out g = iprop(∃ g1 : Fin k0_t2_loop.trips, ⌜g1.val + 1 = g⌝ ∗ ∃ l : Buf (Elt F) ((V d (cV L) (jV L)).loc cc0_scratch2),
      Transfers.Flight (countersEmb : UEmb Counters 𝕄) (V d (cV L) (jV L)) (SemLoc.dma cc0_scratch5.sem) default 1310720
        iprop(((oRow L g1 1).view.loc (V d (cV L) (jV L)) ↦[(oRow L g1 1).view.set]{fullShare} Out)
          ∗ ((s1).view.loc (V d (cV L) (jV L)) ↦[(s1).view.set]{fullShare} l))
      ∗ ((s1).view.loc (V d (cV L) (jV L)) ↦[Finset.univ \ (s1).view.set]{fullShare} l)) := if_neg h

theorem cond1_spec : ∀ k : Fin k0_t2_loop.trips, (k0_cond1 k = 1#1 ↔ k.val ≠ 0) := by decide
theorem cond2_spec : ∀ k : Fin k0_t2_loop.trips, (k0_cond2 k = 1#1 ↔ k.val ≠ 0) := by decide

omit [FloatOps F] in
theorem waits_insert {X Y : Waits sig (HIx 1)} (s : SemLoc sig) (h : ∀ p ∈ X, p ∈ Y ∨ p.2 = none) :
    ∀ p ∈ insert (s, (default : HIx 1)) X, p ∈ Y ∨ p.2 = none := by
  intro p hp
  rcases Finset.mem_insert.mp hp with rfl | hp
  · exact .inr rfl
  · exact h p hp

set_option maxHeartbeats 4000000 in
theorem tile_body : TileBodyStmt (F := F) A B Tt O0 := by
  intro hF d L O W hO
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn tileOut tileRes
  iintro ⟨#Hlv, -, ⟨Ha, Hb, Ht, Ho⟩, ⟨⟨%fr, Hr⟩, ⟨%f0, H0⟩, ⟨%f1, H1⟩, ⟨%ft, Hts⟩, Hbufs⟩, ⟨HsemS0, HsemS1, HsemR0, HsemR1, HsemR2, Hsems⟩, HO⟩
  ihave Hmw := ((K (F := F)).mayWaits_none (thr := V d (cV L) (jV L)) hO) $$ Hlv
  ihave Ha' := (Entails.of_eq (pts_a (F := F) d L _ _).symm) $$ Ha
  ihave Hb' := (Entails.of_eq (pts_b (F := F) d L _ _).symm) $$ Hb
  ihave Ht' := (Entails.of_eq (pts_t (F := F) d L _).symm) $$ Ht
  ihave Hr' := (Entails.of_eq (pts_sR (F := F) d L _).symm) $$ Hr
  ihave H0' := (Entails.of_eq (pts_s0 (F := F) d L _).symm) $$ H0
  ihave H1' := (Entails.of_eq (pts_s1 (F := F) d L _).symm) $$ H1
  ihave Hts' := (Entails.of_eq (pts_sT (F := F) d L _).symm) $$ Hts
  sl_exec
  have hA : View.write (Elt F) s0.view f0 (tile_body.sl.dma0 A d) Finset.univ = A d := View.write_whole_univ _ _ _
  have hB : View.write (Elt F) s1.view f1 (tile_body.sl.dma0_1 B d) Finset.univ = B d := View.write_whole_univ _ _ _
  have hT : View.write (Elt F) sT.view ft (tile_body.sl.dma0_2 Tt d L) Finset.univ = (tSl L).view.read (Elt F) (Tt d) := View.write_whole_univ _ _ _
  rw [hA, hB, hT]
  sl_for (inv1 d L (A d) (B d)) $$ [H0' H1' Hr']
  case region =>
    intro k _
    unfold inv1
    iintro ⟨H0, H1, %f, Hr, %hf⟩
    sl_exec
    sl_step
    isplitl [H0]; · iexact H0
    isplitl [H1]; · iexact H1
    iexists _; isplitl [Hr]; · iexact Hr
    ipureintro
    exact ratio_trip (A d) (B d) f k hf
  · unfold inv1
    isplitl [H0']; · iexact H0'
    isplitl [H1']; · iexact H1'
    iexists _; isplitl [Hr']; · iexact Hr'
    ipureintro; intro y hy; exact absurd hy (by omega)
  iintro %_ HI
  unfold inv1
  icases HI with ⟨H0, H1, %fR, Hr, %hR⟩
  ihave Hrows := (rowsAt_zero (F := F) d L (O0 d) (OutBuf (A d) (B d) (Tt d))) $$ Ho
  have h320a : Scf.trips k0_t1_loop.lb k0_t1_loop.ub k0_t1_loop.st = 320 := trips1
  have h320c : Scf.trips k0_t3_loop.lb k0_t3_loop.ub k0_t3_loop.st = 320 := trips3
  have h320d : Scf.trips k0_t4_loop.lb k0_t4_loop.ub k0_t4_loop.st = 320 := trips4
  have hRall : ∀ y : S40960.Idx, fR y = ratioAt (A d) (B d) y := fun y =>
    hR y (by have h : (y 0).val < 40960 := (y 0).isLt; rw [h320a]; omega)
  have hbase : ∀ p ∈ (insert (SemLoc.dma cc0_scoped2.sem, (default : HIx 1)) (insert (SemLoc.dma cc0_scoped1.sem, default) (insert (SemLoc.dma cc0_scoped0.sem, default) W))), p ∈ W ∨ p.2 = none :=
    waits_insert _ (waits_insert _ (waits_insert _ (fun p hp => .inl hp)))
  sl_for (inv2 d L fR (View.read (Elt F) (tSl L).view (Tt d)) (O0 d) (OutBuf (A d) (B d) (Tt d)) O
      (insert (SemLoc.dma cc0_scoped2.sem, default) (insert (SemLoc.dma cc0_scoped1.sem, default) (insert (SemLoc.dma cc0_scoped0.sem, default) W)))) $$ [Hr Hts' H0 H1 HsemS0 HsemS1 Hrows HO]
  case region =>
    intro k _
    unfold inv2
    iintro ⟨#Hmw', Hr, HT, Hs0, Hs1, Hrows, %W', %hW', HO⟩
    ihave Hrows' := (rowsAt_take (F := F) d L (O0 d) (OutBuf (A d) (B d) (Tt d)) k) $$ Hrows
    icases Hrows' with ⟨Hrow0, Hrow1, Hrest⟩
    ihave Hrow0' := (Entails.of_eq (pts_o (F := F) d L k 0 _).symm) $$ Hrow0
    ihave Hrow1' := (Entails.of_eq (pts_o (F := F) d L k 1 _).symm) $$ Hrow1
    by_cases hk : k.val = 0
    · have hk1 : ¬ k0_cond1 k = 1#1 := fun h => (cond1_spec k).mp h hk
      have hk2 : ¬ k0_cond2 k = 1#1 := fun h => (cond2_spec k).mp h hk
      ihave Hs0' := (Entails.of_eq (slot0_zero (F := F) d L _ k.val hk)) $$ Hs0
      ihave Hs1' := (Entails.of_eq (slot1_zero (F := F) d L _ k.val hk)) $$ Hs1
      icases Hs0' with ⟨Hc0, %b0, H0⟩
      icases Hs1' with ⟨Hc1, %b1, H1⟩
      have hWfin := hW'
      sl_exec
      sl_for (inv3 d L fR (View.readAt (Elt F) sT.view (Rect.unit (s := S512) (k0_off3 k 0#32) S16.size (k0_off3_inb k 0)).toLoadRect (View.read (Elt F) (tSl L).view (Tt d)))) $$ [Hr H0]
      case region =>
        intro k3 _
        unfold inv3
        iintro ⟨Hr, %f, H0, %hf⟩
        sl_exec
        sl_step
        isplitl [Hr]; · iexact Hr
        iexists _; isplitl [H0]; · iexact H0
        ipureintro
        exact label_trip0 fR f _ k3 hf
      · unfold inv3
        isplitl [Hr]; · iexact Hr
        iexists _; isplitl [H0]; · iexact H0
        ipureintro; intro y hy; exact absurd hy (by omega)
      iintro %_ HI
      unfold inv3
      icases HI with ⟨Hr, %l0, H0, %hl0⟩
      sl_exec
      sl_for (inv4 d L fR (View.readAt (Elt F) sT.view (Rect.unit (s := S512) (k0_off3 k 1#32) S16.size (k0_off3_inb k 1)).toLoadRect (View.read (Elt F) (tSl L).view (Tt d)))) $$ [Hr H1]
      case region =>
        intro k4 _
        unfold inv4
        iintro ⟨Hr, %f, H1, %hf⟩
        sl_exec
        sl_step
        isplitl [Hr]; · iexact Hr
        iexists _; isplitl [H1]; · iexact H1
        ipureintro
        exact label_trip1 fR f _ k4 hf
      · unfold inv4
        isplitl [Hr]; · iexact Hr
        iexists _; isplitl [H1]; · iexact H1
        ipureintro; intro y hy; exact absurd hy (by omega)
      iintro %_ HI
      unfold inv4
      icases HI with ⟨Hr, %l1, H1, %hl1⟩
      sl_exec
      have hD0 : ∀ i ∈ (oRow L k 0).view.set, (oRow L k 0).view.writes (Elt F) (O0 d) [⟨Rect.whole S40960, tile_body.sl.dma0_3 d L l0⟩] i = OutBuf (A d) (B d) (Tt d) i :=
        row_labels0 (A d) (B d) (Tt d) fR l0 L k hRall (fun y => hl0 y (by have h : (y 0).val < 40960 := (y 0).isLt; rw [h320c]; omega)) (O0 d)
      have hD1 : ∀ i ∈ (oRow L k 1).view.set, (oRow L k 1).view.writes (Elt F) (O0 d) [⟨Rect.whole S40960, tile_body.sl.dma0_4 d L l1⟩] i = OutBuf (A d) (B d) (Tt d) i :=
        row_labels1 (A d) (B d) (Tt d) fR l1 L k hRall (fun y => hl1 y (by have h : (y 0).val < 40960 := (y 0).isLt; rw [h320d]; omega)) (O0 d)
      ihave Hf0 := (Transfers.Flight_mono _ _ (sep_mono_left (Entails.of_eq (pointsTo_congr hD0)))) $$ Hc0
      ihave Hf1 := (Transfers.Flight_mono _ _ (sep_mono_left (Entails.of_eq (pointsTo_congr hD1)))) $$ Hc1
      sl_step
      isplitr; · iexact Hmw'
      isplitl [Hr]; · iexact Hr
      isplitl [HT]; · iexact HT
      isplitl [Hf0 H0]
      · iapply (Entails.of_eq (slot0_pos (F := F) d L _ (k.val + 1) (Nat.succ_ne_zero _)).symm)
        iexists k; isplitr; · ipureintro; rfl
        iexists l0; isplitl [Hf0]; · iexact Hf0
        iexact H0
      isplitl [Hf1 H1]
      · iapply (Entails.of_eq (slot1_pos (F := F) d L _ (k.val + 1) (Nat.succ_ne_zero _)).symm)
        iexists k; isplitr; · ipureintro; rfl
        iexists l1; isplitl [Hf1]; · iexact Hf1
        iexact H1
      isplitl [Hrest]
      · iapply (rowsAt_put_zero (F := F) d L (O0 d) (OutBuf (A d) (B d) (Tt d)) k hk); iexact Hrest
      iexists _; isplitr
      · ipureintro; exact hWfin
      · iexact HO

    · have hk1 : k0_cond1 k = 1#1 := (cond1_spec k).mpr hk
      have hk2 : k0_cond2 k = 1#1 := (cond2_spec k).mpr hk
      ihave Hs0' := (Entails.of_eq (slot0_pos (F := F) d L _ k.val hk)) $$ Hs0
      ihave Hs1' := (Entails.of_eq (slot1_pos (F := F) d L _ k.val hk)) $$ Hs1
      icases Hs0' with ⟨%g1, %hg1, %p0, Hc0, H0⟩
      icases Hs1' with ⟨%g1', %hg1', %p1, Hc1, H1⟩
      have hgg : g1 = g1' := Fin.ext (by omega)
      subst hgg
      have hWfin := waits_insert (SemLoc.dma cc0_scratch5.sem) (waits_insert (SemLoc.dma cc0_scratch4.sem) hW')
      sl_exec
      sl_for (inv3 d L fR (View.readAt (Elt F) sT.view (Rect.unit (s := S512) (k0_off3 k 0#32) S16.size (k0_off3_inb k 0)).toLoadRect (View.read (Elt F) (tSl L).view (Tt d)))) $$ [Hr H0]
      case region =>
        intro k3 _
        unfold inv3
        iintro ⟨Hr, %f, H0, %hf⟩
        sl_exec
        sl_step
        isplitl [Hr]; · iexact Hr
        iexists _; isplitl [H0]; · iexact H0
        ipureintro
        exact label_trip0 fR f _ k3 hf
      · unfold inv3
        isplitl [Hr]; · iexact Hr
        iexists _; isplitl [H0]; · iexact H0
        ipureintro; intro y hy; exact absurd hy (by omega)
      iintro %_ HI
      unfold inv3
      icases HI with ⟨Hr, %l0, H0, %hl0⟩
      sl_exec
      sl_for (inv4 d L fR (View.readAt (Elt F) sT.view (Rect.unit (s := S512) (k0_off3 k 1#32) S16.size (k0_off3_inb k 1)).toLoadRect (View.read (Elt F) (tSl L).view (Tt d)))) $$ [Hr H1]
      case region =>
        intro k4 _
        unfold inv4
        iintro ⟨Hr, %f, H1, %hf⟩
        sl_exec
        sl_step
        isplitl [Hr]; · iexact Hr
        iexists _; isplitl [H1]; · iexact H1
        ipureintro
        exact label_trip1 fR f _ k4 hf
      · unfold inv4
        isplitl [Hr]; · iexact Hr
        iexists _; isplitl [H1]; · iexact H1
        ipureintro; intro y hy; exact absurd hy (by omega)
      iintro %_ HI
      unfold inv4
      icases HI with ⟨Hr, %l1, H1, %hl1⟩
      sl_exec
      ihave Hd0 := (Entails.of_eq (pts_o (F := F) d L g1 0 _)) $$ Hc0_dst
      ihave Hd1 := (Entails.of_eq (pts_o (F := F) d L g1 1 _)) $$ Hc1_dst
      have hD0 : ∀ i ∈ (oRow L k 0).view.set, (oRow L k 0).view.writes (Elt F) (O0 d) [⟨Rect.whole S40960, tile_body.sl.dma0_3 d L l0⟩] i = OutBuf (A d) (B d) (Tt d) i :=
        row_labels0 (A d) (B d) (Tt d) fR l0 L k hRall (fun y => hl0 y (by have h : (y 0).val < 40960 := (y 0).isLt; rw [h320c]; omega)) (O0 d)
      have hD1 : ∀ i ∈ (oRow L k 1).view.set, (oRow L k 1).view.writes (Elt F) (O0 d) [⟨Rect.whole S40960, tile_body.sl.dma0_4 d L l1⟩] i = OutBuf (A d) (B d) (Tt d) i :=
        row_labels1 (A d) (B d) (Tt d) fR l1 L k hRall (fun y => hl1 y (by have h : (y 0).val < 40960 := (y 0).isLt; rw [h320d]; omega)) (O0 d)
      ihave Hf0 := (Transfers.Flight_mono _ _ (sep_mono_left (Entails.of_eq (pointsTo_congr hD0)))) $$ Hc0
      ihave Hf1 := (Transfers.Flight_mono _ _ (sep_mono_left (Entails.of_eq (pointsTo_congr hD1)))) $$ Hc1
      sl_step
      isplitr; · iexact Hmw'
      isplitl [Hr]; · iexact Hr
      isplitl [HT]; · iexact HT
      isplitl [Hf0 H0]
      · iapply (Entails.of_eq (slot0_pos (F := F) d L _ (k.val + 1) (Nat.succ_ne_zero _)).symm)
        iexists k; isplitr; · ipureintro; rfl
        iexists l0; isplitl [Hf0]; · iexact Hf0
        iexact H0
      isplitl [Hf1 H1]
      · iapply (Entails.of_eq (slot1_pos (F := F) d L _ (k.val + 1) (Nat.succ_ne_zero _)).symm)
        iexists k; isplitr; · ipureintro; rfl
        iexists l1; isplitl [Hf1]; · iexact Hf1
        iexact H1
      isplitl [Hd0 Hd1 Hrest]
      · iapply (rowsAt_put (F := F) d L (O0 d) (OutBuf (A d) (B d) (Tt d)) k g1 hg1)
        isplitl [Hd0]; · iexact Hd0
        isplitl [Hd1]; · iexact Hd1
        iexact Hrest
      iexists _; isplitr
      · ipureintro; exact hWfin
      · iexact HO

  · unfold inv2
    isplitr; · iexact Hmw
    isplitl [Hr]; · iexact Hr
    isplitl [Hts']; · iexact Hts'
    isplitl [HsemS0 H0]
    · iapply (Entails.of_eq (slot0_zero (F := F) d L _ 0 rfl).symm)
      isplitl [HsemS0]; · iexact HsemS0
      iexists _; iexact H0
    isplitl [HsemS1 H1]
    · iapply (Entails.of_eq (slot1_zero (F := F) d L _ 0 rfl).symm)
      isplitl [HsemS1]; · iexact HsemS1
      iexists _; iexact H1
    isplitl [Hrows]; · iexact Hrows
    iexists _; isplitr
    · ipureintro; exact fun p hp => .inl hp
    · iexact HO
  iintro %_ HI
  unfold inv2
  icases HI with ⟨-, Hr, HT, Hs0, Hs1, Hrows, %W', %hW', HO⟩
  have h16 : Scf.trips k0_t2_loop.lb k0_t2_loop.ub k0_t2_loop.st = 16 := by decide
  ihave Hs0' := (Entails.of_eq (slot0_pos (F := F) d L _ _ (by rw [h16]; decide))) $$ Hs0
  ihave Hs1' := (Entails.of_eq (slot1_pos (F := F) d L _ _ (by rw [h16]; decide))) $$ Hs1
  icases Hs0' with ⟨%g1, %hg1, %p0, Hc0, H0⟩
  icases Hs1' with ⟨%g1', %hg1', %p1, Hc1, H1⟩
  have hgg : g1 = g1' := Fin.ext (by omega)
  subst hgg
  ihave Hrows16 := (Entails.of_eq (congrArg (rowsAt (F := F) d L (O0 d) (OutBuf (A d) (B d) (Tt d))) h16)) $$ Hrows
  sl_exec
  sl_step
  ihave Ha := (Entails.of_eq (pts_a (F := F) d L _ _)) $$ Ha'
  ihave Hb := (Entails.of_eq (pts_b (F := F) d L _ _)) $$ Hb'
  ihave Ht := (Entails.of_eq (pts_t (F := F) d L _)) $$ Ht'
  ihave Hd0 := (Entails.of_eq (pts_o (F := F) d L g1 0 _)) $$ Hc0_dst
  ihave Hd1 := (Entails.of_eq (pts_o (F := F) d L g1 1 _)) $$ Hc1_dst
  isplitl [Ha Hb Ht Hd0 Hd1 Hrows16]
  · isplitl [Ha]; · iexact Ha
    isplitl [Hb]; · iexact Hb
    isplitl [Ht]; · iexact Ht
    iapply (rowsAt_last (F := F) d L (O0 d) (OutBuf (A d) (B d) (Tt d)) g1 (by omega))
    isplitl [Hd0]; · iexact Hd0
    isplitl [Hd1]; · iexact Hd1
    iexact Hrows16
  isplitl [Hr HT H0 H1 Hbufs]
  · isplitl [Hr]; · iexists _; iexact Hr
    isplitl [H0]; · iexists _; iexact H0
    isplitl [H1]; · iexists _; iexact H1
    isplitl [HT]; · iexists _; iexact HT
    iexact Hbufs
  isplitl [Hc0 Hc1 HsemR0 HsemR1 HsemR2 Hsems]
  · isplitl [Hc0]; · iexact Hc0
    isplitl [Hc1]; · iexact Hc1
    isplitl [HsemR0]; · iexact HsemR0
    isplitl [HsemR1]; · iexact HsemR1
    isplitl [HsemR2]; · iexact HsemR2
    iexact Hsems
  iexists _; isplitr
  · ipureintro; exact fun p hp => ((waits_insert (SemLoc.dma cc0_scratch5.sem) (waits_insert (SemLoc.dma cc0_scratch4.sem) hW')) p hp).elim (hbase p) .inr
  · iexact HO

end Tile
end Cert.Proof.KB
end
-- ==== Proof.Split.lean ====
/-
  The four arrays of the labelling kernel, split among the 32 vector subcores' tasks and joined back.

  Held whole, the arrays `a`, `b`, `t` and the result are the same resource as: what remains of `a` and of `b`
  after 32 read tokens are taken off, and, for each task (SparseCore `c`, subcore `s`, numbered `w = 16 c + s`),
  its token of `a`, its token of `b`, the 512 entries `8192 c + 512 s … 8192 c + 512 s + 511` of `t`, and the 32 rows
  `512 c + 32 s + 2 g + r` (`g < 16`, `r < 2`) of the result.

  Three facts carry it. The map `(c, s) ↦ 16 c + s` is a bijection of `Fin 2 × Fin 16` with `Fin 32`, so the 32 tokens
  are one per task. The 32 intervals of 512 thresholds are pairwise disjoint and cover the 16384 entries: entry `i`
  lies in the interval of `c = i / 8192`, `s = i % 8192 / 512` and in no other. An element of the result lies in
  the row set of `(c, s, g, r)` exactly when its first coordinate is `512 c + 32 s + 2 g + r`; that number determines
  `(c, s, g, r)` (mixed-radix digits), and every row number below 1024 is so written: the 1024 row sets are pairwise
  disjoint and cover the array. A points-to on a disjoint union is the separating sum of the points-to's on the parts.
-/
import proofs.«210286_g62405874811728_cont_9to1_m_386_18_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

namespace Split

/-! ## The index sets -/

theorem trips_eq : k0_t2_loop.trips = 16 := by decide

/-- The rectangle of a task's 512 thresholds. -/
abbrev tRect (L : grid0.Coords) : Rect S16384 := Rect.unit (s := S16384) (k0_off1 L) S512.size (k0_off1_inb L)

/-- The rectangle of one row of the result. -/
abbrev oRect (L : grid0.Coords) (g : Fin k0_t2_loop.trips) (r : Fin 2) : Rect S1024x40960 :=
  Rect.unit (s := S1024x40960) (k0_off6 L g (BitVec.ofNat 32 r.val)) S1x40960.size (k0_off6_inb L g r)

theorem tSl_set (L : grid0.Coords) : (tSl L).view.set = (tRect L).set := by
  show ((View.whole (main_v7_scv : Ref sig .scVector)).slice (tRect L)).set = _
  exact View.set_slice_whole _ _

theorem oRow_set (L : grid0.Coords) (g : Fin k0_t2_loop.trips) (r : Fin 2) : (oRow L g r).view.set = (oRect L g r).set := by
  show (((View.whole (main_v8_scv : Ref sig .scVector)).slice (oRect L g r)).reshape S40960 _).set = _
  rw [View.set_reshape]
  exact View.set_slice_whole _ _

theorem mem_tRect (L : grid0.Coords) (i : S16384.Idx) :
    i ∈ (tRect L).set ↔ 8192 * (L 0).val + 512 * (L 1).val ≤ (i 0).val ∧ (i 0).val < 8192 * (L 0).val + 512 * (L 1).val + 512 := by
  rw [Rect.mem_set_unit, Fin.forall_fin_one, k0_off1_eq]
  rfl

theorem mem_oRect (L : grid0.Coords) (g : Fin k0_t2_loop.trips) (r : Fin 2) (i : S1024x40960.Idx) :
    i ∈ (oRect L g r).set ↔ (i 0).val = 512 * (L 0).val + 32 * (L 1).val + 2 * g.val + r.val := by
  rw [Rect.mem_set_unit, Fin.forall_fin_two, k0_off6_eq]
  have h1 : (i 1).val < 40960 := (i 1).isLt
  constructor
  · rintro ⟨⟨h0, h0'⟩, -⟩
    have e : (![512 * (L 0).val + 32 * (L 1).val + 2 * g.val + r.val, 0] : Fin 2 → Nat) 0 = 512 * (L 0).val + 32 * (L 1).val + 2 * g.val + r.val := rfl
    have e' : S1x40960.size 0 = 1 := rfl
    rw [e] at h0 h0'; rw [e'] at h0'
    omega
  · intro h
    refine ⟨⟨?_, ?_⟩, ⟨Nat.zero_le _, ?_⟩⟩
    · show 512 * (L 0).val + 32 * (L 1).val + 2 * g.val + r.val ≤ _; omega
    · show _ < 512 * (L 0).val + 32 * (L 1).val + 2 * g.val + r.val + 1; omega
    · show (i 1).val < 0 + 40960; omega

/-! ## The thresholds: 32 slices of 512, disjoint, covering -/

/-- The tasks, as pairs (SparseCore, subcore). -/
abbrev Task : Type := Fin (grid0.bound 0) × Fin (grid0.bound 1)

theorem c_lt (c : Fin (grid0.bound 0)) : c.val < 2 := c.isLt
theorem s_lt (s : Fin (grid0.bound 1)) : s.val < 16 := s.isLt
theorem g_lt (g : Fin k0_t2_loop.trips) : g.val < 16 := trips_eq ▸ g.isLt

theorem tRect_disjoint (p p' : Task) (h : p ≠ p') :
    Disjoint (tRect (coordsV p.1 p.2)).set (tRect (coordsV p'.1 p'.2)).set := by
  rw [Finset.disjoint_left]
  intro i hi hi'
  rw [mem_tRect] at hi hi'
  have hc := c_lt p.1; have hs := s_lt p.2; have hc' := c_lt p'.1; have hs' := s_lt p'.2
  apply h
  have e0 : (coordsV p.1 p.2 0).val = p.1.val := rfl
  have e1 : (coordsV p.1 p.2 1).val = p.2.val := rfl
  have e0' : (coordsV p'.1 p'.2 0).val = p'.1.val := rfl
  have e1' : (coordsV p'.1 p'.2 1).val = p'.2.val := rfl
  rw [e0, e1] at hi; rw [e0', e1'] at hi'
  exact Prod.ext (Fin.ext (by omega)) (Fin.ext (by omega))

theorem tRect_cover : (Finset.univ : Finset Task).biUnion (fun p => (tRect (coordsV p.1 p.2)).set) = Finset.univ := by
  ext i
  simp only [Finset.mem_biUnion, Finset.mem_univ, true_and, iff_true]
  have hi : (i 0).val < 16384 := (i 0).isLt
  refine ⟨(⟨(i 0).val / 8192, ?_⟩, ⟨(i 0).val % 8192 / 512, ?_⟩), ?_⟩
  · show _ < 2; omega
  · show _ < 16; omega
  · rw [mem_tRect]
    show 8192 * ((i 0).val / 8192) + 512 * ((i 0).val % 8192 / 512) ≤ (i 0).val
      ∧ (i 0).val < 8192 * ((i 0).val / 8192) + 512 * ((i 0).val % 8192 / 512) + 512
    omega

/-! ## The result: 1024 rows, disjoint, covering -/

/-- A row of the result, named by its task, its pair of rows and its place in the pair. -/
abbrev RowIx : Type := Task × Fin k0_t2_loop.trips × Fin 2

theorem oRect_disjoint (p p' : RowIx) (h : p ≠ p') :
    Disjoint (oRect (coordsV p.1.1 p.1.2) p.2.1 p.2.2).set (oRect (coordsV p'.1.1 p'.1.2) p'.2.1 p'.2.2).set := by
  rw [Finset.disjoint_left]
  intro i hi hi'
  rw [mem_oRect] at hi hi'
  have hc := c_lt p.1.1; have hs := s_lt p.1.2; have hg := g_lt p.2.1; have hr : p.2.2.val < 2 := p.2.2.isLt
  have hc' := c_lt p'.1.1; have hs' := s_lt p'.1.2; have hg' := g_lt p'.2.1; have hr' : p'.2.2.val < 2 := p'.2.2.isLt
  apply h
  have e0 : (coordsV p.1.1 p.1.2 0).val = p.1.1.val := rfl
  have e1 : (coordsV p.1.1 p.1.2 1).val = p.1.2.val := rfl
  have e0' : (coordsV p'.1.1 p'.1.2 0).val = p'.1.1.val := rfl
  have e1' : (coordsV p'.1.1 p'.1.2 1).val = p'.1.2.val := rfl
  rw [e0, e1] at hi; rw [e0', e1'] at hi'
  exact Prod.ext (Prod.ext (Fin.ext (by omega)) (Fin.ext (by omega))) (Prod.ext (Fin.ext (by omega)) (Fin.ext (by omega)))

theorem oRect_cover : (Finset.univ : Finset RowIx).biUnion (fun p => (oRect (coordsV p.1.1 p.1.2) p.2.1 p.2.2).set) = Finset.univ := by
  ext i
  simp only [Finset.mem_biUnion, Finset.mem_univ, true_and, iff_true]
  have hi : (i 0).val < 1024 := (i 0).isLt
  refine ⟨((⟨(i 0).val / 512, ?_⟩, ⟨(i 0).val % 512 / 32, ?_⟩), ⟨(i 0).val % 32 / 2, ?_⟩, ⟨(i 0).val % 2, ?_⟩), ?_⟩
  · show _ < 2; omega
  · show _ < 16; omega
  · rw [trips_eq]; omega
  · omega
  · rw [mem_oRect]
    show (i 0).val = 512 * ((i 0).val / 512) + 32 * ((i 0).val % 512 / 32) + 2 * ((i 0).val % 32 / 2) + (i 0).val % 2
    omega

/-! ## Sums over the tasks -/

/-- The task's number is a bijection of the pairs (SparseCore, subcore) with the 32 numbers. -/
theorem wid_bijective : Function.Bijective fun p : Task => wid (coordsV p.1 p.2) := by
  rw [Fintype.bijective_iff_injective_and_card]
  refine ⟨fun p p' h => ?_, by show Fintype.card (Fin 2 × Fin 16) = Fintype.card (Fin 32); simp⟩
  have hv : 16 * p.1.val + p.2.val = 16 * p'.1.val + p'.2.val := congrArg Fin.val h
  have hs := s_lt p.2; have hs' := s_lt p'.2
  exact Prod.ext (Fin.ext (by omega)) (Fin.ext (by omega))

/-- A sum over the 32 numbers is the sum over SparseCores and subcores at the task's number. -/
theorem bigSep_wid (Φ : Fin 32 → sProp 𝕄) :
    bigSep Finset.univ Φ = bigSep Finset.univ fun c : Fin (grid0.bound 0) => bigSep Finset.univ fun s : Fin (grid0.bound 1) => Φ (wid (coordsV c s)) := by
  rw [bigSep_univ_equiv (Equiv.ofBijective _ wid_bijective) Φ, bigSep_univ_prod]
  rfl

/-- A sum over the rows of the result, task by task, pair by pair. -/
theorem bigSep_rows (Φ : RowIx → sProp 𝕄) :
    bigSep Finset.univ Φ = bigSep Finset.univ fun c : Fin (grid0.bound 0) => bigSep Finset.univ fun s : Fin (grid0.bound 1) =>
      bigSep Finset.univ fun g : Fin k0_t2_loop.trips => bigSep Finset.univ fun r : Fin 2 => Φ ((c, s), g, r) := by
  rw [bigSep_univ_prod, bigSep_univ_prod]
  refine bigSep_congr fun c _ => bigSep_congr fun s _ => ?_
  rw [bigSep_univ_prod]

/-! ## The four arrays -/

/-- An array every task reads whole: what remains after 32 read tokens, and one token per task. -/
theorem pts_toks (ℓ : Loc nD τ sig) (f : Buf (Elt F) ℓ) :
    (ℓ ↦{fullShare} f : sProp 𝕄) = iprop((ℓ ↦{Transfers.shareDrop fullShare 32} f)
      ∗ bigSep Finset.univ fun c : Fin (grid0.bound 0) => bigSep Finset.univ fun s : Fin (grid0.bound 1) =>
          ℓ ↦{Transfers.shareTok fullShare 32 (wid (coordsV c s))} f) := by
  rw [← bigSep_wid (fun i => (ℓ ↦{Transfers.shareTok fullShare 32 i} f : sProp 𝕄))]
  exact BI.equiv_iff.mp ⟨Transfers.pointsTo_toks_split fullShare 32, Transfers.pointsTo_toks_join fullShare 32⟩

/-- The thresholds: every task's 512 entries. -/
theorem tPts_tiles (d : Dev nD) (f : Buf (Elt F) (tLoc d)) :
    (tLoc d ↦{fullShare} f : sProp 𝕄) = bigSep Finset.univ fun c : Fin (grid0.bound 0) => bigSep Finset.univ fun s : Fin (grid0.bound 1) =>
      tLoc d ↦[(tSl (coordsV c s)).view.set]{fullShare} f := by
  have hd : ∀ p ∈ (Finset.univ : Finset Task), ∀ p' ∈ (Finset.univ : Finset Task), p ≠ p' →
      Disjoint ((tSl (coordsV p.1 p.2)).view.set : Finset (Idx (tLoc d))) (tSl (coordsV p'.1 p'.2)).view.set :=
    fun p _ p' _ h => by rw [tSl_set, tSl_set]; exact tRect_disjoint p p' h
  have hc : (Finset.univ : Finset Task).biUnion (fun p => ((tSl (coordsV p.1 p.2)).view.set : Finset (Idx (tLoc d)))) = Finset.univ :=
    (Finset.biUnion_congr rfl fun p _ => tSl_set _).trans tRect_cover
  rw [← bigSep_univ_prod (fun p : Task => (tLoc d ↦[(tSl (coordsV p.1 p.2)).view.set]{fullShare} f : sProp 𝕄)),
    ← pointsTo_biUnion Finset.univ (ℓ := tLoc d) (fun p : Task => (tSl (coordsV p.1 p.2)).view.set) hd, hc]

/-- The result: every task's 32 rows. -/
theorem oPts_rows (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun g : Fin k0_t2_loop.trips => bigSep Finset.univ fun r : Fin 2 =>
        oLoc d ↦[(oRow (coordsV c s) g r).view.set]{fullShare} f := by
  have hd : ∀ p ∈ (Finset.univ : Finset RowIx), ∀ p' ∈ (Finset.univ : Finset RowIx), p ≠ p' →
      Disjoint ((oRow (coordsV p.1.1 p.1.2) p.2.1 p.2.2).view.set : Finset (Idx (oLoc d))) (oRow (coordsV p'.1.1 p'.1.2) p'.2.1 p'.2.2).view.set :=
    fun p _ p' _ h => by rw [oRow_set, oRow_set]; exact oRect_disjoint p p' h
  have hc : (Finset.univ : Finset RowIx).biUnion (fun p => ((oRow (coordsV p.1.1 p.1.2) p.2.1 p.2.2).view.set : Finset (Idx (oLoc d)))) = Finset.univ :=
    (Finset.biUnion_congr rfl fun p _ => oRow_set _ _ _).trans oRect_cover
  rw [← bigSep_rows (fun p : RowIx => (oLoc d ↦[(oRow (coordsV p.1.1 p.1.2) p.2.1 p.2.2).view.set]{fullShare} f : sProp 𝕄)),
    ← pointsTo_biUnion Finset.univ (ℓ := oLoc d) (fun p : RowIx => (oRow (coordsV p.1.1 p.1.2) p.2.1 p.2.2).view.set) hd, hc]

end Split

open Split

/-! ## The split and the join -/

theorem split_tiles (A : (d : Dev nD) → Buf (Elt F) (aLoc d)) (B : (d : Dev nD) → Buf (Elt F) (bLoc d)) (Tt : (d : Dev nD) → Buf (Elt F) (tLoc d))
    (Oc : (d : Dev nD) → Buf (Elt F) (oLoc d)) : SplitStmt (F := F) A B Tt Oc := by
  intro d
  have hR : (bigSep Finset.univ fun c : Fin (grid0.bound 0) => bigSep Finset.univ fun s : Fin (grid0.bound 1) => tileRes A B Tt Oc d (coordsV c s))
      = iprop((bigSep Finset.univ fun c : Fin (grid0.bound 0) => bigSep Finset.univ fun s : Fin (grid0.bound 1) =>
            aLoc d ↦{Transfers.shareTok fullShare 32 (wid (coordsV c s))} A d)
        ∗ (bigSep Finset.univ fun c : Fin (grid0.bound 0) => bigSep Finset.univ fun s : Fin (grid0.bound 1) =>
            bLoc d ↦{Transfers.shareTok fullShare 32 (wid (coordsV c s))} B d)
        ∗ (tLoc d ↦{fullShare} Tt d) ∗ (oLoc d ↦{fullShare} Oc d)) := by
    unfold tileRes
    simp only [bigSep_sep']
    rw [← tPts_tiles, ← oPts_rows]
  rw [hR, pts_toks (aLoc d) (A d), pts_toks (bLoc d) (B d)]
  constructor
  · iintro ⟨⟨HaD, HaT⟩, ⟨HbD, HbT⟩, Ht, Ho⟩
    isplitl [HaD]; · iexact HaD
    isplitl [HbD]; · iexact HbD
    isplitl [HaT]; · iexact HaT
    isplitl [HbT]; · iexact HbT
    isplitl [Ht]; · iexact Ht
    iexact Ho
  · iintro ⟨HaD, HbD, HaT, HbT, Ht, Ho⟩
    isplitl [HaD HaT]
    · isplitl [HaD]; · iexact HaD
      iexact HaT
    isplitl [HbD HbT]
    · isplitl [HbD]; · iexact HbD
      iexact HbT
    isplitl [Ht]; · iexact Ht
    iexact Ho

end Cert.Proof.KI

end
-- ==== Proof.BSplit.lean ====
/-
  The four arrays of the labelling kernel, split among the 32 vector subcores' tasks and joined back.

  Held whole, the arrays `a`, `b`, `t` and the result are the same resource as: what remains of `a` and of `b`
  after 32 read tokens are taken off, and, for each task (SparseCore `c`, subcore `s`, numbered `w = 16 c + s`),
  its token of `a`, its token of `b`, the 512 entries `8192 c + 512 s … 8192 c + 512 s + 511` of `t`, and the 32 rows
  `512 c + 32 s + 2 g + r` (`g < 16`, `r < 2`) of the result.

  Three facts carry it. The map `(c, s) ↦ 16 c + s` is a bijection of `Fin 2 × Fin 16` with `Fin 32`, so the 32 tokens
  are one per task. The 32 intervals of 512 thresholds are pairwise disjoint and cover the 16384 entries: entry `i`
  lies in the interval of `c = i / 8192`, `s = i % 8192 / 512` and in no other. An element of the result lies in
  the row set of `(c, s, g, r)` exactly when its first coordinate is `512 c + 32 s + 2 g + r`; that number determines
  `(c, s, g, r)` (mixed-radix digits), and every row number below 1024 is so written: the 1024 row sets are pairwise
  disjoint and cover the array. A points-to on a disjoint union is the separating sum of the points-to's on the parts.
-/
import proofs.«210286_g62405874811728_cont_9to1_m_386_18_alg».proof.Proof.BTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

namespace Split

/-! ## The index sets -/

theorem trips_eq : k0_t2_loop.trips = 16 := by decide

/-- The rectangle of a task's 512 thresholds. -/
abbrev tRect (L : grid0.Coords) : Rect S16384 := Rect.unit (s := S16384) (k0_off1 L) S512.size (k0_off1_inb L)

/-- The rectangle of one row of the result. -/
abbrev oRect (L : grid0.Coords) (g : Fin k0_t2_loop.trips) (r : Fin 2) : Rect S1024x40960 :=
  Rect.unit (s := S1024x40960) (k0_off6 L g (BitVec.ofNat 32 r.val)) S1x40960.size (k0_off6_inb L g r)

theorem tSl_set (L : grid0.Coords) : (tSl L).view.set = (tRect L).set := by
  show ((View.whole (main_v7_scv : Ref sig .scVector)).slice (tRect L)).set = _
  exact View.set_slice_whole _ _

theorem oRow_set (L : grid0.Coords) (g : Fin k0_t2_loop.trips) (r : Fin 2) : (oRow L g r).view.set = (oRect L g r).set := by
  show (((View.whole (main_v8_scv : Ref sig .scVector)).slice (oRect L g r)).reshape S40960 _).set = _
  rw [View.set_reshape]
  exact View.set_slice_whole _ _

theorem mem_tRect (L : grid0.Coords) (i : S16384.Idx) :
    i ∈ (tRect L).set ↔ 8192 * (L 0).val + 512 * (L 1).val ≤ (i 0).val ∧ (i 0).val < 8192 * (L 0).val + 512 * (L 1).val + 512 := by
  rw [Rect.mem_set_unit, Fin.forall_fin_one, k0_off1_eq]
  rfl

theorem mem_oRect (L : grid0.Coords) (g : Fin k0_t2_loop.trips) (r : Fin 2) (i : S1024x40960.Idx) :
    i ∈ (oRect L g r).set ↔ (i 0).val = 512 * (L 0).val + 32 * (L 1).val + 2 * g.val + r.val := by
  rw [Rect.mem_set_unit, Fin.forall_fin_two, k0_off6_eq]
  have h1 : (i 1).val < 40960 := (i 1).isLt
  constructor
  · rintro ⟨⟨h0, h0'⟩, -⟩
    have e : (![512 * (L 0).val + 32 * (L 1).val + 2 * g.val + r.val, 0] : Fin 2 → Nat) 0 = 512 * (L 0).val + 32 * (L 1).val + 2 * g.val + r.val := rfl
    have e' : S1x40960.size 0 = 1 := rfl
    rw [e] at h0 h0'; rw [e'] at h0'
    omega
  · intro h
    refine ⟨⟨?_, ?_⟩, ⟨Nat.zero_le _, ?_⟩⟩
    · show 512 * (L 0).val + 32 * (L 1).val + 2 * g.val + r.val ≤ _; omega
    · show _ < 512 * (L 0).val + 32 * (L 1).val + 2 * g.val + r.val + 1; omega
    · show (i 1).val < 0 + 40960; omega

/-! ## The thresholds: 32 slices of 512, disjoint, covering -/

/-- The tasks, as pairs (SparseCore, subcore). -/
abbrev Task : Type := Fin (grid0.bound 0) × Fin (grid0.bound 1)

theorem c_lt (c : Fin (grid0.bound 0)) : c.val < 2 := c.isLt
theorem s_lt (s : Fin (grid0.bound 1)) : s.val < 16 := s.isLt
theorem g_lt (g : Fin k0_t2_loop.trips) : g.val < 16 := trips_eq ▸ g.isLt

theorem tRect_disjoint (p p' : Task) (h : p ≠ p') :
    Disjoint (tRect (coordsV p.1 p.2)).set (tRect (coordsV p'.1 p'.2)).set := by
  rw [Finset.disjoint_left]
  intro i hi hi'
  rw [mem_tRect] at hi hi'
  have hc := c_lt p.1; have hs := s_lt p.2; have hc' := c_lt p'.1; have hs' := s_lt p'.2
  apply h
  have e0 : (coordsV p.1 p.2 0).val = p.1.val := rfl
  have e1 : (coordsV p.1 p.2 1).val = p.2.val := rfl
  have e0' : (coordsV p'.1 p'.2 0).val = p'.1.val := rfl
  have e1' : (coordsV p'.1 p'.2 1).val = p'.2.val := rfl
  rw [e0, e1] at hi; rw [e0', e1'] at hi'
  exact Prod.ext (Fin.ext (by omega)) (Fin.ext (by omega))

theorem tRect_cover : (Finset.univ : Finset Task).biUnion (fun p => (tRect (coordsV p.1 p.2)).set) = Finset.univ := by
  ext i
  simp only [Finset.mem_biUnion, Finset.mem_univ, true_and, iff_true]
  have hi : (i 0).val < 16384 := (i 0).isLt
  refine ⟨(⟨(i 0).val / 8192, ?_⟩, ⟨(i 0).val % 8192 / 512, ?_⟩), ?_⟩
  · show _ < 2; omega
  · show _ < 16; omega
  · rw [mem_tRect]
    show 8192 * ((i 0).val / 8192) + 512 * ((i 0).val % 8192 / 512) ≤ (i 0).val
      ∧ (i 0).val < 8192 * ((i 0).val / 8192) + 512 * ((i 0).val % 8192 / 512) + 512
    omega

/-! ## The result: 1024 rows, disjoint, covering -/

/-- A row of the result, named by its task, its pair of rows and its place in the pair. -/
abbrev RowIx : Type := Task × Fin k0_t2_loop.trips × Fin 2

theorem oRect_disjoint (p p' : RowIx) (h : p ≠ p') :
    Disjoint (oRect (coordsV p.1.1 p.1.2) p.2.1 p.2.2).set (oRect (coordsV p'.1.1 p'.1.2) p'.2.1 p'.2.2).set := by
  rw [Finset.disjoint_left]
  intro i hi hi'
  rw [mem_oRect] at hi hi'
  have hc := c_lt p.1.1; have hs := s_lt p.1.2; have hg := g_lt p.2.1; have hr : p.2.2.val < 2 := p.2.2.isLt
  have hc' := c_lt p'.1.1; have hs' := s_lt p'.1.2; have hg' := g_lt p'.2.1; have hr' : p'.2.2.val < 2 := p'.2.2.isLt
  apply h
  have e0 : (coordsV p.1.1 p.1.2 0).val = p.1.1.val := rfl
  have e1 : (coordsV p.1.1 p.1.2 1).val = p.1.2.val := rfl
  have e0' : (coordsV p'.1.1 p'.1.2 0).val = p'.1.1.val := rfl
  have e1' : (coordsV p'.1.1 p'.1.2 1).val = p'.1.2.val := rfl
  rw [e0, e1] at hi; rw [e0', e1'] at hi'
  exact Prod.ext (Prod.ext (Fin.ext (by omega)) (Fin.ext (by omega))) (Prod.ext (Fin.ext (by omega)) (Fin.ext (by omega)))

theorem oRect_cover : (Finset.univ : Finset RowIx).biUnion (fun p => (oRect (coordsV p.1.1 p.1.2) p.2.1 p.2.2).set) = Finset.univ := by
  ext i
  simp only [Finset.mem_biUnion, Finset.mem_univ, true_and, iff_true]
  have hi : (i 0).val < 1024 := (i 0).isLt
  refine ⟨((⟨(i 0).val / 512, ?_⟩, ⟨(i 0).val % 512 / 32, ?_⟩), ⟨(i 0).val % 32 / 2, ?_⟩, ⟨(i 0).val % 2, ?_⟩), ?_⟩
  · show _ < 2; omega
  · show _ < 16; omega
  · rw [trips_eq]; omega
  · omega
  · rw [mem_oRect]
    show (i 0).val = 512 * ((i 0).val / 512) + 32 * ((i 0).val % 512 / 32) + 2 * ((i 0).val % 32 / 2) + (i 0).val % 2
    omega

/-! ## Sums over the tasks -/

/-- The task's number is a bijection of the pairs (SparseCore, subcore) with the 32 numbers. -/
theorem wid_bijective : Function.Bijective fun p : Task => wid (coordsV p.1 p.2) := by
  rw [Fintype.bijective_iff_injective_and_card]
  refine ⟨fun p p' h => ?_, by show Fintype.card (Fin 2 × Fin 16) = Fintype.card (Fin 32); simp⟩
  have hv : 16 * p.1.val + p.2.val = 16 * p'.1.val + p'.2.val := congrArg Fin.val h
  have hs := s_lt p.2; have hs' := s_lt p'.2
  exact Prod.ext (Fin.ext (by omega)) (Fin.ext (by omega))

/-- A sum over the 32 numbers is the sum over SparseCores and subcores at the task's number. -/
theorem bigSep_wid (Φ : Fin 32 → sProp 𝕄) :
    bigSep Finset.univ Φ = bigSep Finset.univ fun c : Fin (grid0.bound 0) => bigSep Finset.univ fun s : Fin (grid0.bound 1) => Φ (wid (coordsV c s)) := by
  rw [bigSep_univ_equiv (Equiv.ofBijective _ wid_bijective) Φ, bigSep_univ_prod]
  rfl

/-- A sum over the rows of the result, task by task, pair by pair. -/
theorem bigSep_rows (Φ : RowIx → sProp 𝕄) :
    bigSep Finset.univ Φ = bigSep Finset.univ fun c : Fin (grid0.bound 0) => bigSep Finset.univ fun s : Fin (grid0.bound 1) =>
      bigSep Finset.univ fun g : Fin k0_t2_loop.trips => bigSep Finset.univ fun r : Fin 2 => Φ ((c, s), g, r) := by
  rw [bigSep_univ_prod, bigSep_univ_prod]
  refine bigSep_congr fun c _ => bigSep_congr fun s _ => ?_
  rw [bigSep_univ_prod]

/-! ## The four arrays -/

/-- An array every task reads whole: what remains after 32 read tokens, and one token per task. -/
theorem pts_toks (ℓ : Loc nD τ sig) (f : Buf (Elt F) ℓ) :
    (ℓ ↦{fullShare} f : sProp 𝕄) = iprop((ℓ ↦{Transfers.shareDrop fullShare 32} f)
      ∗ bigSep Finset.univ fun c : Fin (grid0.bound 0) => bigSep Finset.univ fun s : Fin (grid0.bound 1) =>
          ℓ ↦{Transfers.shareTok fullShare 32 (wid (coordsV c s))} f) := by
  rw [← bigSep_wid (fun i => (ℓ ↦{Transfers.shareTok fullShare 32 i} f : sProp 𝕄))]
  exact BI.equiv_iff.mp ⟨Transfers.pointsTo_toks_split fullShare 32, Transfers.pointsTo_toks_join fullShare 32⟩

/-- The thresholds: every task's 512 entries. -/
theorem tPts_tiles (d : Dev nD) (f : Buf (Elt F) (tLoc d)) :
    (tLoc d ↦{fullShare} f : sProp 𝕄) = bigSep Finset.univ fun c : Fin (grid0.bound 0) => bigSep Finset.univ fun s : Fin (grid0.bound 1) =>
      tLoc d ↦[(tSl (coordsV c s)).view.set]{fullShare} f := by
  have hd : ∀ p ∈ (Finset.univ : Finset Task), ∀ p' ∈ (Finset.univ : Finset Task), p ≠ p' →
      Disjoint ((tSl (coordsV p.1 p.2)).view.set : Finset (Idx (tLoc d))) (tSl (coordsV p'.1 p'.2)).view.set :=
    fun p _ p' _ h => by rw [tSl_set, tSl_set]; exact tRect_disjoint p p' h
  have hc : (Finset.univ : Finset Task).biUnion (fun p => ((tSl (coordsV p.1 p.2)).view.set : Finset (Idx (tLoc d)))) = Finset.univ :=
    (Finset.biUnion_congr rfl fun p _ => tSl_set _).trans tRect_cover
  rw [← bigSep_univ_prod (fun p : Task => (tLoc d ↦[(tSl (coordsV p.1 p.2)).view.set]{fullShare} f : sProp 𝕄)),
    ← pointsTo_biUnion Finset.univ (ℓ := tLoc d) (fun p : Task => (tSl (coordsV p.1 p.2)).view.set) hd, hc]

/-- The result: every task's 32 rows. -/
theorem oPts_rows (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun g : Fin k0_t2_loop.trips => bigSep Finset.univ fun r : Fin 2 =>
        oLoc d ↦[(oRow (coordsV c s) g r).view.set]{fullShare} f := by
  have hd : ∀ p ∈ (Finset.univ : Finset RowIx), ∀ p' ∈ (Finset.univ : Finset RowIx), p ≠ p' →
      Disjoint ((oRow (coordsV p.1.1 p.1.2) p.2.1 p.2.2).view.set : Finset (Idx (oLoc d))) (oRow (coordsV p'.1.1 p'.1.2) p'.2.1 p'.2.2).view.set :=
    fun p _ p' _ h => by rw [oRow_set, oRow_set]; exact oRect_disjoint p p' h
  have hc : (Finset.univ : Finset RowIx).biUnion (fun p => ((oRow (coordsV p.1.1 p.1.2) p.2.1 p.2.2).view.set : Finset (Idx (oLoc d)))) = Finset.univ :=
    (Finset.biUnion_congr rfl fun p _ => oRow_set _ _ _).trans oRect_cover
  rw [← bigSep_rows (fun p : RowIx => (oLoc d ↦[(oRow (coordsV p.1.1 p.1.2) p.2.1 p.2.2).view.set]{fullShare} f : sProp 𝕄)),
    ← pointsTo_biUnion Finset.univ (ℓ := oLoc d) (fun p : RowIx => (oRow (coordsV p.1.1 p.1.2) p.2.1 p.2.2).view.set) hd, hc]

end Split

open Split

/-! ## The split and the join -/

theorem split_tiles (A : (d : Dev nD) → Buf (Elt F) (aLoc d)) (B : (d : Dev nD) → Buf (Elt F) (bLoc d)) (Tt : (d : Dev nD) → Buf (Elt F) (tLoc d))
    (Oc : (d : Dev nD) → Buf (Elt F) (oLoc d)) : SplitStmt (F := F) A B Tt Oc := by
  intro d
  have hR : (bigSep Finset.univ fun c : Fin (grid0.bound 0) => bigSep Finset.univ fun s : Fin (grid0.bound 1) => tileRes A B Tt Oc d (coordsV c s))
      = iprop((bigSep Finset.univ fun c : Fin (grid0.bound 0) => bigSep Finset.univ fun s : Fin (grid0.bound 1) =>
            aLoc d ↦{Transfers.shareTok fullShare 32 (wid (coordsV c s))} A d)
        ∗ (bigSep Finset.univ fun c : Fin (grid0.bound 0) => bigSep Finset.univ fun s : Fin (grid0.bound 1) =>
            bLoc d ↦{Transfers.shareTok fullShare 32 (wid (coordsV c s))} B d)
        ∗ (tLoc d ↦{fullShare} Tt d) ∗ (oLoc d ↦{fullShare} Oc d)) := by
    unfold tileRes
    simp only [bigSep_sep']
    rw [← tPts_tiles, ← oPts_rows]
  rw [hR, pts_toks (aLoc d) (A d), pts_toks (bLoc d) (B d)]
  constructor
  · iintro ⟨⟨HaD, HaT⟩, ⟨HbD, HbT⟩, Ht, Ho⟩
    isplitl [HaD]; · iexact HaD
    isplitl [HbD]; · iexact HbD
    isplitl [HaT]; · iexact HaT
    isplitl [HbT]; · iexact HbT
    isplitl [Ht]; · iexact Ht
    iexact Ho
  · iintro ⟨HaD, HbD, HaT, HbT, Ht, Ho⟩
    isplitl [HaD HaT]
    · isplitl [HaD]; · iexact HaD
      iexact HaT
    isplitl [HbD HbT]
    · isplitl [HbD]; · iexact HbD
      iexact HbT
    isplitl [Ht]; · iexact Ht
    iexact Ho

end Cert.Proof.KB

end
-- ==== Proof.LaunchObl.lean ====
/-
  The launch of the labelling kernel, first half: what the one SparseCore call hands each SparseCore and each of its
  sixteen vector subcores and takes back, and the launch theorem's obligations for the kernel.

  The call's operands are @main's three arrays `a` (the depth map, each entry forty times), `b` (the levels tiled 1024
  times) and `t` (the depth map, each entry sixteen times) and its result array. A SparseCore is handed the parts of its
  sixteen tasks — per task a read share of `a` and of `b`, the task's 512 entries of `t` and its 32 rows of the result — and
  hands the same back with the rows at the labels; so the split of a SparseCore's operands among its tasks is the
  identity. A task's obligation is the body's, at the task's coordinates. The kernel's own semaphores carry no protocol
  between threads: the ghost state is the handshakes' rounds beside the transfers' counters, which the launch drops.
-/
import proofs.«210286_g62405874811728_cont_9to1_m_386_18_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The launch's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory and what the kernel's operands hold -/

variable (m : (ℓ : Loc nD τ sig) → Buf (Elt F) ℓ) (ρ : Dev nD → PrngReg)

section Contents

variable [FloatOps F]

/-- The operand `a`: the depth map flattened, each entry forty times. -/
def Ac (d : Dev nD) : Buf (Elt F) (aLoc d) := hostA (F := F) (m ((SparseCore.T d).loc main_arg0))
/-- The operand `b`: the levels tiled 1024 times. -/
def Bc (d : Dev nD) : Buf (Elt F) (bLoc d) := hostB (F := F) (m ((SparseCore.T d).loc main_arg1))
/-- The operand `t`: the depth map flattened, each entry sixteen times. -/
def Tc (d : Dev nD) : Buf (Elt F) (tLoc d) := hostT (F := F) (m ((SparseCore.T d).loc main_arg0))

end Contents

/-- The result array before the call: its launch contents. -/
def Oc0 (d : Dev nD) : Buf (Elt F) (oLoc d) := m (oLoc d)

/-! ## The call's payloads -/

section Payloads

variable [FloatOps F]

/-- Task `(c, s)`'s coordinates in the kernel's grid. -/
abbrev crd (c : Fin ((K (F := F)).nCore 0)) (s : Fin ((K (F := F)).nSub 0)) : grid0.Coords := coordsV ⟨c.val, c.isLt⟩ ⟨s.val, s.isLt⟩

/-- What task `(c, s)` is handed, and what it hands back. -/
def goP (d : Dev nD) (c : Fin ((K (F := F)).nCore 0)) (s : Fin ((K (F := F)).nSub 0)) : sProp 𝕄 :=
  tileIn (Ac m) (Bc m) (Tc m) (Oc0 m) d (crd c s)
def tdP (d : Dev nD) (c : Fin ((K (F := F)).nCore 0)) (s : Fin ((K (F := F)).nSub 0)) : sProp 𝕄 :=
  tileOut (Ac m) (Bc m) (Tc m) d (crd c s)

/-- The one call: a SparseCore is handed its sixteen tasks' parts and hands them back; a task its own. -/
def P : (K (F := F)).Pay (nD := nD) (Val := Elt F) (Name := ℕ) (U := UU) where
  st := fun q d c => match q with | 0 => bigSep Finset.univ fun s => goP m d c s
  dn := fun q d c => match q with | 0 => bigSep Finset.univ fun s => tdP m d c s
  go := fun q d c s => match q with | 0 => goP m d c s
  td := fun q d c s => match q with | 0 => tdP m d c s
  x := fun _ _ => iprop(emp)

theorem P_st (d : Dev nD) (c : Fin ((K (F := F)).nCore 0)) : (P m).st 0 d c = bigSep Finset.univ fun s => goP m d c s := rfl
theorem P_dn (d : Dev nD) (c : Fin ((K (F := F)).nCore 0)) : (P m).dn 0 d c = bigSep Finset.univ fun s => tdP m d c s := rfl
theorem P_go (d : Dev nD) (c : Fin ((K (F := F)).nCore 0)) (s : Fin ((K (F := F)).nSub 0)) : (P m).go 0 d c s = goP m d c s := rfl
theorem P_td (d : Dev nD) (c : Fin ((K (F := F)).nCore 0)) (s : Fin ((K (F := F)).nSub 0)) : (P m).td 0 d c s = tdP m d c s := rfl

instance goP_storable (d : Dev nD) (c : Fin ((K (F := F)).nCore 0)) (s : Fin ((K (F := F)).nSub 0)) :
    BI.Storable (upEmb : UEmb _ 𝕄) (goP m d c s) := by
  unfold goP tileIn tileRes; infer_instance
instance tdP_storable (d : Dev nD) (c : Fin ((K (F := F)).nCore 0)) (s : Fin ((K (F := F)).nSub 0)) :
    BI.Storable (upEmb : UEmb _ 𝕄) (tdP m d c s) := by
  unfold tdP tileOut tileRes; infer_instance

instance P_storable : (P (F := F) m).IsStorable where
  st q d c := match q with
    | 0 => (inferInstance : BI.Storable (upEmb : UEmb _ 𝕄) (bigSep Finset.univ fun s => goP m d c s))
  dn q d c := match q with
    | 0 => (inferInstance : BI.Storable (upEmb : UEmb _ 𝕄) (bigSep Finset.univ fun s => tdP m d c s))
  go q d c s := match q with
    | 0 => (inferInstance : BI.Storable (upEmb : UEmb _ 𝕄) (goP m d c s))
  td q d c s := match q with
    | 0 => (inferInstance : BI.Storable (upEmb : UEmb _ 𝕄) (tdP m d c s))

end Payloads

/-! ## The launch theorem's obligations for the kernel -/

section Obligations

variable [FloatOps F]

theorem defs₀_vector (c : Fin τ.nSC) (s : Fin τ.nSub) :
    defs₀ (F := F) (.scVector c s) 0 ()
      = SparseCore.onTile hcore0 hsub0 (fun c s => cc0_sc_kernel (coordsV c s)
          aW (Memref.isWhole_whole _) bW (Memref.isWhole_whole _) tW (Memref.isWhole_whole _) oW (Memref.isWhole_whole _)
          sR (Memref.isWhole_whole _) s0 (Memref.isWhole_whole _) s1 (Memref.isWhole_whole _) sT (Memref.isWhole_whole _)
          cc0_scratch4 cc0_scratch5 cc0_scoped0 cc0_scoped1 cc0_scoped2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- Every task of the call runs the kernel's body at its own coordinates. -/
theorem tileObl (hF : (K (F := F)).Facts) (htile : TileBodyStmt (F := F) (Ac m) (Bc m) (Tc m) (Oc0 m)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF d (coordsV ⟨_, hc.1⟩ ⟨_, hc.2⟩) O W hO).trans (wp_mono frame _ _ fun _ => obl_post)

/-- A SparseCore's operands are its tasks' parts, and its results theirs. -/
theorem vecSplit : (K (F := F)).VecSplit' (P m) 0 := by
  intro d c
  rw [P_st, P_dn]
  iintro H; imodintro
  isplitl [H]; · iexact H
  iintro H; iexact H

end Obligations

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.Launch.lean ====
/-
  The launch of the labelling kernel, second half: @main on the TensorCore, the final memory, and the whole program's run.

  @main builds the kernel's three operands from its two arguments with eight host operations — the depth map flattened
  and repeated forty times (`a`), the forty levels tiled 1024 times (`b`), the depth map flattened and repeated sixteen
  times (`t`) —, run here over the TensorCore's twelve arrays held whole. The four arrays of the call (the operands and
  the result array at its launch contents) are then split into what remains of `a` and `b` after 32 read shares and the
  32 tasks' parts; the call takes the parts and returns them with every task's rows of the result at the labels; the
  parts are joined again, so the result array holds the labels whole, and the last host operation reshapes it into
  @main's result. The launch theorem turns this, the tasks' obligation and the launch element into the run of all the
  device's threads; the final memory is read off the three arrays @main still holds.
-/
import proofs.«210286_g62405874811728_cont_9to1_m_386_18_alg».proof.Proof.LaunchObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Body

variable (m : (ℓ : Loc nD τ sig) → Buf (Elt F) ℓ) (ρ : Dev nD → PrngReg)

/-! ## @main's arrays on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

abbrev x0Loc (d : Dev nD) : Loc nD τ sig := (SparseCore.T d).loc main_arg0
abbrev x1Loc (d : Dev nD) : Loc nD τ sig := (SparseCore.T d).loc main_arg1
abbrev rLoc (d : Dev nD) : Loc nD τ sig := (SparseCore.T d).loc main_v9

/-- The TensorCore's twelve arrays, all unscoped. -/
abbrev S12 : Finset (DevRef τ sig) := {a0', a1', v0', v1', v2', v3', v4', v5', v6', v7', v8', v9'}
/-- The last operation's two. -/
abbrev S2 : Finset (DevRef τ sig) := {v8', v9'}

theorem held_S12 (d : Dev nD) (W : Valuation τ sig (Elt F)) :
    (held (T d) S12 W : sProp 𝕄) = iprop((x0Loc d ↦{fullShare} W a0') ∗ (x1Loc d ↦{fullShare} W a1')
      ∗ ((SparseCore.T d).loc main_v0 ↦{fullShare} W v0') ∗ ((SparseCore.T d).loc main_v1 ↦{fullShare} W v1')
      ∗ (aLoc d ↦{fullShare} W v2')
      ∗ ((SparseCore.T d).loc main_v3 ↦{fullShare} W v3') ∗ ((SparseCore.T d).loc main_v4 ↦{fullShare} W v4')
      ∗ (bLoc d ↦{fullShare} W v5')
      ∗ ((SparseCore.T d).loc main_v6 ↦{fullShare} W v6')
      ∗ (tLoc d ↦{fullShare} W v7') ∗ (oLoc d ↦{fullShare} W v8') ∗ (rLoc d ↦{fullShare} W v9')) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W v8') ∗ (rLoc d ↦{fullShare} W v9')) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((x0Loc d ↦{fullShare} W main_arg0) ∗ (x1Loc d ↦{fullShare} W main_arg1)
      ∗ ((SparseCore.T d).loc main_v0 ↦{fullShare} W main_v0) ∗ ((SparseCore.T d).loc main_v1 ↦{fullShare} W main_v1)
      ∗ (aLoc d ↦{fullShare} W main_v2)
      ∗ ((SparseCore.T d).loc main_v3 ↦{fullShare} W main_v3) ∗ ((SparseCore.T d).loc main_v4 ↦{fullShare} W main_v4)
      ∗ (bLoc d ↦{fullShare} W main_v5)
      ∗ ((SparseCore.T d).loc main_v6 ↦{fullShare} W main_v6)
      ∗ (tLoc d ↦{fullShare} W main_v7) ∗ (oLoc d ↦{fullShare} W main_v8) ∗ (rLoc d ↦{fullShare} W main_v9)) := by
  unfold unscopedBufs
  rw [show (Finset.univ.filter fun b : Ref sig .tc => ¬ b.isScoped)
      = {main_arg0, main_arg1, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

section Main

variable [FloatOps F]

/-! ## @main's host operations -/

/-- The eight operations before the call: they build `a`, `b` and `t`. -/
abbrev ops8 : List (HloOp τ sig (Elt F)) := [
  StableHlo.reshape main_arg0 main_v0 rfl shapeCasts_S1x1x32x32_S1024,
  StableHlo.unary main_v0 main_v1 (broadcastInDim S1024x40 ![0] bcast_S1024_S1024x40_0 : (⟨S1024, .f32⟩ : BufTy).Contents (Elt F) → (⟨S1024x40, .f32⟩ : BufTy).Contents (Elt F)),
  StableHlo.reshape main_v1 main_v2 rfl shapeCasts_S1024x40_S40960,
  StableHlo.reshape main_arg1 main_v3 rfl shapeCasts_S40_S1x40,
  StableHlo.unary main_v3 main_v4 (broadcastInDim S1024x40 ![0, 1] bcast_S1x40_S1024x40_0_1 : (⟨S1x40, .f32⟩ : BufTy).Contents (Elt F) → (⟨S1024x40, .f32⟩ : BufTy).Contents (Elt F)),
  StableHlo.reshape main_v4 main_v5 rfl shapeCasts_S1024x40_S40960,
  StableHlo.unary main_v0 main_v6 (broadcastInDim S1024x16 ![0] bcast_S1024_S1024x16_0 : (⟨S1024, .f32⟩ : BufTy).Contents (Elt F) → (⟨S1024x16, .f32⟩ : BufTy).Contents (Elt F)),
  StableHlo.reshape main_v6 main_v7 rfl shapeCasts_S1024x16_S16384]

/-- The operation after it: the labels reshaped. -/
abbrev op9 : HloOp τ sig (Elt F) := StableHlo.reshape main_v8 main_v9 rfl shapeCasts_S1024x40960_S32x32x40960

theorem main_eq (d : Dev nD) :
    main (F := F) d = (StableHlo.seq (ops8 (F := F)) >>= fun _ => ((sc (F := F)).run d 0 >>= fun _ => (hlo rfl (op9 (F := F)) (fun _ => .ret PUnit.unit) >>= fun _ => pure PUnit.unit))) := by
  rfl

theorem hsub8 : ∀ op ∈ ops8 (F := F), op.bufs ⊆ S12 := by
  intro op hop
  simp only [List.mem_cons, List.not_mem_nil, or_false] at hop
  rcases hop with rfl | rfl | rfl | rfl | rfl | rfl | rfl | rfl
  · show ({a0', v0'} : Finset (DevRef τ sig)) ⊆ S12; decide
  · show ({v0', v1'} : Finset (DevRef τ sig)) ⊆ S12; decide
  · show ({v1', v2'} : Finset (DevRef τ sig)) ⊆ S12; decide
  · show ({a1', v3'} : Finset (DevRef τ sig)) ⊆ S12; decide
  · show ({v3', v4'} : Finset (DevRef τ sig)) ⊆ S12; decide
  · show ({v4', v5'} : Finset (DevRef τ sig)) ⊆ S12; decide
  · show ({v0', v6'} : Finset (DevRef τ sig)) ⊆ S12; decide
  · show ({v6', v7'} : Finset (DevRef τ sig)) ⊆ S12; decide
theorem hfresh8 : ∀ op ∈ ops8 (F := F), op.fresh = ∅ := by
  intro op hop
  simp only [List.mem_cons, List.not_mem_nil, or_false] at hop
  rcases hop with rfl | rfl | rfl | rfl | rfl | rfl | rfl | rfl <;> rfl
theorem hsub9 : (op9 (F := F)).bufs ⊆ S2 := show ({v8', v9'} : Finset (DevRef τ sig)) ⊆ S2 by decide

/-- What the arrays hold when the call is reached. -/
theorem after8_a0 (d : Dev nD) : StableHlo.after (ops8 (F := F)) (V0 m d) a0' = m (x0Loc d) := by
  unfold ops8; after_results; rfl
theorem after8_a1 (d : Dev nD) : StableHlo.after (ops8 (F := F)) (V0 m d) a1' = m (x1Loc d) := by
  unfold ops8; after_results; rfl
theorem after8_v2 (d : Dev nD) : StableHlo.after (ops8 (F := F)) (V0 m d) v2' = Ac m d := by
  unfold ops8; after_results; rfl
theorem after8_v5 (d : Dev nD) : StableHlo.after (ops8 (F := F)) (V0 m d) v5' = Bc m d := by
  unfold ops8; after_results; rfl
theorem after8_v7 (d : Dev nD) : StableHlo.after (ops8 (F := F)) (V0 m d) v7' = Tc m d := by
  unfold ops8; after_results; rfl
theorem after8_v8 (d : Dev nD) : StableHlo.after (ops8 (F := F)) (V0 m d) v8' = Oc0 m d := by
  unfold ops8; after_results; rfl
theorem after8_v9 (d : Dev nD) : StableHlo.after (ops8 (F := F)) (V0 m d) v9' = m (rLoc d) := by
  unfold ops8; after_results; rfl

end Main

section Run

variable [FloatOps F]

theorem held_after8 (d : Dev nD) :
    (held (T d) S12 (StableHlo.after (ops8 (F := F)) (V0 m d)) : sProp 𝕄) = iprop((x0Loc d ↦{fullShare} m (x0Loc d)) ∗ (x1Loc d ↦{fullShare} m (x1Loc d))
      ∗ ((SparseCore.T d).loc main_v0 ↦{fullShare} StableHlo.after (ops8 (F := F)) (V0 m d) v0') ∗ ((SparseCore.T d).loc main_v1 ↦{fullShare} StableHlo.after (ops8 (F := F)) (V0 m d) v1')
      ∗ (aLoc d ↦{fullShare} Ac m d)
      ∗ ((SparseCore.T d).loc main_v3 ↦{fullShare} StableHlo.after (ops8 (F := F)) (V0 m d) v3') ∗ ((SparseCore.T d).loc main_v4 ↦{fullShare} StableHlo.after (ops8 (F := F)) (V0 m d) v4')
      ∗ (bLoc d ↦{fullShare} Bc m d)
      ∗ ((SparseCore.T d).loc main_v6 ↦{fullShare} StableHlo.after (ops8 (F := F)) (V0 m d) v6')
      ∗ (tLoc d ↦{fullShare} Tc m d) ∗ (oLoc d ↦{fullShare} Oc0 m d) ∗ (rLoc d ↦{fullShare} m (rLoc d))) := by
  rw [held_S12, after8_a0, after8_a1, after8_v2, after8_v5, after8_v7, after8_v8, after8_v9]

/-- What the call takes for the two SparseCores, and what it hands back: every task's part. -/
theorem st0_eq (d : Dev nD) : (bigSep Finset.univ fun c : Fin ((K (F := F)).nCore 0) => (P m).st 0 d c)
    = bigSep Finset.univ fun c : Fin (grid0.bound 0) => bigSep Finset.univ fun s : Fin (grid0.bound 1) =>
        tileRes (Ac m) (Bc m) (Tc m) (Oc0 m) d (coordsV c s) := rfl
theorem dn0_eq (d : Dev nD) : (bigSep Finset.univ fun c : Fin ((K (F := F)).nCore 0) => (P m).dn 0 d c)
    = bigSep Finset.univ fun c : Fin (grid0.bound 0) => bigSep Finset.univ fun s : Fin (grid0.bound 1) =>
        tileRes (Ac m) (Bc m) (Tc m) (fun d => OutBuf (Ac m d) (Bc m d) (Tc m d)) d (coordsV c s) := rfl

/-- After the call: the result array at the labels. -/
def V3 (d : Dev nD) : Valuation τ sig (Elt F) := Function.update (V0 m d) v8' (OutBuf (Ac m d) (Bc m d) (Tc m d))

theorem V3_v8 (d : Dev nD) : V3 m d v8' = OutBuf (Ac m d) (Bc m d) (Tc m d) := Function.update_self _ _ _
theorem V3_v9 (d : Dev nD) : V3 m d v9' = m (rLoc d) := Function.update_of_ne (show v9' ≠ v8' by decide) _ _

/-- The last operation's result: the labels at @main's result shape. -/
theorem res9 (d : Dev nD) : (op9 (F := F)).result (V3 m d) v9' = kernelVal (F := F) (m (x0Loc d)) (m (x1Loc d)) := by
  show (StableHlo.reshape main_v8 main_v9 rfl shapeCasts_S1024x40960_S32x32x40960 : HloOp τ sig (Elt F)).result (V3 m d) (Proc.devRef .tc main_v9) = _
  rw [StableHlo.reshape_result]
  show (fun i => shapeCast S32x32x40960 (V3 m d v8') shapeCasts_S1024x40960_S32x32x40960 i) = _
  rw [V3_v8]
  rfl

theorem held_fin (d : Dev nD) :
    (held (T d) S2 ((op9 (F := F)).result (V3 m d)) : sProp 𝕄)
      = iprop((oLoc d ↦{fullShare} (op9 (F := F)).result (V3 m d) v8') ∗ (rLoc d ↦{fullShare} kernelVal (F := F) (m (x0Loc d)) (m (x1Loc d)))) := by
  rw [held_S2, res9]

/-- What @main leaves the claim: the result at the labels reshaped, the two arguments at their launch contents. -/
abbrev FIN (d : Dev nD) : sProp 𝕄 :=
  iprop((rLoc d ↦{fullShare} kernelVal (F := F) (m (x0Loc d)) (m (x1Loc d))) ∗ (x0Loc d ↦{fullShare} m (x0Loc d)) ∗ (x1Loc d ↦{fullShare} m (x1Loc d)))

/-- @main on device `d`'s TensorCore: the eight operations that build the operands; the four arrays split into the
    tasks' parts; the call; the parts joined, the result array at the labels; the reshape. -/
theorem hmain (hsplit0 : SplitStmt (F := F) (Ac m) (Bc m) (Tc m) (Oc0 m))
    (hsplit1 : SplitStmt (F := F) (Ac m) (Bc m) (Tc m) (fun d => OutBuf (Ac m d) (Bc m d) (Tc m d)))
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S12 _ (ops8 (F := F)) hsub8 hfresh8 (V0 m d)) $$ [Hb Hheld]
  · isplitl [Hb]; · iexact Hb
    iexact Hheld
  iintro ⟨Hb, Hheld⟩
  ihave Hh := (Entails.of_eq (held_after8 (F := F) m d)) $$ Hheld
  icases Hh with ⟨Hx0, Hx1, -, -, Ha, -, -, Hbb, -, Ht, Ho, Hr⟩
  ihave Hsp := (hsplit0 d).1 $$ [Ha Hbb Ht Ho]
  · isplitl [Ha]; · iexact Ha
    isplitl [Hbb]; · iexact Hbb
    isplitl [Ht]; · iexact Ht
    iexact Ho
  icases Hsp with ⟨Hra, Hrb, Htiles⟩
  simp only [wp_bind, wp_pure]
  iapply ((K (F := F)).wp_run (D (F := F)) 𝒱 (EH := EH) (P := P m) κ d 0) $$ [Hst Htiles Hb Hx0 Hx1 Hra Hrb Hr]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (hsplit1 d).2 $$ [Hra Hrb Hdn']
  · isplitl [Hra]; · iexact Hra
    isplitl [Hrb]; · iexact Hrb
    iexact Hdn'
  icases Hj with ⟨-, -, -, Ho⟩
  iapply (wp_hlo_within 𝒱 (SparseCore.T d) none Set.univ (op := op9) (S := S2) hsub9 (V := V3 m d)) $$ [Hb Ho Hr]
  · isplitl [Hb]; · iexact Hb
    rw [held_S2, V3_v8, V3_v9]
    isplitl [Ho]; · iexact Ho
    iexact Hr
  iintro ⟨Hb, Hheld⟩
  ihave Hh := (Entails.of_eq (held_fin (F := F) m d)) $$ Hheld
  icases Hh with ⟨-, Hr⟩
  rw [wp_ret]; imodintro; imodintro
  isplitl [Hst]; · iexact Hst
  isplitl [Hr]; · iexact Hr
  isplitl [Hx0]; · iexact Hx0
  iexact Hx1

/-! ## The final memory -/

def fq (d : Dev nD) (s' : Phys nD τ sig (Elt F)) : Prop :=
  s'.mem.mem (rLoc d) = kernelVal (F := F) (m (x0Loc d)) (m (x1Loc d)) ∧ s'.mem.mem (x0Loc d) = m (x0Loc d) ∧ s'.mem.mem (x1Loc d) = m (x1Loc d)

theorem hfin (d : Dev nD) (s' : Phys nD τ sig (Elt F)) : iprop(FIN m d ∗ SI s') ⊢ (⌜fq m d s'⌝ : sProp 𝕄) := by
  iintro ⟨⟨Hr, Hx0, Hx1⟩, HSI⟩
  ihave H := (persistent_entails_right (SI_pointsTo_agree (st := s') (ℓ := rLoc d) (I := Finset.univ) (q := fullShare)
    (f := kernelVal (F := F) (m (x0Loc d)) (m (x1Loc d))))) $$ [HSI Hr]
  · isplitl [HSI] <;> iassumption
  icases H with ⟨%h0, HSI, -⟩
  ihave H := (persistent_entails_right (SI_pointsTo_agree (st := s') (ℓ := x0Loc d) (I := Finset.univ) (q := fullShare) (f := m (x0Loc d)))) $$ [HSI Hx0]
  · isplitl [HSI] <;> iassumption
  icases H with ⟨%h1, HSI, -⟩
  ihave H := (SI_pointsTo_agree (st := s') (ℓ := x1Loc d) (I := Finset.univ) (q := fullShare) (f := m (x1Loc d))) $$ [HSI Hx1]
  · isplitl [HSI] <;> iassumption
  icases H with %h2
  ipureintro
  exact ⟨funext fun i => h0 i (Finset.mem_univ i), funext fun i => h1 i (Finset.mem_univ i), funext fun i => h2 i (Finset.mem_univ i)⟩

end Run

end Body

/-! ## The program's run -/

/-- Every weakly fair execution of the device's threads terminates, and @main's result holds the labels — the kernel's
    array, reshaped — with the two arguments unchanged; from the body's obligation at a symbolic subcore and the split of
    the four arrays into the tasks' parts. -/
theorem run_main [FloatOps F] [∀ e, Nonempty (Elt F e)] (m : (ℓ : Loc nD τ sig) → Buf (Elt F) ℓ) (ρ : Dev nD → PrngReg)
    (htile : ∀ A B Tt O0, TileBodyStmt (F := F) A B Tt O0)
    (hsplit : ∀ A B Tt Oc, SplitStmt (F := F) A B Tt Oc) :
    θ_run (Cert.KernelIdeal.defs (F := F)) (Cert.KernelIdeal.threads (F := F)) ⟨m, fun _ => 0, ρ⟩ (fun r => ∀ c : Dev nD,
      r.2.mem ((c.tc : Thread nD τ).loc main_v9) = kernelVal (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts (htile _ _ _ _))
    (fun q _ => match q with | 0 => SparseCore.Cfg.VecSplit.of_plain (vecSplit m))
    m ρ main (fun _ => iprop(emp)) (FIN m) (u₀ (F := F)) (sep_elim_left.trans (hu₀ m)) (hmain m ρ (hsplit _ _ _ _) (hsplit _ _ _ _)) (fq m) (hfin m) _ (fun _ h => h)

end Cert.Proof.KI

end
-- ==== Proof.BLaunchObl.lean ====
/-
  The launch of the labelling kernel, first half: what the one SparseCore call hands each SparseCore and each of its
  sixteen vector subcores and takes back, and the launch theorem's obligations for the kernel.

  The call's operands are @main's three arrays `a` (the depth map, each entry forty times), `b` (the levels tiled 1024
  times) and `t` (the depth map, each entry sixteen times) and its result array. A SparseCore is handed the parts of its
  sixteen tasks — per task a read share of `a` and of `b`, the task's 512 entries of `t` and its 32 rows of the result — and
  hands the same back with the rows at the labels; so the split of a SparseCore's operands among its tasks is the
  identity. A task's obligation is the body's, at the task's coordinates. The kernel's own semaphores carry no protocol
  between threads: the ghost state is the handshakes' rounds beside the transfers' counters, which the launch drops.
-/
import proofs.«210286_g62405874811728_cont_9to1_m_386_18_alg».proof.Proof.BTileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The launch's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory and what the kernel's operands hold -/

variable (m : (ℓ : Loc nD τ sig) → Buf (Elt F) ℓ) (ρ : Dev nD → PrngReg)

section Contents

variable [FloatOps F]

/-- The operand `a`: the depth map flattened, each entry forty times. -/
def Ac (d : Dev nD) : Buf (Elt F) (aLoc d) := hostA (F := F) (m ((SparseCore.T d).loc main_arg0))
/-- The operand `b`: the levels tiled 1024 times. -/
def Bc (d : Dev nD) : Buf (Elt F) (bLoc d) := hostB (F := F) (m ((SparseCore.T d).loc main_arg1))
/-- The operand `t`: the depth map flattened, each entry sixteen times. -/
def Tc (d : Dev nD) : Buf (Elt F) (tLoc d) := hostT (F := F) (m ((SparseCore.T d).loc main_arg0))

end Contents

/-- The result array before the call: its launch contents. -/
def Oc0 (d : Dev nD) : Buf (Elt F) (oLoc d) := m (oLoc d)

/-! ## The call's payloads -/

section Payloads

variable [FloatOps F]

/-- Task `(c, s)`'s coordinates in the kernel's grid. -/
abbrev crd (c : Fin ((K (F := F)).nCore 0)) (s : Fin ((K (F := F)).nSub 0)) : grid0.Coords := coordsV ⟨c.val, c.isLt⟩ ⟨s.val, s.isLt⟩

/-- What task `(c, s)` is handed, and what it hands back. -/
def goP (d : Dev nD) (c : Fin ((K (F := F)).nCore 0)) (s : Fin ((K (F := F)).nSub 0)) : sProp 𝕄 :=
  tileIn (Ac m) (Bc m) (Tc m) (Oc0 m) d (crd c s)
def tdP (d : Dev nD) (c : Fin ((K (F := F)).nCore 0)) (s : Fin ((K (F := F)).nSub 0)) : sProp 𝕄 :=
  tileOut (Ac m) (Bc m) (Tc m) d (crd c s)

/-- The one call: a SparseCore is handed its sixteen tasks' parts and hands them back; a task its own. -/
def P : (K (F := F)).Pay (nD := nD) (Val := Elt F) (Name := ℕ) (U := UU) where
  st := fun q d c => match q with | 0 => bigSep Finset.univ fun s => goP m d c s
  dn := fun q d c => match q with | 0 => bigSep Finset.univ fun s => tdP m d c s
  go := fun q d c s => match q with | 0 => goP m d c s
  td := fun q d c s => match q with | 0 => tdP m d c s
  x := fun _ _ => iprop(emp)

theorem P_st (d : Dev nD) (c : Fin ((K (F := F)).nCore 0)) : (P m).st 0 d c = bigSep Finset.univ fun s => goP m d c s := rfl
theorem P_dn (d : Dev nD) (c : Fin ((K (F := F)).nCore 0)) : (P m).dn 0 d c = bigSep Finset.univ fun s => tdP m d c s := rfl
theorem P_go (d : Dev nD) (c : Fin ((K (F := F)).nCore 0)) (s : Fin ((K (F := F)).nSub 0)) : (P m).go 0 d c s = goP m d c s := rfl
theorem P_td (d : Dev nD) (c : Fin ((K (F := F)).nCore 0)) (s : Fin ((K (F := F)).nSub 0)) : (P m).td 0 d c s = tdP m d c s := rfl

instance goP_storable (d : Dev nD) (c : Fin ((K (F := F)).nCore 0)) (s : Fin ((K (F := F)).nSub 0)) :
    BI.Storable (upEmb : UEmb _ 𝕄) (goP m d c s) := by
  unfold goP tileIn tileRes; infer_instance
instance tdP_storable (d : Dev nD) (c : Fin ((K (F := F)).nCore 0)) (s : Fin ((K (F := F)).nSub 0)) :
    BI.Storable (upEmb : UEmb _ 𝕄) (tdP m d c s) := by
  unfold tdP tileOut tileRes; infer_instance

instance P_storable : (P (F := F) m).IsStorable where
  st q d c := match q with
    | 0 => (inferInstance : BI.Storable (upEmb : UEmb _ 𝕄) (bigSep Finset.univ fun s => goP m d c s))
  dn q d c := match q with
    | 0 => (inferInstance : BI.Storable (upEmb : UEmb _ 𝕄) (bigSep Finset.univ fun s => tdP m d c s))
  go q d c s := match q with
    | 0 => (inferInstance : BI.Storable (upEmb : UEmb _ 𝕄) (goP m d c s))
  td q d c s := match q with
    | 0 => (inferInstance : BI.Storable (upEmb : UEmb _ 𝕄) (tdP m d c s))

end Payloads

/-! ## The launch theorem's obligations for the kernel -/

section Obligations

variable [FloatOps F]

theorem defs₀_vector (c : Fin τ.nSC) (s : Fin τ.nSub) :
    defs₀ (F := F) (.scVector c s) 0 ()
      = SparseCore.onTile hcore0 hsub0 (fun c s => cc0_sc_kernel (coordsV c s)
          aW (Memref.isWhole_whole _) bW (Memref.isWhole_whole _) tW (Memref.isWhole_whole _) oW (Memref.isWhole_whole _)
          sR (Memref.isWhole_whole _) s0 (Memref.isWhole_whole _) s1 (Memref.isWhole_whole _) sT (Memref.isWhole_whole _)
          cc0_scratch4 cc0_scratch5 cc0_scoped0 cc0_scoped1 cc0_scoped2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- Every task of the call runs the kernel's body at its own coordinates. -/
theorem tileObl (hF : (K (F := F)).Facts) (htile : TileBodyStmt (F := F) (Ac m) (Bc m) (Tc m) (Oc0 m)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF d (coordsV ⟨_, hc.1⟩ ⟨_, hc.2⟩) O W hO).trans (wp_mono frame _ _ fun _ => obl_post)

/-- A SparseCore's operands are its tasks' parts, and its results theirs. -/
theorem vecSplit : (K (F := F)).VecSplit' (P m) 0 := by
  intro d c
  rw [P_st, P_dn]
  iintro H; imodintro
  isplitl [H]; · iexact H
  iintro H; iexact H

end Obligations

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.BLaunch.lean ====
/-
  The launch of the labelling kernel, second half: @main on the TensorCore, the final memory, and the whole program's run.

  @main builds the kernel's three operands from its two arguments with eight host operations — the depth map flattened
  and repeated forty times (`a`), the forty levels tiled 1024 times (`b`), the depth map flattened and repeated sixteen
  times (`t`) —, run here over the TensorCore's twelve arrays held whole. The four arrays of the call (the operands and
  the result array at its launch contents) are then split into what remains of `a` and `b` after 32 read shares and the
  32 tasks' parts; the call takes the parts and returns them with every task's rows of the result at the labels; the
  parts are joined again, so the result array holds the labels whole, and the last host operation reshapes it into
  @main's result. The launch theorem turns this, the tasks' obligation and the launch element into the run of all the
  device's threads; the final memory is read off the three arrays @main still holds.
-/
import proofs.«210286_g62405874811728_cont_9to1_m_386_18_alg».proof.Proof.BLaunchObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Body

variable (m : (ℓ : Loc nD τ sig) → Buf (Elt F) ℓ) (ρ : Dev nD → PrngReg)

/-! ## @main's arrays on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

abbrev x0Loc (d : Dev nD) : Loc nD τ sig := (SparseCore.T d).loc main_arg0
abbrev x1Loc (d : Dev nD) : Loc nD τ sig := (SparseCore.T d).loc main_arg1
abbrev rLoc (d : Dev nD) : Loc nD τ sig := (SparseCore.T d).loc main_v9

/-- The TensorCore's twelve arrays, all unscoped. -/
abbrev S12 : Finset (DevRef τ sig) := {a0', a1', v0', v1', v2', v3', v4', v5', v6', v7', v8', v9'}
/-- The last operation's two. -/
abbrev S2 : Finset (DevRef τ sig) := {v8', v9'}

theorem held_S12 (d : Dev nD) (W : Valuation τ sig (Elt F)) :
    (held (T d) S12 W : sProp 𝕄) = iprop((x0Loc d ↦{fullShare} W a0') ∗ (x1Loc d ↦{fullShare} W a1')
      ∗ ((SparseCore.T d).loc main_v0 ↦{fullShare} W v0') ∗ ((SparseCore.T d).loc main_v1 ↦{fullShare} W v1')
      ∗ (aLoc d ↦{fullShare} W v2')
      ∗ ((SparseCore.T d).loc main_v3 ↦{fullShare} W v3') ∗ ((SparseCore.T d).loc main_v4 ↦{fullShare} W v4')
      ∗ (bLoc d ↦{fullShare} W v5')
      ∗ ((SparseCore.T d).loc main_v6 ↦{fullShare} W v6')
      ∗ (tLoc d ↦{fullShare} W v7') ∗ (oLoc d ↦{fullShare} W v8') ∗ (rLoc d ↦{fullShare} W v9')) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W v8') ∗ (rLoc d ↦{fullShare} W v9')) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((x0Loc d ↦{fullShare} W main_arg0) ∗ (x1Loc d ↦{fullShare} W main_arg1)
      ∗ ((SparseCore.T d).loc main_v0 ↦{fullShare} W main_v0) ∗ ((SparseCore.T d).loc main_v1 ↦{fullShare} W main_v1)
      ∗ (aLoc d ↦{fullShare} W main_v2)
      ∗ ((SparseCore.T d).loc main_v3 ↦{fullShare} W main_v3) ∗ ((SparseCore.T d).loc main_v4 ↦{fullShare} W main_v4)
      ∗ (bLoc d ↦{fullShare} W main_v5)
      ∗ ((SparseCore.T d).loc main_v6 ↦{fullShare} W main_v6)
      ∗ (tLoc d ↦{fullShare} W main_v7) ∗ (oLoc d ↦{fullShare} W main_v8) ∗ (rLoc d ↦{fullShare} W main_v9)) := by
  unfold unscopedBufs
  rw [show (Finset.univ.filter fun b : Ref sig .tc => ¬ b.isScoped)
      = {main_arg0, main_arg1, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

section Main

variable [FloatOps F]

/-! ## @main's host operations -/

/-- The eight operations before the call: they build `a`, `b` and `t`. -/
abbrev ops8 : List (HloOp τ sig (Elt F)) := [
  StableHlo.reshape main_arg0 main_v0 rfl shapeCasts_S1x1x32x32_S1024,
  StableHlo.unary main_v0 main_v1 (broadcastInDim S1024x40 ![0] bcast_S1024_S1024x40_0 : (⟨S1024, .f32⟩ : BufTy).Contents (Elt F) → (⟨S1024x40, .f32⟩ : BufTy).Contents (Elt F)),
  StableHlo.reshape main_v1 main_v2 rfl shapeCasts_S1024x40_S40960,
  StableHlo.reshape main_arg1 main_v3 rfl shapeCasts_S40_S1x40,
  StableHlo.unary main_v3 main_v4 (broadcastInDim S1024x40 ![0, 1] bcast_S1x40_S1024x40_0_1 : (⟨S1x40, .f32⟩ : BufTy).Contents (Elt F) → (⟨S1024x40, .f32⟩ : BufTy).Contents (Elt F)),
  StableHlo.reshape main_v4 main_v5 rfl shapeCasts_S1024x40_S40960,
  StableHlo.unary main_v0 main_v6 (broadcastInDim S1024x16 ![0] bcast_S1024_S1024x16_0 : (⟨S1024, .f32⟩ : BufTy).Contents (Elt F) → (⟨S1024x16, .f32⟩ : BufTy).Contents (Elt F)),
  StableHlo.reshape main_v6 main_v7 rfl shapeCasts_S1024x16_S16384]

/-- The operation after it: the labels reshaped. -/
abbrev op9 : HloOp τ sig (Elt F) := StableHlo.reshape main_v8 main_v9 rfl shapeCasts_S1024x40960_S32x32x40960

theorem main_eq (d : Dev nD) :
    main (F := F) d = (StableHlo.seq (ops8 (F := F)) >>= fun _ => ((sc (F := F)).run d 0 >>= fun _ => (hlo rfl (op9 (F := F)) (fun _ => .ret PUnit.unit) >>= fun _ => pure PUnit.unit))) := by
  rfl

theorem hsub8 : ∀ op ∈ ops8 (F := F), op.bufs ⊆ S12 := by
  intro op hop
  simp only [List.mem_cons, List.not_mem_nil, or_false] at hop
  rcases hop with rfl | rfl | rfl | rfl | rfl | rfl | rfl | rfl
  · show ({a0', v0'} : Finset (DevRef τ sig)) ⊆ S12; decide
  · show ({v0', v1'} : Finset (DevRef τ sig)) ⊆ S12; decide
  · show ({v1', v2'} : Finset (DevRef τ sig)) ⊆ S12; decide
  · show ({a1', v3'} : Finset (DevRef τ sig)) ⊆ S12; decide
  · show ({v3', v4'} : Finset (DevRef τ sig)) ⊆ S12; decide
  · show ({v4', v5'} : Finset (DevRef τ sig)) ⊆ S12; decide
  · show ({v0', v6'} : Finset (DevRef τ sig)) ⊆ S12; decide
  · show ({v6', v7'} : Finset (DevRef τ sig)) ⊆ S12; decide
theorem hfresh8 : ∀ op ∈ ops8 (F := F), op.fresh = ∅ := by
  intro op hop
  simp only [List.mem_cons, List.not_mem_nil, or_false] at hop
  rcases hop with rfl | rfl | rfl | rfl | rfl | rfl | rfl | rfl <;> rfl
theorem hsub9 : (op9 (F := F)).bufs ⊆ S2 := show ({v8', v9'} : Finset (DevRef τ sig)) ⊆ S2 by decide

/-- What the arrays hold when the call is reached. -/
theorem after8_a0 (d : Dev nD) : StableHlo.after (ops8 (F := F)) (V0 m d) a0' = m (x0Loc d) := by
  unfold ops8; after_results; rfl
theorem after8_a1 (d : Dev nD) : StableHlo.after (ops8 (F := F)) (V0 m d) a1' = m (x1Loc d) := by
  unfold ops8; after_results; rfl
theorem after8_v2 (d : Dev nD) : StableHlo.after (ops8 (F := F)) (V0 m d) v2' = Ac m d := by
  unfold ops8; after_results; rfl
theorem after8_v5 (d : Dev nD) : StableHlo.after (ops8 (F := F)) (V0 m d) v5' = Bc m d := by
  unfold ops8; after_results; rfl
theorem after8_v7 (d : Dev nD) : StableHlo.after (ops8 (F := F)) (V0 m d) v7' = Tc m d := by
  unfold ops8; after_results; rfl
theorem after8_v8 (d : Dev nD) : StableHlo.after (ops8 (F := F)) (V0 m d) v8' = Oc0 m d := by
  unfold ops8; after_results; rfl
theorem after8_v9 (d : Dev nD) : StableHlo.after (ops8 (F := F)) (V0 m d) v9' = m (rLoc d) := by
  unfold ops8; after_results; rfl

end Main

section Run

variable [FloatOps F]

theorem held_after8 (d : Dev nD) :
    (held (T d) S12 (StableHlo.after (ops8 (F := F)) (V0 m d)) : sProp 𝕄) = iprop((x0Loc d ↦{fullShare} m (x0Loc d)) ∗ (x1Loc d ↦{fullShare} m (x1Loc d))
      ∗ ((SparseCore.T d).loc main_v0 ↦{fullShare} StableHlo.after (ops8 (F := F)) (V0 m d) v0') ∗ ((SparseCore.T d).loc main_v1 ↦{fullShare} StableHlo.after (ops8 (F := F)) (V0 m d) v1')
      ∗ (aLoc d ↦{fullShare} Ac m d)
      ∗ ((SparseCore.T d).loc main_v3 ↦{fullShare} StableHlo.after (ops8 (F := F)) (V0 m d) v3') ∗ ((SparseCore.T d).loc main_v4 ↦{fullShare} StableHlo.after (ops8 (F := F)) (V0 m d) v4')
      ∗ (bLoc d ↦{fullShare} Bc m d)
      ∗ ((SparseCore.T d).loc main_v6 ↦{fullShare} StableHlo.after (ops8 (F := F)) (V0 m d) v6')
      ∗ (tLoc d ↦{fullShare} Tc m d) ∗ (oLoc d ↦{fullShare} Oc0 m d) ∗ (rLoc d ↦{fullShare} m (rLoc d))) := by
  rw [held_S12, after8_a0, after8_a1, after8_v2, after8_v5, after8_v7, after8_v8, after8_v9]

/-- What the call takes for the two SparseCores, and what it hands back: every task's part. -/
theorem st0_eq (d : Dev nD) : (bigSep Finset.univ fun c : Fin ((K (F := F)).nCore 0) => (P m).st 0 d c)
    = bigSep Finset.univ fun c : Fin (grid0.bound 0) => bigSep Finset.univ fun s : Fin (grid0.bound 1) =>
        tileRes (Ac m) (Bc m) (Tc m) (Oc0 m) d (coordsV c s) := rfl
theorem dn0_eq (d : Dev nD) : (bigSep Finset.univ fun c : Fin ((K (F := F)).nCore 0) => (P m).dn 0 d c)
    = bigSep Finset.univ fun c : Fin (grid0.bound 0) => bigSep Finset.univ fun s : Fin (grid0.bound 1) =>
        tileRes (Ac m) (Bc m) (Tc m) (fun d => OutBuf (Ac m d) (Bc m d) (Tc m d)) d (coordsV c s) := rfl

/-- After the call: the result array at the labels. -/
def V3 (d : Dev nD) : Valuation τ sig (Elt F) := Function.update (V0 m d) v8' (OutBuf (Ac m d) (Bc m d) (Tc m d))

theorem V3_v8 (d : Dev nD) : V3 m d v8' = OutBuf (Ac m d) (Bc m d) (Tc m d) := Function.update_self _ _ _
theorem V3_v9 (d : Dev nD) : V3 m d v9' = m (rLoc d) := Function.update_of_ne (show v9' ≠ v8' by decide) _ _

/-- The last operation's result: the labels at @main's result shape. -/
theorem res9 (d : Dev nD) : (op9 (F := F)).result (V3 m d) v9' = kernelVal (F := F) (m (x0Loc d)) (m (x1Loc d)) := by
  show (StableHlo.reshape main_v8 main_v9 rfl shapeCasts_S1024x40960_S32x32x40960 : HloOp τ sig (Elt F)).result (V3 m d) (Proc.devRef .tc main_v9) = _
  rw [StableHlo.reshape_result]
  show (fun i => shapeCast S32x32x40960 (V3 m d v8') shapeCasts_S1024x40960_S32x32x40960 i) = _
  rw [V3_v8]
  rfl

theorem held_fin (d : Dev nD) :
    (held (T d) S2 ((op9 (F := F)).result (V3 m d)) : sProp 𝕄)
      = iprop((oLoc d ↦{fullShare} (op9 (F := F)).result (V3 m d) v8') ∗ (rLoc d ↦{fullShare} kernelVal (F := F) (m (x0Loc d)) (m (x1Loc d)))) := by
  rw [held_S2, res9]

/-- What @main leaves the claim: the result at the labels reshaped, the two arguments at their launch contents. -/
abbrev FIN (d : Dev nD) : sProp 𝕄 :=
  iprop((rLoc d ↦{fullShare} kernelVal (F := F) (m (x0Loc d)) (m (x1Loc d))) ∗ (x0Loc d ↦{fullShare} m (x0Loc d)) ∗ (x1Loc d ↦{fullShare} m (x1Loc d)))

/-- @main on device `d`'s TensorCore: the eight operations that build the operands; the four arrays split into the
    tasks' parts; the call; the parts joined, the result array at the labels; the reshape. -/
theorem hmain (hsplit0 : SplitStmt (F := F) (Ac m) (Bc m) (Tc m) (Oc0 m))
    (hsplit1 : SplitStmt (F := F) (Ac m) (Bc m) (Tc m) (fun d => OutBuf (Ac m d) (Bc m d) (Tc m d)))
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S12 _ (ops8 (F := F)) hsub8 hfresh8 (V0 m d)) $$ [Hb Hheld]
  · isplitl [Hb]; · iexact Hb
    iexact Hheld
  iintro ⟨Hb, Hheld⟩
  ihave Hh := (Entails.of_eq (held_after8 (F := F) m d)) $$ Hheld
  icases Hh with ⟨Hx0, Hx1, -, -, Ha, -, -, Hbb, -, Ht, Ho, Hr⟩
  ihave Hsp := (hsplit0 d).1 $$ [Ha Hbb Ht Ho]
  · isplitl [Ha]; · iexact Ha
    isplitl [Hbb]; · iexact Hbb
    isplitl [Ht]; · iexact Ht
    iexact Ho
  icases Hsp with ⟨Hra, Hrb, Htiles⟩
  simp only [wp_bind, wp_pure]
  iapply ((K (F := F)).wp_run (D (F := F)) 𝒱 (EH := EH) (P := P m) κ d 0) $$ [Hst Htiles Hb Hx0 Hx1 Hra Hrb Hr]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (hsplit1 d).2 $$ [Hra Hrb Hdn']
  · isplitl [Hra]; · iexact Hra
    isplitl [Hrb]; · iexact Hrb
    iexact Hdn'
  icases Hj with ⟨-, -, -, Ho⟩
  iapply (wp_hlo_within 𝒱 (SparseCore.T d) none Set.univ (op := op9) (S := S2) hsub9 (V := V3 m d)) $$ [Hb Ho Hr]
  · isplitl [Hb]; · iexact Hb
    rw [held_S2, V3_v8, V3_v9]
    isplitl [Ho]; · iexact Ho
    iexact Hr
  iintro ⟨Hb, Hheld⟩
  ihave Hh := (Entails.of_eq (held_fin (F := F) m d)) $$ Hheld
  icases Hh with ⟨-, Hr⟩
  rw [wp_ret]; imodintro; imodintro
  isplitl [Hst]; · iexact Hst
  isplitl [Hr]; · iexact Hr
  isplitl [Hx0]; · iexact Hx0
  iexact Hx1

/-! ## The final memory -/

def fq (d : Dev nD) (s' : Phys nD τ sig (Elt F)) : Prop :=
  s'.mem.mem (rLoc d) = kernelVal (F := F) (m (x0Loc d)) (m (x1Loc d)) ∧ s'.mem.mem (x0Loc d) = m (x0Loc d) ∧ s'.mem.mem (x1Loc d) = m (x1Loc d)

theorem hfin (d : Dev nD) (s' : Phys nD τ sig (Elt F)) : iprop(FIN m d ∗ SI s') ⊢ (⌜fq m d s'⌝ : sProp 𝕄) := by
  iintro ⟨⟨Hr, Hx0, Hx1⟩, HSI⟩
  ihave H := (persistent_entails_right (SI_pointsTo_agree (st := s') (ℓ := rLoc d) (I := Finset.univ) (q := fullShare)
    (f := kernelVal (F := F) (m (x0Loc d)) (m (x1Loc d))))) $$ [HSI Hr]
  · isplitl [HSI] <;> iassumption
  icases H with ⟨%h0, HSI, -⟩
  ihave H := (persistent_entails_right (SI_pointsTo_agree (st := s') (ℓ := x0Loc d) (I := Finset.univ) (q := fullShare) (f := m (x0Loc d)))) $$ [HSI Hx0]
  · isplitl [HSI] <;> iassumption
  icases H with ⟨%h1, HSI, -⟩
  ihave H := (SI_pointsTo_agree (st := s') (ℓ := x1Loc d) (I := Finset.univ) (q := fullShare) (f := m (x1Loc d))) $$ [HSI Hx1]
  · isplitl [HSI] <;> iassumption
  icases H with %h2
  ipureintro
  exact ⟨funext fun i => h0 i (Finset.mem_univ i), funext fun i => h1 i (Finset.mem_univ i), funext fun i => h2 i (Finset.mem_univ i)⟩

end Run

end Body

/-! ## The program's run -/

/-- Every weakly fair execution of the device's threads terminates, and @main's result holds the labels — the kernel's
    array, reshaped — with the two arguments unchanged; from the body's obligation at a symbolic subcore and the split of
    the four arrays into the tasks' parts. -/
theorem run_main [FloatOps F] [∀ e, Nonempty (Elt F e)] (m : (ℓ : Loc nD τ sig) → Buf (Elt F) ℓ) (ρ : Dev nD → PrngReg)
    (htile : ∀ A B Tt O0, TileBodyStmt (F := F) A B Tt O0)
    (hsplit : ∀ A B Tt Oc, SplitStmt (F := F) A B Tt Oc) :
    θ_run (Cert.Kernel.defs (F := F)) (Cert.Kernel.threads (F := F)) ⟨m, fun _ => 0, ρ⟩ (fun r => ∀ c : Dev nD,
      r.2.mem ((c.tc : Thread nD τ).loc main_v9) = kernelVal (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts (htile _ _ _ _))
    (fun q _ => match q with | 0 => SparseCore.Cfg.VecSplit.of_plain (vecSplit m))
    m ρ main (fun _ => iprop(emp)) (FIN m) (u₀ (F := F)) (sep_elim_left.trans (hu₀ m)) (hmain m ρ (hsplit _ _ _ _) (hsplit _ _ _ _)) (fq m) (hfin m) _ (fun _ h => h)

end Cert.Proof.KB

end
-- ==== Proof.RefLaw.lean ====
/-
  The law that joins the two programs, on the extended reals, and the flattened depth map both are read through.

  For positive reals `a`, `s`, `c` the reference labels a pixel pair by the bit of `a / s ≥ c` converted to a float,
  the kernel by a select between the constants one and zero on the bit of `a / c ≥ s`. Both inequalities say
  `s · c ≤ a`, so the two labels are the same extended real. Off the positive reals the two differ (a zero divisor
  sends the quotient to an infinity on one side only), which is why the law is stated for positive reals.
-/
import Idealize.ShloMosaic.Lib.IdealHost

noncomputable section

namespace Cert.Proof.RefSide

open Idealize.ShloMosaic Idealize.ShloMosaic.ValueIdx

/-! ## The depth map, flattened -/

/-- The depth map's shape, [1, 1, 32, 32]. -/
abbrev Sx : Shape := ⟨4, ![1, 1, 32, 32]⟩
/-- The 1024 pixels in a row. -/
abbrev Sflat : Shape := ⟨1, ![1024]⟩

theorem casts_flat : Sx.ShapeCasts Sflat := by decide

/-- Pixel `n` of the depth map in row-major order. -/
def xf {α : Type} (x : Sx.Idx → α) (n : Fin 1024) : α := shapeCast Sflat x casts_flat (ix1 n)

/-- A property of every entry of the depth map is a property of every pixel of the flattened map. -/
theorem xf_of_forall {α : Type} {P : α → Prop} (x : Sx.Idx → α) (h : ∀ i, P (x i)) (n : Fin 1024) : P (xf x n) := h _

/-! ## The law -/

/-- The quotient of two reals, the divisor not zero, is the real quotient. -/
theorem div_coe_coe (a s : ℝ) (hs : s ≠ 0) : Ideal.div (a : EReal) (s : EReal) = ((a / s : ℝ) : EReal) := by
  rw [Ideal.div_coe hs, ← EReal.coe_mul]
  congr 1
  ring

/-- For positive reals, `c ≤ a / s` exactly when `s ≤ a / c`: both say `s · c ≤ a`. -/
theorem le_div_swap (a s c : ℝ) (hs : 0 < s) (hc : 0 < c) : c ≤ a / s ↔ s ≤ a / c := by
  rw [le_div_iff₀ hs, le_div_iff₀ hc, mul_comm]

/-- The two programs' labels agree on positive reals: the reference converts the bit of `a / s ≥ c` to a float, the
    kernel selects between the constants one and zero on the bit of `a / c ≥ s`. -/
theorem label_law (a s c : ℝ) (hs : 0 < s) (hc : 0 < c) :
    FloatOps.uitofp (F := Ideal) .f32 (FloatOps.cmpf (F := Ideal) (φ := .f32) .oge (FloatOps.hostDivf (F := Ideal) (φ := .f32) (a : EReal) (s : EReal)) (c : EReal))
      = Scalar.select (FloatOps.cmpf (F := Ideal) (φ := .f32) .oge (FloatOps.divf (F := Ideal) (φ := .f32) (a : EReal) (c : EReal)) (s : EReal))
          (Scalar.ofBits (F := Ideal) .f32 0x3F800000#32) (Scalar.ofBits (F := Ideal) .f32 0x00000000#32) := by
  show (((Ideal.cmp .oge (Ideal.div (a : EReal) (s : EReal)) (c : EReal)).toNat : ℝ) : EReal)
      = if Ideal.cmp .oge (Ideal.div (a : EReal) (c : EReal)) (s : EReal) = 1#1 then Ideal.ofBits .f32 0x3F800000#32 else Ideal.ofBits .f32 0x00000000#32
  rw [div_coe_coe a s hs.ne', div_coe_coe a c hc.ne', Ideal.ofBits_one_f32, Ideal.ofBits_zero_f32]
  unfold Ideal.cmp
  dsimp only
  by_cases h : c ≤ a / s
  · have h' : s ≤ a / c := (le_div_swap a s c hs hc).mp h
    rw [decide_eq_true (EReal.coe_le_coe_iff.mpr h), decide_eq_true (EReal.coe_le_coe_iff.mpr h')]
    simp
  · have h' : ¬ s ≤ a / c := fun h2 => h ((le_div_swap a s c hs hc).mpr h2)
    rw [decide_eq_false (fun h2 => h (EReal.coe_le_coe_iff.mp h2)), decide_eq_false (fun h2 => h' (EReal.coe_le_coe_iff.mp h2))]
    simp

/-- The law at extended reals known to be positive reals. -/
theorem label_law' (xa xs xc : EReal) (ha : ∃ r : ℝ, 0 < r ∧ xa = (r : EReal)) (hs : ∃ r : ℝ, 0 < r ∧ xs = (r : EReal))
    (hc : ∃ r : ℝ, 0 < r ∧ xc = (r : EReal)) :
    FloatOps.uitofp (F := Ideal) .f32 (FloatOps.cmpf (F := Ideal) (φ := .f32) .oge (FloatOps.hostDivf (F := Ideal) (φ := .f32) xa xs) xc)
      = Scalar.select (FloatOps.cmpf (F := Ideal) (φ := .f32) .oge (FloatOps.divf (F := Ideal) (φ := .f32) xa xc) xs)
          (Scalar.ofBits (F := Ideal) .f32 0x3F800000#32) (Scalar.ofBits (F := Ideal) .f32 0x00000000#32) := by
  obtain ⟨a, _, rfl⟩ := ha
  obtain ⟨s, hs, rfl⟩ := hs
  obtain ⟨c, hc, rfl⟩ := hc
  exact label_law a s c hs hc

end Cert.Proof.RefSide

end
-- ==== Proof.RefPre.lean ====
/-
  What the precondition says of the two arguments: every entry of the depth map and every quantiser level is a
  positive real.

  The precondition is the conjunction of four tests, each an "all" over an array: every `|x|` and every `|q|` is
  below `+∞`, every `x` and every `q` is above zero. An extended real above zero and not `+∞` is a positive real.
-/
import proofs.«210286_g62405874811728_cont_9to1_m_386_18_alg».proof.Defs
import proofs.«210286_g62405874811728_cont_9to1_m_386_18_alg».proof.Proof.Gen.Pre_finite_inputs
import Idealize.ShloMosaic.Lib.ReduceAll
import Idealize.ShloMosaic.Lib.IdealHost

noncomputable section

namespace Cert.Proof.RefSide

open Idealize.ShloMosaic Idealize.ShloMosaic.ValueIdx

instance subsingleton_scalar_idx : Subsingleton Cert.Pre_finite_inputs.S_.Idx := ⟨fun _ _ => funext fun d => d.elim0⟩

/-- A comparison bit that is one says the comparison holds. -/
theorem of_ofBool_decide {p : Prop} [Decidable p] (h : BitVec.ofBool (decide p) = 1#1) : p := by
  by_contra hp
  rw [decide_eq_false hp] at h
  exact absurd h (by decide)

/-- An extended real above zero whose absolute value is below `+∞` is a positive real. -/
theorem pos_real_of_tests (v : EReal)
    (hfin : Ideal.cmp .olt (max v (-v)) (Ideal.ofBits .f32 0x7F800000#32) = 1#1)
    (hpos : Ideal.cmp .ogt v (Ideal.ofBits .f32 0x00000000#32) = 1#1) : ∃ r : ℝ, 0 < r ∧ v = (r : EReal) := by
  have htop : Ideal.ofBits .f32 0x7F800000#32 = ⊤ := by simp [Ideal.ofBits, Ideal.ieee]
  rw [htop] at hfin
  rw [Ideal.ofBits_zero_f32] at hpos
  have h1 : max v (-v) < ⊤ := of_ofBool_decide hfin
  have h2 : (0 : EReal) < v := of_ofBool_decide hpos
  induction v using EReal.rec with
  | bot => exact absurd h2 (by simp)
  | coe r => exact ⟨r, by exact_mod_cast h2, rfl⟩
  | top => exact absurd h1 (by simp)

/-- The precondition, decoded: both arguments hold positive reals only. -/
theorem pre_elts [Cert.Pre_finite_inputs.Facts] (x : FVec Ideal Cert.Pre_finite_inputs.S1x1x32x32 .f32)
    (q : FVec Ideal Cert.Pre_finite_inputs.S40 .f32)
    (h : Cert.Pre_finite_inputs.fn (F := Ideal) x q = fun _ => 1#1) :
    (∀ i, ∃ r : ℝ, 0 < r ∧ x i = (r : EReal)) ∧ (∀ i, ∃ r : ℝ, 0 < r ∧ q i = (r : EReal)) := by
  have h0 := congrFun h ix0
  dsimp only [Cert.Pre_finite_inputs.fn, Cert.Pre_finite_inputs.fn_part1] at h0
  obtain ⟨h12, h15⟩ := IntOp.andi_eq_one.mp h0
  obtain ⟨h8, h11⟩ := IntOp.andi_eq_one.mp h12
  obtain ⟨h3, h7⟩ := IntOp.andi_eq_one.mp h8
  refine ⟨fun i => pos_real_of_tests (x i) ?_ ?_, fun i => pos_real_of_tests (q i) ?_ ?_⟩
  · exact Host.reduce_andi_all _ _ _ _ ix0 h3 i
  · exact Host.reduce_andi_all _ _ _ _ ix0 h11 i
  · exact Host.reduce_andi_all _ _ _ _ ix0 h7 i
  · exact Host.reduce_andi_all _ _ _ _ ix0 h15 i

/-- On every device the kernel's two arguments hold positive reals only. -/
theorem pre_pos [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, 0 < r ∧ m ((c.tc : Thread Cert.KernelIdeal.nD Cert.KernelIdeal.τ).loc Cert.KernelIdeal.main_arg0) i = (r : EReal))
    ∧ (∀ i, ∃ r : ℝ, 0 < r ∧ m ((c.tc : Thread Cert.KernelIdeal.nD Cert.KernelIdeal.τ).loc Cert.KernelIdeal.main_arg1) i = (r : EReal)) :=
  pre_elts _ _ (h c)

end Cert.Proof.RefSide

end
-- ==== Proof.RefRead.lean ====
/-
  The reference, read at one element of its result.

  Element (i, j, k) of the reference's [32, 32, 40960] result is the label of pixel `k / 40` against pixel `32 i + j`
  at quantiser level `k % 40`: the bit of `x[k / 40] / x[32 i + j] ≥ q[k % 40]`, converted to a float.
-/
import proofs.«210286_g62405874811728_cont_9to1_m_386_18_alg».proof.Proof.Gen.ReferenceIdeal.Read
import proofs.«210286_g62405874811728_cont_9to1_m_386_18_alg».proof.Proof.RefLaw

noncomputable section

namespace Cert.Proof.RefSide

open Idealize.ShloMosaic Idealize.ShloMosaic.ValueIdx
open Cert.ReferenceIdeal Cert.ReferenceIdeal.Gen Cert.ReferenceIdeal.Read

variable {F : FTy → Type} [FloatOps F]

/-- The reference's first stage is the flattened depth map. -/
theorem val_main_v0_xf (x : FVec F S1x1x32x32 .f32) (n : Fin 1024) : val_main_v0 (F := F) x (ix1 n) = xf x n := rfl

/-- The reference's result at (i, j, k). -/
theorem ref_at (x : FVec F S1x1x32x32 .f32) (q : FVec F S40 .f32) (a b : Fin 32) (k : Fin 40960) :
    val_main_v13 (F := F) x q (ix3 a b k)
      = FloatOps.uitofp .f32 (FloatOps.cmpf .oge
          (FloatOps.hostDivf (xf x ⟨k.val / 40, by omega⟩) (xf x ⟨a.val * 32 + b.val, by omega⟩))
          (q (ix1 ⟨k.val % 40, by omega⟩))) := by
  have ha : a.val < 32 := a.isLt
  have hb : b.val < 32 := b.isLt
  have hk : k.val < 40960 := k.isLt
  rw [val_main_v13_apply, val_main_v12_apply, val_main_v11_apply, val_main_v9_apply, val_main_v7_apply, val_main_v6_apply,
    val_main_v5_apply, val_main_v3_apply, val_main_v1_apply, val_main_v4_apply, val_main_v2_apply, val_main_v10_apply,
    val_main_v8_apply]
  have e1 : idx_main_v1 (idx_main_v3 (idx_main_v6 (idx_main_v7 (idx_main_v9 (idx_main_v13 (ix3 a b k))))))
      = ix1 (⟨k.val / 40, by omega⟩ : Fin 1024) :=
    funext fun d => Fin.ext (by
      match d with
      | ⟨0, _⟩ =>
        show (((((a.val * 32 + b.val) * 40960 + k.val) / 1310720) * 32 + ((a.val * 32 + b.val) * 40960 + k.val) / 40960 % 32) * 1024
          + ((a.val * 32 + b.val) * 40960 + k.val) / 40 % 1024) % 1024 = k.val / 40
        omega)
  have e2 : idx_main_v2 (idx_main_v4 (idx_main_v6 (idx_main_v7 (idx_main_v9 (idx_main_v13 (ix3 a b k))))))
      = ix1 (⟨a.val * 32 + b.val, by omega⟩ : Fin 1024) :=
    funext fun d => Fin.ext (by
      match d with
      | ⟨0, _⟩ =>
        show (((((a.val * 32 + b.val) * 40960 + k.val) / 1310720) * 32 + ((a.val * 32 + b.val) * 40960 + k.val) / 40960 % 32) * 1024
          + ((a.val * 32 + b.val) * 40960 + k.val) / 40 % 1024) / 1024 = a.val * 32 + b.val
        omega)
  have e3 : idx_main_v8 (idx_main_v10 (idx_main_v13 (ix3 a b k))) = ix1 (⟨k.val % 40, by omega⟩ : Fin 40) :=
    funext fun d => Fin.ext (by
      match d with
      | ⟨0, _⟩ =>
        show ((a.val * 32 + b.val) * 40960 + k.val) % 40 = k.val % 40
        omega)
  rw [e1, e2, e3, val_main_v0_xf, val_main_v0_xf]

end Cert.Proof.RefSide

end
-- ==== Proof.RefKer.lean ====
/-
  The kernel's whole result, read at one element.

  Element (i, j, k) of the kernel's [32, 32, 40960] result is row `32 i + j`, column `k` of the array of labels. The
  operand `a` at `k` is pixel `k / 40` of the depth map, `b` at `k` is quantiser level `k % 40`, and the threshold lane
  `16 r + l` is pixel `r`; so the element is the select between one and zero on the bit of
  `x[k / 40] / q[k % 40] ≥ x[32 i + j]`.
-/
import proofs.«210286_g62405874811728_cont_9to1_m_386_18_alg».proof.Proof.TileSpec
import proofs.«210286_g62405874811728_cont_9to1_m_386_18_alg».proof.Proof.RefLaw
import Idealize.ShloMosaic.Lib.Pipeline.Value

noncomputable section

namespace Cert.Proof.RefSide

open Idealize.ShloMosaic Idealize.ShloMosaic.ValueIdx
open Cert.KernelIdeal Cert.KernelIdeal.Gen Cert.Proof.KI

variable {F : FTy → Type} [FloatOps F]

/-- One lane of the compare-and-select over the quotient: the three shape casts are the identity. -/
theorem pay_at (t a b : Vec F S16 .f32) (l : S16.Idx) :
    k0_pay10 (k0_pay22 t) (k0_pay3 a b) l
      = Scalar.select (FloatOps.cmpf .oge (FloatOps.divf (a l) (b l)) (t l))
          (Scalar.ofBits (F := F) .f32 0x3F800000#32) (Scalar.ofBits (F := F) .f32 0x00000000#32) := by
  unfold k0_pay10 k0_pay22 k0_pay3
  simp only [shapeCast_self]
  rfl

/-- The array of labels at row `r`, column `k`. -/
theorem outBuf_at (A B : S40960.Idx → Elt F .f32) (Tt : S16384.Idx → Elt F .f32) (r : Fin 1024) (k : Fin 40960) :
    OutBuf A B Tt (ix2 r k)
      = Scalar.select (FloatOps.cmpf .oge (FloatOps.divf (A (ix1 k)) (B (ix1 k)))
          (Tt (ix1 (⟨16 * r.val + k.val % 16, by omega⟩ : Fin 16384))))
          (Scalar.ofBits (F := F) .f32 0x3F800000#32) (Scalar.ofBits (F := F) .f32 0x00000000#32) := by
  have hr : r.val < 1024 := r.isLt
  have hk : k.val < 40960 := k.isLt
  unfold OutBuf
  refine (pay_at _ _ _ _).trans ?_
  unfold lanes
  have e : (ix1 (⟨16 * (k.val / 16) + k.val % 16, by omega⟩ : Fin 40960) : S40960.Idx) = ix1 k :=
    congrArg ix1 (Fin.ext (by show 16 * (k.val / 16) + k.val % 16 = k.val; omega))
  show Scalar.select (FloatOps.cmpf .oge
      (FloatOps.divf (A (ix1 (⟨16 * (k.val / 16) + k.val % 16, by omega⟩ : Fin 40960))) (B (ix1 (⟨16 * (k.val / 16) + k.val % 16, by omega⟩ : Fin 40960))))
      (Tt (ix1 (⟨16 * r.val + k.val % 16, by omega⟩ : Fin 16384)))) _ _ = _
  rw [e]

/-- Operand `a` at `m` is pixel `m / 40`. -/
theorem hostA_at (x : FVec F S1x1x32x32 .f32) (m : Fin 40960) :
    hostA x (ix1 m) = xf x ⟨m.val / 40, by omega⟩ := by
  have hm : m.val < 40960 := m.isLt
  unfold hostA
  refine (shapeCast_apply _ shapeCasts_S1024x40_S40960 (ix1 m)
    (ix2 (⟨m.val / 40, by omega⟩ : Fin 1024) (⟨m.val % 40, by omega⟩ : Fin 40))
    (by rewrite [Shape.rowMajor_val_two, Shape.rowMajor_val_one]; show m.val / 40 * 40 + m.val % 40 = m.val; omega)).trans ?_
  refine (broadcastInDim_apply _ bcast_S1024_S1024x40_0 _ _ (ix1 (⟨m.val / 40, by omega⟩ : Fin 1024)) (fun d => match d with
    | ⟨0, _⟩ => by show m.val / 40 = if (1024 : Nat) = 1 then 0 else m.val / 40; rw [if_neg (by decide)])).trans ?_
  rfl

/-- Operand `b` at `m` is quantiser level `m % 40`. -/
theorem hostB_at (q : FVec F S40 .f32) (m : Fin 40960) :
    hostB q (ix1 m) = q (ix1 (⟨m.val % 40, by omega⟩ : Fin 40)) := by
  have hm : m.val < 40960 := m.isLt
  unfold hostB
  refine (shapeCast_apply _ shapeCasts_S1024x40_S40960 (ix1 m)
    (ix2 (⟨m.val / 40, by omega⟩ : Fin 1024) (⟨m.val % 40, by omega⟩ : Fin 40))
    (by rewrite [Shape.rowMajor_val_two, Shape.rowMajor_val_one]; show m.val / 40 * 40 + m.val % 40 = m.val; omega)).trans ?_
  refine (broadcastInDim_apply _ bcast_S1x40_S1024x40_0_1 _ _ (ix2 (⟨0, Nat.one_pos⟩ : Fin 1) (⟨m.val % 40, by omega⟩ : Fin 40)) (fun d => match d with
    | ⟨0, _⟩ => by show 0 = if (1 : Nat) = 1 then 0 else m.val / 40; rw [if_pos rfl]
    | ⟨1, _⟩ => by show m.val % 40 = if (40 : Nat) = 1 then 0 else m.val % 40; rw [if_neg (by decide)])).trans ?_
  exact shapeCast_apply q shapeCasts_S40_S1x40 _ (ix1 (⟨m.val % 40, by omega⟩ : Fin 40))
    (by rewrite [Shape.rowMajor_val_one, Shape.rowMajor_val_two]; show m.val % 40 = 0 * 40 + m.val % 40; omega)

/-- The threshold at `m` is pixel `m / 16`. -/
theorem hostT_at (x : FVec F S1x1x32x32 .f32) (m : Fin 16384) :
    hostT x (ix1 m) = xf x ⟨m.val / 16, by omega⟩ := by
  have hm : m.val < 16384 := m.isLt
  unfold hostT
  refine (shapeCast_apply _ shapeCasts_S1024x16_S16384 (ix1 m)
    (ix2 (⟨m.val / 16, by omega⟩ : Fin 1024) (⟨m.val % 16, by omega⟩ : Fin 16))
    (by rewrite [Shape.rowMajor_val_two, Shape.rowMajor_val_one]; show m.val / 16 * 16 + m.val % 16 = m.val; omega)).trans ?_
  refine (broadcastInDim_apply _ bcast_S1024_S1024x16_0 _ _ (ix1 (⟨m.val / 16, by omega⟩ : Fin 1024)) (fun d => match d with
    | ⟨0, _⟩ => by show m.val / 16 = if (1024 : Nat) = 1 then 0 else m.val / 16; rw [if_neg (by decide)])).trans ?_
  rfl

/-- The kernel's result at (i, j, k). -/
theorem ker_at (x : FVec F S1x1x32x32 .f32) (q : FVec F S40 .f32) (a b : Fin 32) (k : Fin 40960) :
    kernelVal x q (ix3 a b k)
      = Scalar.select (FloatOps.cmpf .oge
          (FloatOps.divf (xf x ⟨k.val / 40, by omega⟩) (q (ix1 (⟨k.val % 40, by omega⟩ : Fin 40))))
          (xf x ⟨a.val * 32 + b.val, by omega⟩))
          (Scalar.ofBits (F := F) .f32 0x3F800000#32) (Scalar.ofBits (F := F) .f32 0x00000000#32) := by
  have ha : a.val < 32 := a.isLt
  have hb : b.val < 32 := b.isLt
  have hk : k.val < 40960 := k.isLt
  unfold kernelVal
  refine (shapeCast_apply _ shapeCasts_S1024x40960_S32x32x40960 (ix3 a b k)
    (ix2 (⟨a.val * 32 + b.val, by omega⟩ : Fin 1024) k)
    (by rewrite [Shape.rowMajor_val_two, Shape.rowMajor_val_three]; rfl)).trans ?_
  rw [outBuf_at, hostA_at, hostB_at, hostT_at]
  have e : (⟨(16 * (a.val * 32 + b.val) + k.val % 16) / 16, by omega⟩ : Fin 1024) = ⟨a.val * 32 + b.val, by omega⟩ :=
    Fin.ext (by show (16 * (a.val * 32 + b.val) + k.val % 16) / 16 = a.val * 32 + b.val; omega)
  rw [e]

end Cert.Proof.RefSide

end
-- ==== Proof.RefSide.lean ====
/-
  The reference side of the certificate and the value the two programs share.

  The reference labels the pair (pixel `p`, pixel `r`) at quantiser level `c` by `x[p] / x[r] ≥ q[c]`; the kernel by
  `x[p] / q[c] ≥ x[r]`. On positive reals both say `x[r] · q[c] ≤ x[p]`, and the precondition makes every entry of
  both arguments a positive real. So the reference's result, element by element, is the kernel's array of labels
  reshaped; the reference's frame is its run with the result dropped; and once the kernel's run is known to end at
  that array with its arguments unchanged, the two runs end at one value.
-/
import proofs.«210286_g62405874811728_cont_9to1_m_386_18_alg».proof.Defs
import proofs.«210286_g62405874811728_cont_9to1_m_386_18_alg».proof.Proof.TileSpec
import proofs.«210286_g62405874811728_cont_9to1_m_386_18_alg».proof.Proof.Gen.ReferenceIdeal.Run
import proofs.«210286_g62405874811728_cont_9to1_m_386_18_alg».proof.Proof.Gen.ReferenceIdeal.Read
import proofs.«210286_g62405874811728_cont_9to1_m_386_18_alg».proof.Proof.Gen.Pre_finite_inputs
import proofs.«210286_g62405874811728_cont_9to1_m_386_18_alg».proof.Proof.RefLaw
import proofs.«210286_g62405874811728_cont_9to1_m_386_18_alg».proof.Proof.RefPre
import proofs.«210286_g62405874811728_cont_9to1_m_386_18_alg».proof.Proof.RefRead
import proofs.«210286_g62405874811728_cont_9to1_m_386_18_alg».proof.Proof.RefKer

noncomputable section

namespace Cert.Proof.RefSide

open Idealize.ShloMosaic Idealize.ShloMosaic.TcCoe Idealize.SL.Sem Idealize.ShloMosaic.ValueIdx

/-- Every pixel of a depth map of positive reals is a positive real. -/
theorem xf_pos (x : Sx.Idx → EReal) (hx : ∀ i, ∃ r : ℝ, 0 < r ∧ x i = (r : EReal)) (n : Fin 1024) :
    ∃ r : ℝ, 0 < r ∧ xf x n = (r : EReal) := hx _

open Cert.ReferenceIdeal Cert.ReferenceIdeal.Gen in
/-- On positive reals the reference's result is the kernel's array of labels, reshaped. -/
theorem value_eq (x : FVec Ideal Cert.KernelIdeal.S1x1x32x32 .f32) (q : FVec Ideal Cert.KernelIdeal.S40 .f32)
    (hx : ∀ i, ∃ r : ℝ, 0 < r ∧ x i = (r : EReal)) (hq : ∀ i, ∃ r : ℝ, 0 < r ∧ q i = (r : EReal)) :
    shapeCast _ (uitofp .f32 (cmpf .oge (broadcastInDim S32x32x1024x40 ![0, 1, 2, 3] bcast_S32x32x1024x1_S32x32x1024x40_0_1_2_3 (broadcastInDim S32x32x1024x1 ![0, 1, 2] bcast_S32x32x1024_S32x32x1024x1_0_1_2 (shapeCast _ (Host.divf (broadcastInDim S1024x1024 ![0, 1] bcast_S1x1024_S1024x1024_0_1 (broadcastInDim S1x1024 ![1] bcast_S1024_S1x1024_1 (shapeCast _ (x) shapeCasts_S1x1x32x32_S1024))) (broadcastInDim S1024x1024 ![0, 1] bcast_S1024x1_S1024x1024_0_1 (broadcastInDim S1024x1 ![0] bcast_S1024_S1024x1_0 (shapeCast _ (x) shapeCasts_S1x1x32x32_S1024)))) shapeCasts_S1024x1024_S32x32x1024))) (broadcastInDim S32x32x1024x40 ![0, 1, 2, 3] bcast_S1x1x1x40_S32x32x1024x40_0_1_2_3 (broadcastInDim S1x1x1x40 ![3] bcast_S40_S1x1x1x40_3 (q))))) shapeCasts_S32x32x1024x40_S32x32x40960
      = Cert.Proof.KI.kernelVal (F := Ideal) x q := by
  rw [Cert.ReferenceIdeal.Read.val_main_v13_eq]
  funext i
  obtain ⟨a, b, k, rfl⟩ : ∃ (a b : Fin 32) (k : Fin 40960), i = ix3 a b k := ⟨i 0, i 1, i 2, eq_ix3 i⟩
  rw [ref_at, ker_at]
  exact label_law' _ _ _ (xf_pos x hx _) (xf_pos x hx _) (hq _)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Given that the kernel's run ends at the array of labels with its arguments unchanged, the kernel and the reference,
    started on agreeing arguments that satisfy the precondition, end at one value. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (Cert.KernelIdeal.threads (F := Ideal)) ⟨m, fun _ => 0, ρ⟩ (fun r => ∀ c : Dev Cert.KernelIdeal.nD,
        r.2.mem ((c.tc : Thread Cert.KernelIdeal.nD Cert.KernelIdeal.τ).loc Cert.KernelIdeal.main_v9)
            = Cert.Proof.KI.kernelVal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m ρ m' ρ' hpre hagree
  refine ⟨fun c => Cert.Proof.KI.kernelVal (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), hrun m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact value_eq _ _ (pre_pos m hpre c).1 (pre_pos m hpre c).2

end Cert.Proof.RefSide

end
-- ==== Proof.lean ====
/-
  The labelling kernel against its reference. Both take a 32×32 depth map `x` (flattened: 1024 pixels) and forty
  quantiser levels `q`, and give every triple (pixel `r`, pixel `p`, level `c`) the label 1 or 0: the reference by
  `x[p] / x[r] ≥ q[c]`; the kernel — on the 32 vector subcores, each writing 32 of the 1024 rows of the result — by
  `x[p] / q[c] ≥ x[r]`. For positive reals both say `x[r] · q[c] ≤ x[p]`, and the precondition makes every depth and every
  level a positive real: at the ideal instance the two results are equal, element by element. The kernel's run, at either
  instance, ends with the result at the labels and the two arguments unchanged; its frames are that run with the result
  dropped, as the reference's frame is the reference's run with the result dropped.
-/
import proofs.«210286_g62405874811728_cont_9to1_m_386_18_alg».proof.Defs
import proofs.«210286_g62405874811728_cont_9to1_m_386_18_alg».proof.Proof.Gen.Kernel
import proofs.«210286_g62405874811728_cont_9to1_m_386_18_alg».proof.Proof.Gen.Kernel.Skeleton
import proofs.«210286_g62405874811728_cont_9to1_m_386_18_alg».proof.Proof.Gen.KernelIdeal
import proofs.«210286_g62405874811728_cont_9to1_m_386_18_alg».proof.Proof.Gen.KernelIdeal.Skeleton
import proofs.«210286_g62405874811728_cont_9to1_m_386_18_alg».proof.Proof.Gen.ReferenceIdeal
import proofs.«210286_g62405874811728_cont_9to1_m_386_18_alg».proof.Proof.Gen.Pre_finite_inputs
import Idealize.ShloMosaic.Adequacy
import Idealize.ShloMosaic.Init
import proofs.«210286_g62405874811728_cont_9to1_m_386_18_alg».proof.Proof.TileBody
import proofs.«210286_g62405874811728_cont_9to1_m_386_18_alg».proof.Proof.BTileBody
import proofs.«210286_g62405874811728_cont_9to1_m_386_18_alg».proof.Proof.Split
import proofs.«210286_g62405874811728_cont_9to1_m_386_18_alg».proof.Proof.BSplit
import proofs.«210286_g62405874811728_cont_9to1_m_386_18_alg».proof.Proof.Launch
import proofs.«210286_g62405874811728_cont_9to1_m_386_18_alg».proof.Proof.BLaunch
import proofs.«210286_g62405874811728_cont_9to1_m_386_18_alg».proof.Proof.RefSide

noncomputable section

namespace Cert.Proof

open Idealize.ShloMosaic Idealize.SL.Sem

/-- The word-level program's frame: its run with the result dropped. -/
theorem frame_kernel : Cert.frame_Kernel := fun m ρ _ =>
  (θ_run Cert.Kernel.defs _ _).mono (fun _ h c => (h c).2)
    (Cert.Proof.KB.run_main (F := Bits) m ρ (fun A B Tt O0 => Cert.Proof.KB.tile_body A B Tt O0) (fun A B Tt Oc => Cert.Proof.KB.split_tiles A B Tt Oc))

/-- The idealized program's run: the result at the labels, the arguments unchanged. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v9)
          = Cert.Proof.KI.kernelVal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  Cert.Proof.KI.run_main (F := Ideal) m ρ (fun A B Tt O0 => Cert.Proof.KI.tile_body A B Tt O0) (fun A B Tt Oc => Cert.Proof.KI.split_tiles A B Tt Oc)

/-- The idealized program's frame: that run with the result dropped. -/
theorem frame_kernelIdeal : Cert.frame_KernelIdeal := fun m ρ _ =>
  (θ_run Cert.KernelIdeal.defs _ _).mono (fun _ h c => (h c).2) (run_ideal m ρ)

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefSide.frame_ri, trivial, Cert.Proof.RefSide.algebraic_of_run run_ideal⟩

end Cert.Proof

end
